-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v121)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part3 {F : FTy → Type} [FloatOps F] (main_v48 : IVec S_ 1) (main_v49 : FVec F S2 .f32) (main_v50 : FVec F S2 .f32) : IVec S_ 1 :=
  let main_v51 : IVec S2 1 := cmpf .olt main_v49 main_v50
  let main_c_19 : IVec S_ 1 := constantI S_ 1 1#1
  let main_v52 : IVec S_ 1 := (fun x v => Host.reduce IntOp.andi x v reducesTo_S2_S_d0 h_S_) main_v51 main_c_19
  let main_v53 : IVec S_ 1 := andi main_v48 main_v52
  main_v53

def fn_part2 {F : FTy → Type} [FloatOps F] (main_arg9 : FVec F S128 .f32) (main_arg10 : FVec F S128 .f32) (main_arg11 : FVec F S128x2 .f32) (main_arg12 : FVec F S2 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x2 .f32 := Host.absf main_arg11
  let main_cst_16 : FVec F S_ .f32 := constant S_ .f32 0x7F800000#32
  let main_v45 : FVec F S128x2 .f32 := broadcastInDim S128x2 ![] bcast_S_S128x2 main_cst_16
  let main_v46 : IVec S128x2 1 := cmpf .olt main_v44 main_v45
  let main_c_17 : IVec S_ 1 := constantI S_ 1 1#1
  let main_v47 : IVec S_ 1 := (fun x v => Host.reduce IntOp.andi x v reducesTo_S128x2_S_d0_1 h_S_) main_v46 main_c_17
  let main_v48 : IVec S_ 1 := andi main_v43 main_v47
  let main_v49 : FVec F S2 .f32 := Host.absf main_arg12
  let main_cst_18 : FVec F S_ .f32 := constant S_ .f32 0x7F800000#32
  let main_v50 : FVec F S2 .f32 := broadcastInDim S2 ![] bcast_S_S2 main_cst_18
  fn_part3 (F := F) main_v48 main_v49 main_v50

def fn_part1 {F : FTy → Type} [FloatOps F] (main_arg6 : FVec F S128 .f32) (main_arg7 : FVec F S128x128 .f32) (main_arg8 : FVec F S128 .f32) (main_arg9 : FVec F S128 .f32) (main_arg10 : FVec F S128 .f32) (main_arg11 : FVec F S128x2 .f32) (main_arg12 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_arg11 main_arg12 main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x2 .f32) (main_arg12 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_arg12 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S1x2 : Shape := ⟨2, ![1, 2]⟩
abbrev S512x2 : Shape := ⟨2, ![512, 2]⟩

abbrev nBuf : Space → Nat
  | .hbm => 211
  | .vmem => 40
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x2, .f32⟩
  | 12 => ⟨S2, .f32⟩
  | 13 => ⟨S1x1600000, .i32⟩
  | 14 => ⟨S1600000, .i32⟩
  | 15 => ⟨S1x1600000, .i32⟩
  | 16 => ⟨S1600000, .i32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S_, .f32⟩
  | 73 => ⟨S128, .f32⟩
  | 74 => ⟨S1x128, .f32⟩
  | 75 => ⟨S_, .f32⟩
  | 76 => ⟨S1x128, .f32⟩
  | 77 => ⟨S1x128, .f32⟩
  | 78 => ⟨S_, .i32⟩
  | 79 => ⟨S_, .f32⟩
  | 80 => ⟨S128, .f32⟩
  | 81 => ⟨S1x128, .f32⟩
  | 82 => ⟨S_, .f32⟩
  | 83 => ⟨S1x128, .f32⟩
  | 84 => ⟨S1x128, .f32⟩
  | 85 => ⟨S100000x128, .f32⟩
  | 86 => ⟨S100000x128, .f32⟩
  | 87 => ⟨S100000x128, .f32⟩
  | 88 => ⟨S_, .f32⟩
  | 89 => ⟨S_, .f32⟩
  | 90 => ⟨S_, .f32⟩
  | 91 => ⟨S_, .f32⟩
  | 92 => ⟨S128, .f32⟩
  | 93 => ⟨S1x128, .f32⟩
  | 94 => ⟨S1x128, .f32⟩
  | 95 => ⟨S1x128, .f32⟩
  | 96 => ⟨S_, .f32⟩
  | 97 => ⟨S_, .i1⟩
  | 98 => ⟨S_, .f32⟩
  | 99 => ⟨S_, .f32⟩
  | 100 => ⟨S1x128, .f32⟩
  | 101 => ⟨S1x128, .f32⟩
  | 102 => ⟨S1x128, .f32⟩
  | 103 => ⟨S1x128, .f32⟩
  | 104 => ⟨S100000x128, .f32⟩
  | 105 => ⟨S100000x128, .f32⟩
  | 106 => ⟨S_, .f32⟩
  | 107 => ⟨S1600000, .f32⟩
  | 108 => ⟨S_, .f32⟩
  | 109 => ⟨S100000, .f32⟩
  | 110 => ⟨S1600000x1, .i32⟩
  | 111 => ⟨S100000, .f32⟩
  | 112 => ⟨S_, .f32⟩
  | 113 => ⟨S100000, .f32⟩
  | 114 => ⟨S100000, .f32⟩
  | 115 => ⟨S100000, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000, .f32⟩
  | 125 => ⟨S_, .i32⟩
  | 126 => ⟨S1600000, .i32⟩
  | 127 => ⟨S1600000, .i1⟩
  | _ => ⟨S100000x128, .f32⟩

abbrev hbmTy0_1 (i : Nat) : BufTy := match i % 128 with
  | 0 => ⟨S_, .i32⟩
  | 1 => ⟨S1600000, .i32⟩
  | 2 => ⟨S1600000, .i32⟩
  | 3 => ⟨S1600000, .i32⟩
  | 4 => ⟨S1600000x1, .i32⟩
  | 5 => ⟨S1600000, .f32⟩
  | 6 => ⟨S1600000, .f32⟩
  | 7 => ⟨S_, .i32⟩
  | 8 => ⟨S1600000, .i32⟩
  | 9 => ⟨S1600000, .i1⟩
  | 10 => ⟨S_, .i32⟩
  | 11 => ⟨S1600000, .i32⟩
  | 12 => ⟨S1600000, .i32⟩
  | 13 => ⟨S1600000, .i32⟩
  | 14 => ⟨S1600000x1, .i32⟩
  | 15 => ⟨S1600000x128, .f32⟩
  | 16 => ⟨S1600000x1, .f32⟩
  | 17 => ⟨S1600000x128, .f32⟩
  | 18 => ⟨S1600000x128, .f32⟩
  | 19 => ⟨S_, .f32⟩
  | 20 => ⟨S100000x128, .f32⟩
  | 21 => ⟨S1600000x1, .i32⟩
  | 22 => ⟨S100000x128, .f32⟩
  | 23 => ⟨S_, .f32⟩
  | 24 => ⟨S100000, .f32⟩
  | 25 => ⟨S100000, .f32⟩
  | 26 => ⟨S100000x1, .f32⟩
  | 27 => ⟨S100000x128, .f32⟩
  | 28 => ⟨S100000x128, .f32⟩
  | 29 => ⟨S100000x128, .f32⟩
  | 30 => ⟨S1x128, .f32⟩
  | 31 => ⟨S100000x128, .f32⟩
  | 32 => ⟨S_, .f32⟩
  | 33 => ⟨S128, .f32⟩
  | 34 => ⟨S1x128, .f32⟩
  | 35 => ⟨S_, .f32⟩
  | 36 => ⟨S1x128, .f32⟩
  | 37 => ⟨S1x128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S100000x128, .f32⟩
  | 46 => ⟨S100000x128, .f32⟩
  | 47 => ⟨S100000x128, .f32⟩
  | 48 => ⟨S_, .f32⟩
  | 49 => ⟨S_, .f32⟩
  | 50 => ⟨S_, .f32⟩
  | 51 => ⟨S_, .f32⟩
  | 52 => ⟨S128, .f32⟩
  | 53 => ⟨S1x128, .f32⟩
  | 54 => ⟨S1x128, .f32⟩
  | 55 => ⟨S1x128, .f32⟩
  | 56 => ⟨S_, .f32⟩
  | 57 => ⟨S_, .i1⟩
  | 58 => ⟨S_, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S100000x128, .f32⟩
  | 65 => ⟨S_, .f32⟩
  | 66 => ⟨S512x128, .f32⟩
  | 67 => ⟨S100000x1, .i32⟩
  | 68 => ⟨S512x128, .f32⟩
  | 69 => ⟨S_, .f32⟩
  | 70 => ⟨S100000, .f32⟩
  | 71 => ⟨S_, .f32⟩
  | 72 => ⟨S512, .f32⟩
  | 73 => ⟨S100000x1, .i32⟩
  | 74 => ⟨S512, .f32⟩
  | 75 => ⟨S_, .f32⟩
  | 76 => ⟨S512, .f32⟩
  | 77 => ⟨S512, .f32⟩
  | 78 => ⟨S512x1, .f32⟩
  | 79 => ⟨S512x128, .f32⟩
  | 80 => ⟨S512x128, .f32⟩
  | 81 => ⟨S1x2, .f32⟩
  | 82 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S1x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S512x128, .f32⟩
  | .local _ .vmem, ⟨37, _⟩ => ⟨S128x2, .f32⟩
  | .local _ .vmem, ⟨38, _⟩ => ⟨S1x2, .f32⟩
  | .local _ .vmem, ⟨39, _⟩ => ⟨S512x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_c_11 : Ref sig .tc := ⟨.hbm, 78, rfl⟩
abbrev main_call0_cst : Ref sig .tc := ⟨.hbm, 79, rfl⟩
abbrev main_call0_v0 : Ref sig .tc := ⟨.hbm, 80, rfl⟩
abbrev main_call0_v1 : Ref sig .tc := ⟨.hbm, 81, rfl⟩
abbrev main_call0_cst_0 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_v5 : Ref sig .tc := ⟨.hbm, 86, rfl⟩
abbrev main_call0_v6 : Ref sig .tc := ⟨.hbm, 87, rfl⟩
abbrev main_call0_v7 : Ref sig .tc := ⟨.hbm, 88, rfl⟩
abbrev main_call0_cst_1 : Ref sig .tc := ⟨.hbm, 89, rfl⟩
abbrev main_call0_v8 : Ref sig .tc := ⟨.hbm, 90, rfl⟩
abbrev main_call0_cst_2 : Ref sig .tc := ⟨.hbm, 91, rfl⟩
abbrev main_call0_v9 : Ref sig .tc := ⟨.hbm, 92, rfl⟩
abbrev main_call0_v10 : Ref sig .tc := ⟨.hbm, 93, rfl⟩
abbrev main_call0_v11 : Ref sig .tc := ⟨.hbm, 94, rfl⟩
abbrev main_call0_v12 : Ref sig .tc := ⟨.hbm, 95, rfl⟩
abbrev main_call0_cst_3 : Ref sig .tc := ⟨.hbm, 96, rfl⟩
abbrev main_call0_v13 : Ref sig .tc := ⟨.hbm, 97, rfl⟩
abbrev main_call0_cst_4 : Ref sig .tc := ⟨.hbm, 98, rfl⟩
abbrev main_call0_call0_v0 : Ref sig .tc := ⟨.hbm, 99, rfl⟩
abbrev main_call0_call0_v1 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_cst_12 : Ref sig .tc := ⟨.hbm, 106, rfl⟩
abbrev main_v57 : Ref sig .tc := ⟨.hbm, 107, rfl⟩
abbrev main_cst_13 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_cst_14 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_c_15 : Ref sig .tc := ⟨.hbm, 116, rfl⟩
abbrev main_v64 : Ref sig .tc := ⟨.hbm, 117, rfl⟩
abbrev main_v65 : Ref sig .tc := ⟨.hbm, 118, rfl⟩
abbrev main_c_16 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_c_17 : Ref sig .tc := ⟨.hbm, 125, rfl⟩
abbrev main_v71 : Ref sig .tc := ⟨.hbm, 126, rfl⟩
abbrev main_v72 : Ref sig .tc := ⟨.hbm, 127, rfl⟩
abbrev main_c_18 : Ref sig .tc := ⟨.hbm, 128, rfl⟩
abbrev main_v73 : Ref sig .tc := ⟨.hbm, 129, rfl⟩
abbrev main_v74 : Ref sig .tc := ⟨.hbm, 130, rfl⟩
abbrev main_v75 : Ref sig .tc := ⟨.hbm, 131, rfl⟩
abbrev main_v76 : Ref sig .tc := ⟨.hbm, 132, rfl⟩
abbrev main_v77 : Ref sig .tc := ⟨.hbm, 133, rfl⟩
abbrev main_v78 : Ref sig .tc := ⟨.hbm, 134, rfl⟩
abbrev main_c_19 : Ref sig .tc := ⟨.hbm, 135, rfl⟩
abbrev main_v79 : Ref sig .tc := ⟨.hbm, 136, rfl⟩
abbrev main_v80 : Ref sig .tc := ⟨.hbm, 137, rfl⟩
abbrev main_c_20 : Ref sig .tc := ⟨.hbm, 138, rfl⟩
abbrev main_v81 : Ref sig .tc := ⟨.hbm, 139, rfl⟩
abbrev main_v82 : Ref sig .tc := ⟨.hbm, 140, rfl⟩
abbrev main_v83 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_cst_21 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_cst_22 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_cst_23 : Ref sig .tc := ⟨.hbm, 160, rfl⟩
abbrev main_v100 : Ref sig .tc := ⟨.hbm, 161, rfl⟩
abbrev main_v101 : Ref sig .tc := ⟨.hbm, 162, rfl⟩
abbrev main_cst_24 : Ref sig .tc := ⟨.hbm, 163, rfl⟩
abbrev main_v102 : Ref sig .tc := ⟨.hbm, 164, rfl⟩
abbrev main_v103 : Ref sig .tc := ⟨.hbm, 165, rfl⟩
abbrev main_c_25 : Ref sig .tc := ⟨.hbm, 166, rfl⟩
abbrev main_call1_cst : Ref sig .tc := ⟨.hbm, 167, rfl⟩
abbrev main_call1_v0 : Ref sig .tc := ⟨.hbm, 168, rfl⟩
abbrev main_call1_v1 : Ref sig .tc := ⟨.hbm, 169, rfl⟩
abbrev main_call1_cst_0 : Ref sig .tc := ⟨.hbm, 170, rfl⟩
abbrev main_call1_v2 : Ref sig .tc := ⟨.hbm, 171, rfl⟩
abbrev main_call1_v3 : Ref sig .tc := ⟨.hbm, 172, rfl⟩
abbrev main_call1_v4 : Ref sig .tc := ⟨.hbm, 173, rfl⟩
abbrev main_call1_v5 : Ref sig .tc := ⟨.hbm, 174, rfl⟩
abbrev main_call1_v6 : Ref sig .tc := ⟨.hbm, 175, rfl⟩
abbrev main_call1_v7 : Ref sig .tc := ⟨.hbm, 176, rfl⟩
abbrev main_call1_cst_1 : Ref sig .tc := ⟨.hbm, 177, rfl⟩
abbrev main_call1_v8 : Ref sig .tc := ⟨.hbm, 178, rfl⟩
abbrev main_call1_cst_2 : Ref sig .tc := ⟨.hbm, 179, rfl⟩
abbrev main_call1_v9 : Ref sig .tc := ⟨.hbm, 180, rfl⟩
abbrev main_call1_v10 : Ref sig .tc := ⟨.hbm, 181, rfl⟩
abbrev main_call1_v11 : Ref sig .tc := ⟨.hbm, 182, rfl⟩
abbrev main_call1_v12 : Ref sig .tc := ⟨.hbm, 183, rfl⟩
abbrev main_call1_cst_3 : Ref sig .tc := ⟨.hbm, 184, rfl⟩
abbrev main_call1_v13 : Ref sig .tc := ⟨.hbm, 185, rfl⟩
abbrev main_call1_cst_4 : Ref sig .tc := ⟨.hbm, 186, rfl⟩
abbrev main_call1_call0_v0 : Ref sig .tc := ⟨.hbm, 187, rfl⟩
abbrev main_call1_call0_v1 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_cst_26 : Ref sig .tc := ⟨.hbm, 193, rfl⟩
abbrev main_v108 : Ref sig .tc := ⟨.hbm, 194, rfl⟩
abbrev main_v109 : Ref sig .tc := ⟨.hbm, 195, rfl⟩
abbrev main_v110 : Ref sig .tc := ⟨.hbm, 196, rfl⟩
abbrev main_cst_27 : Ref sig .tc := ⟨.hbm, 197, rfl⟩
abbrev main_v111 : Ref sig .tc := ⟨.hbm, 198, rfl⟩
abbrev main_cst_28 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_cst_29 : Ref sig .tc := ⟨.hbm, 203, rfl⟩
abbrev main_v115 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg4_0 : Ref sig .tc := ⟨.vmem, 15, rfl⟩
abbrev cc2_stg5_0 : Ref sig .tc := ⟨.vmem, 16, rfl⟩
abbrev cc2_stg5_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg2_1 : Ref sig .tc := ⟨.vmem, 27, rfl⟩
abbrev cc5_stg0_0 : Ref sig .tc := ⟨.vmem, 28, rfl⟩
abbrev cc5_stg0_1 : Ref sig .tc := ⟨.vmem, 29, rfl⟩
abbrev cc5_stg1_0 : Ref sig .tc := ⟨.vmem, 30, rfl⟩
abbrev cc5_stg2_0 : Ref sig .tc := ⟨.vmem, 31, rfl⟩
abbrev cc5_stg3_0 : Ref sig .tc := ⟨.vmem, 32, rfl⟩
abbrev cc5_stg4_0 : Ref sig .tc := ⟨.vmem, 33, rfl⟩
abbrev cc5_stg5_0 : Ref sig .tc := ⟨.vmem, 34, rfl⟩
abbrev cc5_stg5_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem5_0 : DmaSem sig := 16
abbrev cc2_sem5_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem2_1 : DmaSem sig := 27
abbrev cc5_sem0_0 : DmaSem sig := 28
abbrev cc5_sem0_1 : DmaSem sig := 29
abbrev cc5_sem1_0 : DmaSem sig := 30
abbrev cc5_sem2_0 : DmaSem sig := 31
abbrev cc5_sem3_0 : DmaSem sig := 32
abbrev cc5_sem4_0 : DmaSem sig := 33
abbrev cc5_sem5_0 : DmaSem sig := 34
abbrev cc5_sem5_1 : DmaSem sig := 35
abbrev cc6_sem0_0 : DmaSem sig := 36
abbrev cc6_sem1_0 : DmaSem sig := 37
abbrev cc6_sem2_0 : DmaSem sig := 38
abbrev cc6_sem3_0 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S512x128 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S128x2 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S512x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S2_S1x2 : S2.ShapeCasts S1x2
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x2_S128x2_0_0 : ∀ a, (![0, 0] : Fin 2 → Nat) a + S128x2.size a ≤ S128x2.size a
  h_S128x2 : 0 < S128x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S512x2 : S1x2.Broadcasts S512x2
  inb_S512x2_S512x2_0_0 : ∀ a, (![0, 0] : Fin 2 → Nat) a + S512x2.size a ≤ S512x2.size a
  h_S512x2 : 0 < S512x2.numel
  dot_S5000x128_S128x128_S5000x128_1_0_0_1_n_n_wf : DotDims.WF S5000x128 S128x128 S5000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S100000x128.size a
  hwx4_2 : ∀ i : grid4.Coords, EltTy.bits .f32 = 32 ∨ (Rect.block (s := S100000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S512x128.size a ≤ S512x128.size a
  hwx6_0 : ∀ i : grid6.Coords, EltTy.bits .f32 = 32 ∨ (Rect.block (s := S512x128) S512x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x2.size a ≤ S128x2.size a
  hwx6_1 : ∀ i : grid6.Coords, EltTy.bits .f32 = 32 ∨ (Rect.block (s := S128x2) S128x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x2.size a ≤ S1x2.size a
  hwx6_2 : ∀ i : grid6.Coords, EltTy.bits .f32 = 32 ∨ (Rect.block (s := S1x2) S1x2.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S512x2.size a ≤ S512x2.size a
  hwx6_3 : ∀ i : grid6.Coords, EltTy.bits .f32 = 32 ∨ (Rect.block (s := S512x2) S512x2.size (cc6_transform_3 i) (hinb6_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v53) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v54) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v55) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v55) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v56) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v97) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v99) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v103) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v105) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v106) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v107) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v119) S512x128.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S128x2.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v120) S1x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v121) S512x2.size cc6_transform_3 reads6_3 true true 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x2 : Shape := ⟨2, ![512, 2]⟩
abbrev S1x2 : Shape := ⟨2, ![1, 2]⟩

abbrev nBuf : Space → Nat
  | .hbm => 251
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x2, .f32⟩
  | 12 => ⟨S2, .f32⟩
  | 13 => ⟨S1x1600000, .i32⟩
  | 14 => ⟨S1600000, .i32⟩
  | 15 => ⟨S1x1600000, .i32⟩
  | 16 => ⟨S1600000, .i32⟩
  | 17 => ⟨S100000x128, .f32⟩
  | 18 => ⟨S_, .f32⟩
  | 19 => ⟨S1600000, .f32⟩
  | 20 => ⟨S_, .f32⟩
  | 21 => ⟨S100000, .f32⟩
  | 22 => ⟨S1600000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S_, .i32⟩
  | 29 => ⟨S1600000, .i32⟩
  | 30 => ⟨S1600000, .i1⟩
  | 31 => ⟨S_, .i32⟩
  | 32 => ⟨S1600000, .i32⟩
  | 33 => ⟨S1600000, .i32⟩
  | 34 => ⟨S1600000, .i32⟩
  | 35 => ⟨S1600000x1, .i32⟩
  | 36 => ⟨S1600000, .f32⟩
  | 37 => ⟨S_, .i32⟩
  | 38 => ⟨S1600000, .i32⟩
  | 39 => ⟨S1600000, .i1⟩
  | 40 => ⟨S_, .i32⟩
  | 41 => ⟨S1600000, .i32⟩
  | 42 => ⟨S1600000, .i32⟩
  | 43 => ⟨S1600000, .i32⟩
  | 44 => ⟨S1600000x1, .i32⟩
  | 45 => ⟨S1600000, .f32⟩
  | 46 => ⟨S1600000, .f32⟩
  | 47 => ⟨S_, .i32⟩
  | 48 => ⟨S1600000, .i32⟩
  | 49 => ⟨S1600000, .i1⟩
  | 50 => ⟨S_, .i32⟩
  | 51 => ⟨S1600000, .i32⟩
  | 52 => ⟨S1600000, .i32⟩
  | 53 => ⟨S1600000, .i32⟩
  | 54 => ⟨S1600000x1, .i32⟩
  | 55 => ⟨S1600000x128, .f32⟩
  | 56 => ⟨S1600000x1, .f32⟩
  | 57 => ⟨S1600000x128, .f32⟩
  | 58 => ⟨S1600000x128, .f32⟩
  | 59 => ⟨S_, .f32⟩
  | 60 => ⟨S100000x128, .f32⟩
  | 61 => ⟨S1600000x1, .i32⟩
  | 62 => ⟨S100000x128, .f32⟩
  | 63 => ⟨S_, .f32⟩
  | 64 => ⟨S100000, .f32⟩
  | 65 => ⟨S100000, .f32⟩
  | 66 => ⟨S100000x1, .f32⟩
  | 67 => ⟨S100000x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S_, .f32⟩
  | 74 => ⟨S100000x128, .f32⟩
  | 75 => ⟨S100000x128, .f32⟩
  | 76 => ⟨S_, .f32⟩
  | 77 => ⟨S128, .f32⟩
  | 78 => ⟨S_, .f32⟩
  | 79 => ⟨S128, .f32⟩
  | 80 => ⟨S128, .f32⟩
  | 81 => ⟨S_, .i32⟩
  | 82 => ⟨S_, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S100000x128, .f32⟩
  | 89 => ⟨S100000x128, .f32⟩
  | 90 => ⟨S100000x128, .f32⟩
  | 91 => ⟨S_, .f32⟩
  | 92 => ⟨S_, .f32⟩
  | 93 => ⟨S_, .f32⟩
  | 94 => ⟨S_, .f32⟩
  | 95 => ⟨S128, .f32⟩
  | 96 => ⟨S128, .f32⟩
  | 97 => ⟨S128, .f32⟩
  | 98 => ⟨S_, .f32⟩
  | 99 => ⟨S_, .i1⟩
  | 100 => ⟨S_, .f32⟩
  | 101 => ⟨S_, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S_, .f32⟩
  | 108 => ⟨S128, .f32⟩
  | 109 => ⟨S128, .f32⟩
  | 110 => ⟨S128, .f32⟩
  | 111 => ⟨S1x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S1x128, .f32⟩
  | 118 => ⟨S100000x128, .f32⟩
  | 119 => ⟨S100000x128, .f32⟩
  | 120 => ⟨S100000x128, .f32⟩
  | 121 => ⟨S_, .f32⟩
  | 122 => ⟨S1600000, .f32⟩
  | 123 => ⟨S_, .f32⟩
  | 124 => ⟨S100000, .f32⟩
  | 125 => ⟨S1600000x1, .i32⟩
  | 126 => ⟨S100000, .f32⟩
  | 127 => ⟨S_, .f32⟩
  | _ => ⟨S100000x128, .f32⟩

abbrev hbmTy0_1 (i : Nat) : BufTy := match i % 128 with
  | 0 => ⟨S100000, .f32⟩
  | 1 => ⟨S100000, .f32⟩
  | 2 => ⟨S100000, .f32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000, .f32⟩
  | 21 => ⟨S1600000, .f32⟩
  | 22 => ⟨S_, .i32⟩
  | 23 => ⟨S1600000, .i32⟩
  | 24 => ⟨S1600000, .i1⟩
  | 25 => ⟨S_, .i32⟩
  | 26 => ⟨S1600000, .i32⟩
  | 27 => ⟨S1600000, .i32⟩
  | 28 => ⟨S1600000, .i32⟩
  | 29 => ⟨S1600000x1, .i32⟩
  | 30 => ⟨S1600000x128, .f32⟩
  | 31 => ⟨S1600000x1, .f32⟩
  | 32 => ⟨S1600000x128, .f32⟩
  | 33 => ⟨S1600000x128, .f32⟩
  | 34 => ⟨S_, .f32⟩
  | 35 => ⟨S100000x128, .f32⟩
  | 36 => ⟨S1600000x1, .i32⟩
  | 37 => ⟨S100000x128, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S1x128, .f32⟩
  | 46 => ⟨S100000x128, .f32⟩
  | 47 => ⟨S100000x128, .f32⟩
  | 48 => ⟨S_, .f32⟩
  | 49 => ⟨S100000x128, .f32⟩
  | 50 => ⟨S100000x128, .f32⟩
  | 51 => ⟨S_, .f32⟩
  | 52 => ⟨S128, .f32⟩
  | 53 => ⟨S_, .f32⟩
  | 54 => ⟨S128, .f32⟩
  | 55 => ⟨S128, .f32⟩
  | 56 => ⟨S_, .i32⟩
  | 57 => ⟨S_, .f32⟩
  | 58 => ⟨S128, .f32⟩
  | 59 => ⟨S1x128, .f32⟩
  | 60 => ⟨S_, .f32⟩
  | 61 => ⟨S1x128, .f32⟩
  | 62 => ⟨S1x128, .f32⟩
  | 63 => ⟨S100000x128, .f32⟩
  | 64 => ⟨S100000x128, .f32⟩
  | 65 => ⟨S100000x128, .f32⟩
  | 66 => ⟨S_, .f32⟩
  | 67 => ⟨S_, .f32⟩
  | 68 => ⟨S_, .f32⟩
  | 69 => ⟨S_, .f32⟩
  | 70 => ⟨S128, .f32⟩
  | 71 => ⟨S128, .f32⟩
  | 72 => ⟨S128, .f32⟩
  | 73 => ⟨S_, .f32⟩
  | 74 => ⟨S_, .i1⟩
  | 75 => ⟨S_, .f32⟩
  | 76 => ⟨S_, .f32⟩
  | 77 => ⟨S128, .f32⟩
  | 78 => ⟨S128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S1x128, .f32⟩
  | 93 => ⟨S100000x128, .f32⟩
  | 94 => ⟨S100000x128, .f32⟩
  | 95 => ⟨S_, .f32⟩
  | 96 => ⟨S512x128, .f32⟩
  | 97 => ⟨S100000x1, .i32⟩
  | 98 => ⟨S512x128, .f32⟩
  | 99 => ⟨S_, .f32⟩
  | 100 => ⟨S100000, .f32⟩
  | 101 => ⟨S_, .f32⟩
  | 102 => ⟨S512, .f32⟩
  | 103 => ⟨S100000x1, .i32⟩
  | 104 => ⟨S512, .f32⟩
  | 105 => ⟨S_, .f32⟩
  | 106 => ⟨S512, .f32⟩
  | 107 => ⟨S512, .f32⟩
  | 108 => ⟨S512x1, .f32⟩
  | 109 => ⟨S512x128, .f32⟩
  | 110 => ⟨S512x128, .f32⟩
  | 111 => ⟨S512x2, .f32⟩
  | 112 => ⟨S1x2, .f32⟩
  | 113 => ⟨S512x2, .f32⟩
  | 114 => ⟨S512x2, .f32⟩
  | 115 => ⟨S512x2, .f32⟩
  | 116 => ⟨S512x2, .f32⟩
  | 117 => ⟨S_, .f32⟩
  | 118 => ⟨S512x2, .f32⟩
  | 119 => ⟨S512x2, .f32⟩
  | 120 => ⟨S_, .f32⟩
  | 121 => ⟨S512x2, .f32⟩
  | 122 => ⟨S512x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_c : Ref sig .tc := ⟨.hbm, 28, rfl⟩
abbrev main_v12 : Ref sig .tc := ⟨.hbm, 29, rfl⟩
abbrev main_v13 : Ref sig .tc := ⟨.hbm, 30, rfl⟩
abbrev main_c_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_3 : Ref sig .tc := ⟨.hbm, 37, rfl⟩
abbrev main_v19 : Ref sig .tc := ⟨.hbm, 38, rfl⟩
abbrev main_v20 : Ref sig .tc := ⟨.hbm, 39, rfl⟩
abbrev main_c_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_c_5 : Ref sig .tc := ⟨.hbm, 47, rfl⟩
abbrev main_v27 : Ref sig .tc := ⟨.hbm, 48, rfl⟩
abbrev main_v28 : Ref sig .tc := ⟨.hbm, 49, rfl⟩
abbrev main_c_6 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_7 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_call0_cst : Ref sig .tc := ⟨.hbm, 73, rfl⟩
abbrev main_call0_v0 : Ref sig .tc := ⟨.hbm, 74, rfl⟩
abbrev main_v49 : Ref sig .tc := ⟨.hbm, 75, rfl⟩
abbrev main_cst_9 : Ref sig .tc := ⟨.hbm, 76, rfl⟩
abbrev main_v50 : Ref sig .tc := ⟨.hbm, 77, rfl⟩
abbrev main_cst_10 : Ref sig .tc := ⟨.hbm, 78, rfl⟩
abbrev main_v51 : Ref sig .tc := ⟨.hbm, 79, rfl⟩
abbrev main_v52 : Ref sig .tc := ⟨.hbm, 80, rfl⟩
abbrev main_c_11 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_cst_3 : Ref sig .tc := ⟨.hbm, 98, rfl⟩
abbrev main_call1_v12 : Ref sig .tc := ⟨.hbm, 99, rfl⟩
abbrev main_call1_cst_4 : Ref sig .tc := ⟨.hbm, 100, rfl⟩
abbrev main_call1_call0_v0 : Ref sig .tc := ⟨.hbm, 101, rfl⟩
abbrev main_call1_call0_v1 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_cst_12 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_cst_13 : Ref sig .tc := ⟨.hbm, 121, rfl⟩
abbrev main_v70 : Ref sig .tc := ⟨.hbm, 122, rfl⟩
abbrev main_cst_14 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_cst_15 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_c_16 : Ref sig .tc := ⟨.hbm, 131, rfl⟩
abbrev main_v77 : Ref sig .tc := ⟨.hbm, 132, rfl⟩
abbrev main_v78 : Ref sig .tc := ⟨.hbm, 133, rfl⟩
abbrev main_c_17 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_c_18 : Ref sig .tc := ⟨.hbm, 140, rfl⟩
abbrev main_v84 : Ref sig .tc := ⟨.hbm, 141, rfl⟩
abbrev main_v85 : Ref sig .tc := ⟨.hbm, 142, rfl⟩
abbrev main_c_19 : Ref sig .tc := ⟨.hbm, 143, rfl⟩
abbrev main_v86 : Ref sig .tc := ⟨.hbm, 144, rfl⟩
abbrev main_v87 : Ref sig .tc := ⟨.hbm, 145, rfl⟩
abbrev main_v88 : Ref sig .tc := ⟨.hbm, 146, rfl⟩
abbrev main_v89 : Ref sig .tc := ⟨.hbm, 147, rfl⟩
abbrev main_v90 : Ref sig .tc := ⟨.hbm, 148, rfl⟩
abbrev main_v91 : Ref sig .tc := ⟨.hbm, 149, rfl⟩
abbrev main_c_20 : Ref sig .tc := ⟨.hbm, 150, rfl⟩
abbrev main_v92 : Ref sig .tc := ⟨.hbm, 151, rfl⟩
abbrev main_v93 : Ref sig .tc := ⟨.hbm, 152, rfl⟩
abbrev main_c_21 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_cst_22 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_cst_23 : Ref sig .tc := ⟨.hbm, 166, rfl⟩
abbrev main_v105 : Ref sig .tc := ⟨.hbm, 167, rfl⟩
abbrev main_v106 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_v112 : Ref sig .tc := ⟨.hbm, 174, rfl⟩
abbrev main_v113 : Ref sig .tc := ⟨.hbm, 175, rfl⟩
abbrev main_call2_cst : Ref sig .tc := ⟨.hbm, 176, rfl⟩
abbrev main_call2_v0 : Ref sig .tc := ⟨.hbm, 177, rfl⟩
abbrev main_v114 : Ref sig .tc := ⟨.hbm, 178, rfl⟩
abbrev main_cst_24 : Ref sig .tc := ⟨.hbm, 179, rfl⟩
abbrev main_v115 : Ref sig .tc := ⟨.hbm, 180, rfl⟩
abbrev main_cst_25 : Ref sig .tc := ⟨.hbm, 181, rfl⟩
abbrev main_v116 : Ref sig .tc := ⟨.hbm, 182, rfl⟩
abbrev main_v117 : Ref sig .tc := ⟨.hbm, 183, rfl⟩
abbrev main_c_26 : Ref sig .tc := ⟨.hbm, 184, rfl⟩
abbrev main_call3_cst : Ref sig .tc := ⟨.hbm, 185, rfl⟩
abbrev main_call3_v0 : Ref sig .tc := ⟨.hbm, 186, rfl⟩
abbrev main_call3_v1 : Ref sig .tc := ⟨.hbm, 187, rfl⟩
abbrev main_call3_cst_0 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_v5 : Ref sig .tc := ⟨.hbm, 192, rfl⟩
abbrev main_call3_v6 : Ref sig .tc := ⟨.hbm, 193, rfl⟩
abbrev main_call3_v7 : Ref sig .tc := ⟨.hbm, 194, rfl⟩
abbrev main_call3_cst_1 : Ref sig .tc := ⟨.hbm, 195, rfl⟩
abbrev main_call3_v8 : Ref sig .tc := ⟨.hbm, 196, rfl⟩
abbrev main_call3_cst_2 : Ref sig .tc := ⟨.hbm, 197, rfl⟩
abbrev main_call3_v9 : Ref sig .tc := ⟨.hbm, 198, rfl⟩
abbrev main_call3_v10 : Ref sig .tc := ⟨.hbm, 199, rfl⟩
abbrev main_call3_v11 : Ref sig .tc := ⟨.hbm, 200, rfl⟩
abbrev main_call3_cst_3 : Ref sig .tc := ⟨.hbm, 201, rfl⟩
abbrev main_call3_v12 : Ref sig .tc := ⟨.hbm, 202, rfl⟩
abbrev main_call3_cst_4 : Ref sig .tc := ⟨.hbm, 203, rfl⟩
abbrev main_call3_call0_v0 : Ref sig .tc := ⟨.hbm, 204, rfl⟩
abbrev main_call3_call0_v1 : Ref sig .tc := ⟨.hbm, 205, rfl⟩
abbrev main_v118 : Ref sig .tc := ⟨.hbm, 206, rfl⟩
abbrev main_v119 : Ref sig .tc := ⟨.hbm, 207, rfl⟩
abbrev main_v120 : Ref sig .tc := ⟨.hbm, 208, rfl⟩
abbrev main_v121 : Ref sig .tc := ⟨.hbm, 209, rfl⟩
abbrev main_cst_27 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_v131 : Ref sig .tc := ⟨.hbm, 220, rfl⟩
abbrev main_v132 : Ref sig .tc := ⟨.hbm, 221, rfl⟩
abbrev main_v133 : Ref sig .tc := ⟨.hbm, 222, rfl⟩
abbrev main_cst_28 : Ref sig .tc := ⟨.hbm, 223, rfl⟩
abbrev main_v134 : Ref sig .tc := ⟨.hbm, 224, rfl⟩
abbrev main_v135 : Ref sig .tc := ⟨.hbm, 225, rfl⟩
abbrev main_v136 : Ref sig .tc := ⟨.hbm, 226, rfl⟩
abbrev main_cst_29 : Ref sig .tc := ⟨.hbm, 227, rfl⟩
abbrev main_v137 : Ref sig .tc := ⟨.hbm, 228, rfl⟩
abbrev main_cst_30 : Ref sig .tc := ⟨.hbm, 229, rfl⟩
abbrev main_v138 : Ref sig .tc := ⟨.hbm, 230, rfl⟩
abbrev main_v139 : Ref sig .tc := ⟨.hbm, 231, rfl⟩
abbrev main_v140 : Ref sig .tc := ⟨.hbm, 232, rfl⟩
abbrev main_cst_31 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_v144 : Ref sig .tc := ⟨.hbm, 237, rfl⟩
abbrev main_v145 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_cst_32 : Ref sig .tc := ⟨.hbm, 245, rfl⟩
abbrev main_v152 : Ref sig .tc := ⟨.hbm, 246, rfl⟩
abbrev main_v153 : Ref sig .tc := ⟨.hbm, 247, rfl⟩
abbrev main_cst_33 : Ref sig .tc := ⟨.hbm, 248, rfl⟩
abbrev main_v154 : Ref sig .tc := ⟨.hbm, 249, rfl⟩
abbrev main_v155 : Ref sig .tc := ⟨.hbm, 250, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S2_S1x2_1 : S2.BroadcastsInDim S1x2 (![1] : Fin 1 → Fin S1x2.rank)
  bcast_S1x2_S512x2_0_1 : S1x2.BroadcastsInDim S512x2 (![0, 1] : Fin 2 → Fin S512x2.rank)
  bcast_S_S512x2 : S_.BroadcastsInDim S512x2 (![] : Fin 0 → Fin S512x2.rank)
  dot_S100000x128_S128x128_S100000x128_1_0_0_1_n_n_wf : DotDims.WF S100000x128 S128x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S512x128_S100000x1_S100000x128_1_0_0_1_wf : ScatterDims.WF S512x128 S100000x1 S100000x128 [1] [0] [0] 1
  scatter_S512_S100000x1_S100000_n_0_0_1_wf : ScatterDims.WF S512 S100000x1 S100000 [] [0] [0] 1
  dot_S512x128_S128x2_S512x2_1_0_0_1_n_n_wf : DotDims.WF S512x128 S128x2 S512x2 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

class Facts : Prop extends Facts₀ where

variable [Facts]
-- ==== Proof.KRun.lean ====
/-
  The idealized kernel program's run with its RESULT named: every weakly fair execution of @main terminates, the
  thirteen argument arrays end as launched, and the result buffer ends at the last segment boundary's contents —
  the fold of @main's host stretches and of the seven regions' write-backs over the launch memory.
-/
import proofs.«136765_j22849226015440_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments with the final state read at the result buffer as well as at the arguments: every
    unscoped buffer ends at the last boundary's contents, and the result buffer is one of them. -/
theorem run_value : θ_run defs (onTc (τ := τ) (main (F := F))) ⟨m, fun _ => 0, ρ⟩ (fun r => ∀ c : Dev nD,
      r.2.mem ((c.tc : Thread nD τ).loc main_v121) = W17 m ρ c (Proc.devRef .tc main_v121)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W17 m ρ c b)
    (hfin := fun c s' => by
      iintro ⟨⟨Hh, -⟩, HSI⟩
      unfold StableHlo.held
      imodintro
      iapply (pointsTo_read_all (Pipeline.ucRefs τ sig) (fun b => (((c : Thread nD τ)).1, b)) (W17 m ρ c) s')
      isplitl [Hh] <;> iassumption)
    (hQ := fun s h c =>
      ⟨h c _ (mem_uc main_v121 (by decide)),
       (h c _ (mem_uc main_arg0 (by decide))).trans (W17_main_arg0 m ρ c),
       (h c _ (mem_uc main_arg1 (by decide))).trans (W17_main_arg1 m ρ c),
       (h c _ (mem_uc main_arg2 (by decide))).trans (W17_main_arg2 m ρ c),
       (h c _ (mem_uc main_arg3 (by decide))).trans (W17_main_arg3 m ρ c),
       (h c _ (mem_uc main_arg4 (by decide))).trans (W17_main_arg4 m ρ c),
       (h c _ (mem_uc main_arg5 (by decide))).trans (W17_main_arg5 m ρ c),
       (h c _ (mem_uc main_arg6 (by decide))).trans (W17_main_arg6 m ρ c),
       (h c _ (mem_uc main_arg7 (by decide))).trans (W17_main_arg7 m ρ c),
       (h c _ (mem_uc main_arg8 (by decide))).trans (W17_main_arg8 m ρ c),
       (h c _ (mem_uc main_arg9 (by decide))).trans (W17_main_arg9 m ρ c),
       (h c _ (mem_uc main_arg10 (by decide))).trans (W17_main_arg10 m ρ c),
       (h c _ (mem_uc main_arg11 (by decide))).trans (W17_main_arg11 m ρ c),
       (h c _ (mem_uc main_arg12 (by decide))).trans (W17_main_arg12 m ρ c)⟩)

end Cert.KernelIdeal.KRun

end
-- ==== Proof.Spec.lean ====
/- The operation text of every definition below is transcribed from the printed reference program by
   (in the unit directory)  bun scratch/gen_spec.js > proof/Proof/Spec.lean

  The reference's result as nested stage functions, each the reference program's own host operations from one
  named value to the next (F any float instance):
    srcF, dstF   the two rows of the edge list, flattened;
    mmF          the dense projection x · W;
    degF         1 + the number of edges ending at a node;
    aggF         the normalised neighbour sum  Σ_{e : dst e = i} h[src e] · deg[src e]^(-1/2) · deg[dst e]^(-1/2)  +  h[i] / deg[i];
    reluBiasF    max (agg + b) 0, the bias broadcast along the rows;
    meanF, varF  the column mean and the (biased) column variance over the 100000 rows;
    bnF          ((r - mean) · rsqrt (var + ε)) · γ + β, column-wise;
    poolF        the per-graph mean of the node rows (segment sum over the batch vector, divided by max (count, 1));
    fcF          1 / (1 + exp (-(p · W + b)));
    outF         two graph-convolution layers, the pooling and the classifier, composed.
-/
import proofs.«136765_j22849226015440_1_alg».proof.ReferenceIdeal
import proofs.«136765_j22849226015440_1_alg».proof.Proof.Gen.ReferenceIdeal

noncomputable section

namespace Cert.ReferenceIdeal.Spec

open Idealize.ShloMosaic Cert.ReferenceIdeal

variable {F : FTy → Type} [FloatOps F] [Facts]
open Facts₀ Facts

/-- The contents type of a buffer of shape `s` and element type `e`. -/
abbrev T (F : FTy → Type) (s : Shape) (e : EltTy) : Type := (⟨s, e⟩ : BufTy).Contents (Elt F)

def srcF (ei : T F S2x1600000 .i32) : T F S1600000 .i32 :=
  shapeCast S1600000 (extractStridedSlice S1x1600000 ![0, 0] ei slices_S2x1600000_S1x1600000_0_0) shapeCasts_S1x1600000_S1600000

def dstF (ei : T F S2x1600000 .i32) : T F S1600000 .i32 :=
  shapeCast S1600000 (extractStridedSlice S1x1600000 ![1, 0] ei slices_S2x1600000_S1x1600000_1_0) shapeCasts_S1x1600000_S1600000

def mmF (x : T F S100000x128 .f32) (w : T F S128x128 .f32) : T F S100000x128 .f32 :=
  Host.dotGeneral dot_S100000x128_S128x128_S100000x128_1_0_0_1_n_n none x w

def degF (dst : T F S1600000 .i32) : T F S100000 .f32 :=
  addf (broadcastInDim S100000 ![] bcast_S_S100000 (constant (F := F) S_ .f32 0x3F800000#32)) (Host.scatterAdd scatter_S100000_S1600000x1_S1600000_n_0_0_1 (broadcastInDim S100000 ![] bcast_S_S100000 (constant (F := F) S_ .f32 0x00000000#32)) (broadcastInDim S1600000x1 ![0] bcast_S1600000_S1600000x1_0 dst) (broadcastInDim S1600000 ![] bcast_S_S1600000 (constant (F := F) S_ .f32 0x3F800000#32)))

def aggF (h : T F S100000x128 .f32) (src dst : T F S1600000 .i32) : T F S100000x128 .f32 :=
  addf (Host.scatterAdd scatter_S100000x128_S1600000x1_S1600000x128_1_0_0_1 (broadcastInDim S100000x128 ![] bcast_S_S100000x128 (constant (F := F) S_ .f32 0x00000000#32)) (broadcastInDim S1600000x1 ![0] bcast_S1600000_S1600000x1_0 dst) (mulf (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (broadcastInDim S1600000x128 ![0, 1] bcast_S1600000x1_S1600000x128_0_1 (broadcastInDim S1600000x1 ![0] bcast_S1600000_S1600000x1_0 (mulf (Host.gather gather_S100000_S1600000x1_S1600000_n_0_n_n_0_1_1 (Host.rsqrt (degF dst)) (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))) (Host.gather gather_S100000_S1600000x1_S1600000_n_0_n_n_0_1_1 (Host.rsqrt (degF dst)) (broadcastInDim S1600000x1 ![0] bcast_S1600000_S1600000x1_0 (select (cmpi .slt dst (broadcastInDim S1600000 ![] bcast_S_S1600000 (constantI S_ 32 0#32))) (addi dst (broadcastInDim S1600000 ![] bcast_S_S1600000 (constantI S_ 32 100000#32))) dst)))))))) (mulf h (broadcastInDim S100000x128 ![0, 1] bcast_S100000x1_S100000x128_0_1 (broadcastInDim S100000x1 ![0] bcast_S100000_S100000x1_0 (Host.divf (broadcastInDim S100000 ![] bcast_S_S100000 (constant (F := F) S_ .f32 0x3F800000#32)) (degF dst)))))

def reluBiasF (agg : T F S100000x128 .f32) (b : T F S128 .f32) : T F S100000x128 .f32 :=
  maximumf (addf agg (broadcastInDim S100000x128 ![0, 1] bcast_S1x128_S100000x128_0_1 (broadcastInDim S1x128 ![1] bcast_S128_S1x128_1 b))) (broadcastInDim S100000x128 ![] bcast_S_S100000x128 (constant (F := F) S_ .f32 0x00000000#32))

def meanF (r : T F S100000x128 .f32) : T F S128 .f32 :=
  Host.divf (Host.reduceAdd r (constant (F := F) S_ .f32 0x00000000#32) reducesTo_S100000x128_S128_d0 h_S_) (broadcastInDim S128 ![] bcast_S_S128 (constant (F := F) S_ .f32 0x47C35000#32))

def varF (r : T F S100000x128 .f32) : T F S128 .f32 :=
  select (broadcastInDim S128 ![] bcast_S_S128 (cmpf .ogt (subf (constant (F := F) S_ .f32 0x47C35000#32) (sitofp (F := F) .f32 (constantI S_ 32 0#32))) (constant (F := F) S_ .f32 0x00000000#32))) (Host.divf (Host.reduceAdd (mulf (subf r (broadcastInDim S100000x128 ![0, 1] bcast_S1x128_S100000x128_0_1 (Host.divf (broadcastInDim S1x128 ![1] bcast_S128_S1x128_1 (Host.reduceAdd r (constant (F := F) S_ .f32 0x00000000#32) reducesTo_S100000x128_S128_d0 h_S_)) (broadcastInDim S1x128 ![] bcast_S_S1x128 (constant (F := F) S_ .f32 0x47C35000#32))))) (subf r (broadcastInDim S100000x128 ![0, 1] bcast_S1x128_S100000x128_0_1 (Host.divf (broadcastInDim S1x128 ![1] bcast_S128_S1x128_1 (Host.reduceAdd r (constant (F := F) S_ .f32 0x00000000#32) reducesTo_S100000x128_S128_d0 h_S_)) (broadcastInDim S1x128 ![] bcast_S_S1x128 (constant (F := F) S_ .f32 0x47C35000#32)))))) (constant (F := F) S_ .f32 0x00000000#32) reducesTo_S100000x128_S128_d0 h_S_) (broadcastInDim S128 ![] bcast_S_S128 (subf (constant (F := F) S_ .f32 0x47C35000#32) (sitofp (F := F) .f32 (constantI S_ 32 0#32))))) (broadcastInDim S128 ![] bcast_S_S128 (constant (F := F) S_ .f32 0x7FC00000#32))

def bnF (r : T F S100000x128 .f32) (g b : T F S128 .f32) : T F S100000x128 .f32 :=
  addf (mulf (mulf (subf r (broadcastInDim S100000x128 ![0, 1] bcast_S1x128_S100000x128_0_1 (broadcastInDim S1x128 ![1] bcast_S128_S1x128_1 (meanF r)))) (broadcastInDim S100000x128 ![0, 1] bcast_S1x128_S100000x128_0_1 (broadcastInDim S1x128 ![1] bcast_S128_S1x128_1 (Host.rsqrt (addf (varF r) (broadcastInDim S128 ![] bcast_S_S128 (constant (F := F) S_ .f32 0x3727C5AC#32))))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 b))

def poolF (h : T F S100000x128 .f32) (batch : T F S100000 .i32) : T F S512x128 .f32 :=
  Host.divf (Host.scatterAdd scatter_S512x128_S100000x1_S100000x128_1_0_0_1 (broadcastInDim S512x128 ![] bcast_S_S512x128 (constant (F := F) S_ .f32 0x00000000#32)) (broadcastInDim S100000x1 ![0] bcast_S100000_S100000x1_0 batch) h) (broadcastInDim S512x128 ![0, 1] bcast_S512x1_S512x128_0_1 (broadcastInDim S512x1 ![0] bcast_S512_S512x1_0 (maximumf (Host.scatterAdd scatter_S512_S100000x1_S100000_n_0_0_1 (broadcastInDim S512 ![] bcast_S_S512 (constant (F := F) S_ .f32 0x00000000#32)) (broadcastInDim S100000x1 ![0] bcast_S100000_S100000x1_0 batch) (broadcastInDim S100000 ![] bcast_S_S100000 (constant (F := F) S_ .f32 0x3F800000#32))) (broadcastInDim S512 ![] bcast_S_S512 (constant (F := F) S_ .f32 0x3F800000#32)))))

def fcF (p : T F S512x128 .f32) (w : T F S128x2 .f32) (b : T F S2 .f32) : T F S512x2 .f32 :=
  Host.divf (broadcastInDim S512x2 ![] bcast_S_S512x2 (constant (F := F) S_ .f32 0x3F800000#32)) (addf (broadcastInDim S512x2 ![] bcast_S_S512x2 (constant (F := F) S_ .f32 0x3F800000#32)) (Host.exp (Host.negf (addf (Host.dotGeneral dot_S512x128_S128x2_S512x2_1_0_0_1_n_n none p w) (broadcastInDim S512x2 ![0, 1] bcast_S1x2_S512x2_0_1 (broadcastInDim S1x2 ![1] bcast_S2_S1x2_1 b))))))

/-- One graph-convolution layer: projection, neighbour aggregation, bias and rectifier, batch normalisation. -/
def layerF (x : T F S100000x128 .f32) (ei : T F S2x1600000 .i32) (w : T F S128x128 .f32) (b g be : T F S128 .f32) : T F S100000x128 .f32 :=
  bnF (reluBiasF (aggF (mmF x w) (srcF ei) (dstF ei)) b) g be

/-- The reference's result of its thirteen arguments. -/
def outF (a0 : T F S100000x128 .f32) (a1 : T F S2x1600000 .i32) (a2 : T F S100000 .i32) (a3 : T F S128x128 .f32)
    (a4 a5 a6 : T F S128 .f32) (a7 : T F S128x128 .f32) (a8 a9 a10 : T F S128 .f32) (a11 : T F S128x2 .f32) (a12 : T F S2 .f32) :
    T F S512x2 .f32 :=
  fcF (poolF (layerF (layerF a0 a1 a3 a4 a5 a6) a1 a7 a8 a9 a10) a2) a11 a12

end Cert.ReferenceIdeal.Spec

end
-- ==== Proof.KSpec.lean ====
/-
  The column mean and the column variance of a [100000, 128] array in the kernel program's spelling — both kept
  as one-row [1, 128] arrays (the sums laid along a row before the division) — and the three parameter vectors
  as the one-row arrays the regions take; each is, entry by entry, the reference's [128]-shaped value.
-/
import proofs.«136765_j22849226015440_1_alg».proof.Proof.Spec
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost

noncomputable section

namespace Cert.ReferenceIdeal.KSpec

open Idealize.ShloMosaic Idealize.ShloMosaic.ValueIdx Cert.ReferenceIdeal Cert.ReferenceIdeal.Spec

variable {F : FTy → Type} [FloatOps F] [Facts]
open Facts₀ Facts

/-- The column sums divided by 100000, as one row. -/
def meanK (r : T F S100000x128 .f32) : T F S1x128 .f32 :=
  Host.divf (broadcastInDim S1x128 ![1] bcast_S128_S1x128_1 (Host.reduceAdd r (constant (F := F) S_ .f32 0x00000000#32) reducesTo_S100000x128_S128_d0 h_S_)) (broadcastInDim S1x128 ![] bcast_S_S1x128 (constant (F := F) S_ .f32 0x47C35000#32))

/-- The column sums of the squared deviations from the column mean, divided by 100000 - 0, as one row. -/
def varK (r : T F S100000x128 .f32) : T F S1x128 .f32 :=
  select (broadcastInDim S1x128 ![] bcast_S_S1x128 (cmpf .ogt (subf (constant (F := F) S_ .f32 0x47C35000#32) (sitofp (F := F) .f32 (constantI S_ 32 0#32))) (constant (F := F) S_ .f32 0x00000000#32))) (Host.divf (broadcastInDim S1x128 ![1] bcast_S128_S1x128_1 (Host.reduceAdd (mulf (subf r (broadcastInDim S100000x128 ![0, 1] bcast_S1x128_S100000x128_0_1 (Host.divf (broadcastInDim S1x128 ![1] bcast_S128_S1x128_1 (Host.reduceAdd r (constant (F := F) S_ .f32 0x00000000#32) reducesTo_S100000x128_S128_d0 h_S_)) (broadcastInDim S1x128 ![] bcast_S_S1x128 (constant (F := F) S_ .f32 0x47C35000#32))))) (subf r (broadcastInDim S100000x128 ![0, 1] bcast_S1x128_S100000x128_0_1 (Host.divf (broadcastInDim S1x128 ![1] bcast_S128_S1x128_1 (Host.reduceAdd r (constant (F := F) S_ .f32 0x00000000#32) reducesTo_S100000x128_S128_d0 h_S_)) (broadcastInDim S1x128 ![] bcast_S_S1x128 (constant (F := F) S_ .f32 0x47C35000#32)))))) (constant (F := F) S_ .f32 0x00000000#32) reducesTo_S100000x128_S128_d0 h_S_)) (broadcastInDim S1x128 ![] bcast_S_S1x128 (subf (constant (F := F) S_ .f32 0x47C35000#32) (sitofp (F := F) .f32 (constantI S_ 32 0#32))))) (broadcastInDim S1x128 ![] bcast_S_S1x128 (constant (F := F) S_ .f32 0x7FC00000#32))

end Cert.ReferenceIdeal.KSpec

end
-- ==== Proof.KHost.lean ====
/-
  The idealized kernel program's host stretches read as functions: for ANY contents `W` of the buffers at a stretch's
  start, what the stretch leaves in each buffer that a later region or stretch reads. The stretches between the
  regions repeat the reference's own operations (the edge rows, the neighbour aggregation, the pooling), so each is
  the reference's stage function of the stretch's inputs; the column statistics are kept as one-row arrays.
-/
import proofs.«136765_j22849226015440_1_alg».proof.Proof.Gen.KernelIdeal.Launch
import proofs.«136765_j22849226015440_1_alg».proof.Proof.KSpec
import Idealize.ShloMosaic.Lib.StableHlo.Run
import Idealize.ShloMosaic.PureOps.Ideal

set_option maxRecDepth 16384

noncomputable section

namespace Cert.KernelIdeal.KHost

open Cert.KernelIdeal Cert.KernelIdeal.Gen
open Idealize.ShloMosaic Idealize.ShloMosaic.TcCoe Idealize.SL.Sem Idealize.ShloMosaic.StableHlo
open Cert.ReferenceIdeal (Spec.srcF Spec.dstF Spec.aggF Spec.poolF KSpec.meanK KSpec.varK)

-- the scatter, the gather and the column sum are folds over their operands: they are compared as names, never opened
attribute [local irreducible] Host.scatterAdd Host.gather Host.reduceAdd

variable (W : Valuation τ sig (Elt Ideal))

/-- The first row of the edge list, flattened. -/
theorem ops0_v1 : after hostOps0 W (Proc.devRef .tc main_v1) = Spec.srcF (W (Proc.devRef .tc main_arg1)) := by
  after_results; rfl
/-- The second row of the edge list, flattened. -/
theorem ops0_v3 : after hostOps0 W (Proc.devRef .tc main_v3) = Spec.dstF (W (Proc.devRef .tc main_arg1)) := by
  after_results; rfl

set_option maxHeartbeats 1000000 in
/-- The first layer's neighbour aggregation of the projected rows. -/
theorem ops1_v45 : after hostOps1 W (Proc.devRef .tc main_v45)
    = Spec.aggF (W (Proc.devRef .tc main_v4)) (W (Proc.devRef .tc main_v1)) (W (Proc.devRef .tc main_v3)) := by
  after_results_simp; rfl
set_option maxHeartbeats 1000000 in
/-- The first bias as one row. -/
theorem ops1_v46 : after hostOps1 W (Proc.devRef .tc main_v46)
    = (shapeCast S1x128 (W (Proc.devRef .tc main_arg4)) shapeCasts_S128_S1x128 : S1x128.Idx → Elt Ideal .f32) := by
  after_results_simp; rfl

set_option maxHeartbeats 1000000 in
/-- The first layer's column mean, one row. -/
theorem ops2_v51 : after hostOps2_2 (after hostOps2_1 (after hostOps2 W)) (Proc.devRef .tc main_v51)
    = KSpec.meanK (W (Proc.devRef .tc main_v47)) := by
  after_results_simp; rfl
set_option maxHeartbeats 1000000 in
/-- The first layer's column variance, one row. -/
theorem ops2_v52 : after hostOps2_2 (after hostOps2_1 (after hostOps2 W)) (Proc.devRef .tc main_v52)
    = KSpec.varK (W (Proc.devRef .tc main_v47)) := by
  after_results_simp; rfl
set_option maxHeartbeats 1000000 in
theorem ops2_v53 : after hostOps2_2 (after hostOps2_1 (after hostOps2 W)) (Proc.devRef .tc main_v53)
    = (shapeCast S1x128 (W (Proc.devRef .tc main_arg5)) shapeCasts_S128_S1x128 : S1x128.Idx → Elt Ideal .f32) := by
  after_results_simp; rfl
set_option maxHeartbeats 1000000 in
theorem ops2_v54 : after hostOps2_2 (after hostOps2_1 (after hostOps2 W)) (Proc.devRef .tc main_v54)
    = (shapeCast S1x128 (W (Proc.devRef .tc main_arg6)) shapeCasts_S128_S1x128 : S1x128.Idx → Elt Ideal .f32) := by
  after_results_simp; rfl
set_option maxHeartbeats 1000000 in
theorem ops2_v47 : after hostOps2_2 (after hostOps2_1 (after hostOps2 W)) (Proc.devRef .tc main_v47) = W (Proc.devRef .tc main_v47) := by
  after_results_simp

set_option maxHeartbeats 1000000 in
/-- The second layer's neighbour aggregation. -/
theorem ops4_v97 : after hostOps4 W (Proc.devRef .tc main_v97)
    = Spec.aggF (W (Proc.devRef .tc main_v56)) (W (Proc.devRef .tc main_v1)) (W (Proc.devRef .tc main_v3)) := by
  after_results_simp; rfl
set_option maxHeartbeats 1000000 in
theorem ops4_v98 : after hostOps4 W (Proc.devRef .tc main_v98)
    = (shapeCast S1x128 (W (Proc.devRef .tc main_arg8)) shapeCasts_S128_S1x128 : S1x128.Idx → Elt Ideal .f32) := by
  after_results_simp; rfl

set_option maxHeartbeats 1000000 in
theorem ops5_v103 : after hostOps5_2 (after hostOps5_1 (after hostOps5 W)) (Proc.devRef .tc main_v103)
    = KSpec.meanK (W (Proc.devRef .tc main_v99)) := by
  after_results_simp; rfl
set_option maxHeartbeats 1000000 in
theorem ops5_v104 : after hostOps5_2 (after hostOps5_1 (after hostOps5 W)) (Proc.devRef .tc main_v104)
    = KSpec.varK (W (Proc.devRef .tc main_v99)) := by
  after_results_simp; rfl
set_option maxHeartbeats 1000000 in
theorem ops5_v105 : after hostOps5_2 (after hostOps5_1 (after hostOps5 W)) (Proc.devRef .tc main_v105)
    = (shapeCast S1x128 (W (Proc.devRef .tc main_arg9)) shapeCasts_S128_S1x128 : S1x128.Idx → Elt Ideal .f32) := by
  after_results_simp; rfl
set_option maxHeartbeats 1000000 in
theorem ops5_v106 : after hostOps5_2 (after hostOps5_1 (after hostOps5 W)) (Proc.devRef .tc main_v106)
    = (shapeCast S1x128 (W (Proc.devRef .tc main_arg10)) shapeCasts_S128_S1x128 : S1x128.Idx → Elt Ideal .f32) := by
  after_results_simp; rfl
set_option maxHeartbeats 1000000 in
theorem ops5_v99 : after hostOps5_2 (after hostOps5_1 (after hostOps5 W)) (Proc.devRef .tc main_v99) = W (Proc.devRef .tc main_v99) := by
  after_results_simp

set_option maxHeartbeats 1000000 in
/-- The per-graph mean of the node rows. -/
theorem ops6_v119 : after hostOps6 W (Proc.devRef .tc main_v119)
    = Spec.poolF (W (Proc.devRef .tc main_v107)) (W (Proc.devRef .tc main_arg2)) := by
  after_results_simp; rfl
set_option maxHeartbeats 1000000 in
theorem ops6_v120 : after hostOps6 W (Proc.devRef .tc main_v120)
    = (shapeCast S1x2 (W (Proc.devRef .tc main_arg12)) shapeCasts_S2_S1x2 : S1x2.Idx → Elt Ideal .f32) := by
  after_results_simp; rfl
set_option maxHeartbeats 1000000 in
theorem ops6_arg11 : after hostOps6 W (Proc.devRef .tc main_arg11) = W (Proc.devRef .tc main_arg11) := by
  after_results_simp

end Cert.KernelIdeal.KHost

end
-- ==== Proof.KRead.lean ====
/-
  The argument arrays and the two edge rows, read at the segment boundaries of the idealized kernel program where a
  region or a host stretch takes them: no region and no later host operation writes them, so the fold of @main at
  such a buffer walks back, boundary by boundary, to the launch memory (to the first host stretch, for the edge rows).
-/
import proofs.«136765_j22849226015440_1_alg».proof.Proof.Gen.KernelIdeal.Frame
import proofs.«136765_j22849226015440_1_alg».proof.Proof.KHost

set_option maxRecDepth 16384

noncomputable section

namespace Cert.KernelIdeal.KRead

open Cert.KernelIdeal Cert.KernelIdeal.Gen
open Idealize.ShloMosaic Idealize.ShloMosaic.TcCoe Idealize.SL.Sem Idealize.ShloMosaic.StableHlo
open Cert.ReferenceIdeal (Spec.srcF Spec.dstF)

variable (m : (ℓ : Loc nD τ sig) → Buf (Elt Ideal) ℓ) (ρ : Dev nD → PrngReg) (c : Dev nD)

/-- Core `c`'s launch contents of a buffer. -/
abbrev arg (b : Ref sig .tc) : Buf (Elt Ideal) ((c : Thread nD τ).loc b) := m ((c : Thread nD τ).loc b)

/-- One boundary down through a host stretch none of whose operations writes the buffer. -/
macro "skip_host" : tactic => `(tactic|
  (refine (StableHlo.after_of_forall_not_mem _ _ (List.forall_iff_forall_mem.mp ?_)).trans ?_
   · simp only [hostOps0, hostOps1, hostOps2, hostOps2_1, hostOps2_2, hostOps4, hostOps5, hostOps5_1, hostOps5_2, hostOps6,
       List.Forall, StableHlo.nullary_writes, StableHlo.unary_writes, StableHlo.binary_writes, StableHlo.ternary_writes,
       StableHlo.quaternary_writes, StableHlo.reshape_writes, StableHlo.binaryIndexed_writes, Finset.mem_singleton]
     repeat' apply And.intro
     all_goals exact StableHlo.devRef_ne_of_ne (by decide)))

/-- One boundary down through a region none of whose windows is on the buffer. -/
macro "reg" l:ident : tactic => `(tactic| refine ($l _ _ _ _ (by decide)).trans ?_)

theorem W1_arg0 : W1 m ρ c (Proc.devRef .tc main_arg0) = arg m c main_arg0 := by
  skip_host
  rfl
theorem W1_arg3 : W1 m ρ c (Proc.devRef .tc main_arg3) = arg m c main_arg3 := by
  skip_host
  rfl
theorem W1_v1 : W1 m ρ c (Proc.devRef .tc main_v1) = Spec.srcF (arg m c main_arg1) := by

  exact KHost.ops0_v1 _
theorem W1_v3 : W1 m ρ c (Proc.devRef .tc main_v3) = Spec.dstF (arg m c main_arg1) := by

  exact KHost.ops0_v3 _
theorem W2_v1 : W2 m ρ c (Proc.devRef .tc main_v1) = Spec.srcF (arg m c main_arg1) := by
  reg W2_of_ne
  exact W1_v1 m ρ c
theorem W2_v3 : W2 m ρ c (Proc.devRef .tc main_v3) = Spec.dstF (arg m c main_arg1) := by
  reg W2_of_ne
  exact W1_v3 m ρ c
theorem W2_arg4 : W2 m ρ c (Proc.devRef .tc main_arg4) = arg m c main_arg4 := by
  reg W2_of_ne; skip_host
  rfl
theorem W4_arg5 : W4 m ρ c (Proc.devRef .tc main_arg5) = arg m c main_arg5 := by
  reg W4_of_ne; skip_host; reg W2_of_ne; skip_host
  rfl
theorem W4_arg6 : W4 m ρ c (Proc.devRef .tc main_arg6) = arg m c main_arg6 := by
  reg W4_of_ne; skip_host; reg W2_of_ne; skip_host
  rfl
theorem W8_arg7 : W8 m ρ c (Proc.devRef .tc main_arg7) = arg m c main_arg7 := by
  reg W8_of_ne; skip_host; skip_host; skip_host; reg W4_of_ne; skip_host; reg W2_of_ne; skip_host
  rfl
theorem W9_v1 : W9 m ρ c (Proc.devRef .tc main_v1) = Spec.srcF (arg m c main_arg1) := by
  reg W9_of_ne; reg W8_of_ne; skip_host; skip_host; skip_host; reg W4_of_ne; skip_host
  exact W2_v1 m ρ c
theorem W9_v3 : W9 m ρ c (Proc.devRef .tc main_v3) = Spec.dstF (arg m c main_arg1) := by
  reg W9_of_ne; reg W8_of_ne; skip_host; skip_host; skip_host; reg W4_of_ne; skip_host
  exact W2_v3 m ρ c
theorem W9_arg8 : W9 m ρ c (Proc.devRef .tc main_arg8) = arg m c main_arg8 := by
  reg W9_of_ne; reg W8_of_ne; skip_host; skip_host; skip_host; reg W4_of_ne; skip_host; reg W2_of_ne; skip_host
  rfl
theorem W11_arg9 : W11 m ρ c (Proc.devRef .tc main_arg9) = arg m c main_arg9 := by
  reg W11_of_ne; skip_host; reg W9_of_ne; reg W8_of_ne; skip_host; skip_host; skip_host; reg W4_of_ne; skip_host; reg W2_of_ne; skip_host
  rfl
theorem W11_arg10 : W11 m ρ c (Proc.devRef .tc main_arg10) = arg m c main_arg10 := by
  reg W11_of_ne; skip_host; reg W9_of_ne; reg W8_of_ne; skip_host; skip_host; skip_host; reg W4_of_ne; skip_host; reg W2_of_ne; skip_host
  rfl
theorem W15_arg2 : W15 m ρ c (Proc.devRef .tc main_arg2) = arg m c main_arg2 := by
  reg W15_of_ne; skip_host; skip_host; skip_host; reg W11_of_ne; skip_host; reg W9_of_ne; reg W8_of_ne; skip_host; skip_host; skip_host; reg W4_of_ne; skip_host; reg W2_of_ne; skip_host
  rfl
theorem W15_arg12 : W15 m ρ c (Proc.devRef .tc main_arg12) = arg m c main_arg12 := by
  reg W15_of_ne; skip_host; skip_host; skip_host; reg W11_of_ne; skip_host; reg W9_of_ne; reg W8_of_ne; skip_host; skip_host; skip_host; reg W4_of_ne; skip_host; reg W2_of_ne; skip_host
  rfl
theorem W15_arg11 : W15 m ρ c (Proc.devRef .tc main_arg11) = arg m c main_arg11 := by
  reg W15_of_ne; skip_host; skip_host; skip_host; reg W11_of_ne; skip_host; reg W9_of_ne; reg W8_of_ne; skip_host; skip_host; skip_host; reg W4_of_ne; skip_host; reg W2_of_ne; skip_host
  rfl

end Cert.KernelIdeal.KRead

end
-- ==== Proof.Bridge.lean ====
/-
  The reference's stage functions read at an index, at the ideal values (extended reals): the bias-and-rectifier stage,
  the batch normalisation (through the column mean and variance), the classifier; and the one-row spellings of the
  column statistics and of the parameter vectors, entry by entry the reference's [128]-shaped values.
-/
import proofs.«136765_j22849226015440_1_alg».proof.Proof.KSpec

noncomputable section

namespace Cert.ReferenceIdeal.Bridge

open Idealize.ShloMosaic Idealize.ShloMosaic.ValueIdx Cert.ReferenceIdeal Cert.ReferenceIdeal.Spec Cert.ReferenceIdeal.KSpec
open scoped BigOperators

variable [Facts]
open Facts₀ Facts

/-- A vector of 128 entries cast to one row, read at (0, q), is its entry q. -/
theorem row_apply (x : FVec Ideal S128 .f32) (q : Fin 128) :
    broadcastInDim S1x128 ![1] bcast_S128_S1x128_1 x (ix2 (0 : Fin 1) q) = x (ix1 q) :=
  broadcastInDim_apply ![1] bcast_S128_S1x128_1 x (ix2 (0 : Fin 1) q) (ix1 q) (by
    intro a
    match a with
    | ⟨0, _⟩ => show q.val = if (128 : ℕ) = 1 then 0 else q.val; simp)

/-- A vector of 128 entries laid along every one of the 100000 rows, read at (p, q), is its entry q. -/
theorem rows_apply (x : FVec Ideal S128 .f32) (p : Fin 100000) (q : Fin 128) :
    broadcastInDim S100000x128 ![0, 1] bcast_S1x128_S100000x128_0_1 (broadcastInDim S1x128 ![1] bcast_S128_S1x128_1 x) (ix2 p q) = x (ix1 q) :=
  (broadcastInDim_oneRow_apply bcast_S1x128_S100000x128_0_1 _ p q).trans (row_apply x q)

/-- max (agg + b) 0 at (p, q). -/
theorem reluBiasF_apply (agg : FVec Ideal S100000x128 .f32) (b : FVec Ideal S128 .f32) (p : Fin 100000) (q : Fin 128) :
    reluBiasF (F := Ideal) agg b (ix2 p q) = max (agg (ix2 p q) + b (ix1 q)) (Ideal.ofBits .f32 0x00000000#32) := by
  unfold reluBiasF
  rw [maximumf_apply, addf_apply, rows_apply, broadcastInDim_scalar_apply, constant_apply]

/-- ((r - mean) · rsqrt (var + ε)) · γ + β at (p, q). -/
theorem bnF_apply (r : FVec Ideal S100000x128 .f32) (g b : FVec Ideal S128 .f32) (p : Fin 100000) (q : Fin 128) :
    bnF (F := Ideal) r g b (ix2 p q)
      = ((r (ix2 p q) - meanF (F := Ideal) r (ix1 q)) * Ideal.rsqrt (varF (F := Ideal) r (ix1 q) + Ideal.ofBits .f32 0x3727C5AC#32))
          * g (ix1 q) + b (ix1 q) := by
  unfold bnF
  rw [addf_apply, mulf_apply, mulf_apply, subf_apply, rows_apply, rows_apply, rows_apply, rows_apply]
  have h : Host.rsqrt (addf (varF (F := Ideal) r) (broadcastInDim S128 ![] bcast_S_S128 (constant (F := Ideal) S_ .f32 0x3727C5AC#32))) (ix1 q)
      = Ideal.rsqrt (varF (F := Ideal) r (ix1 q) + Ideal.ofBits .f32 0x3727C5AC#32) := by
    show Ideal.rsqrt (varF (F := Ideal) r (ix1 q) + broadcastInDim S128 ![] bcast_S_S128 (constant (F := Ideal) S_ .f32 0x3727C5AC#32) (ix1 q)) = _
    rw [broadcastInDim_scalar_apply, constant_apply]
  rw [h]

/-- The one-row column mean at (0, q) is the reference's mean at q. -/
theorem meanK_apply (r : FVec Ideal S100000x128 .f32) (q : Fin 128) :
    meanK (F := Ideal) r (ix2 (0 : Fin 1) q) = meanF (F := Ideal) r (ix1 q) := by
  unfold meanK meanF
  rw [hostDivf_apply, hostDivf_apply, row_apply, broadcastInDim_scalar_apply, broadcastInDim_scalar_apply]

/-- The one-row column variance at (0, q) is the reference's variance at q. -/
theorem varK_apply (r : FVec Ideal S100000x128 .f32) (q : Fin 128) :
    varK (F := Ideal) r (ix2 (0 : Fin 1) q) = varF (F := Ideal) r (ix1 q) := by
  unfold varK varF
  rw [select_apply, select_apply, hostDivf_apply, hostDivf_apply, row_apply]
  rw [broadcastInDim_scalar_apply, broadcastInDim_scalar_apply, broadcastInDim_scalar_apply,
    broadcastInDim_scalar_apply, broadcastInDim_scalar_apply, broadcastInDim_scalar_apply]

/-- A vector of n entries reshaped to one row, read at (0, q), is its entry q. -/
theorem castRow_apply {n : Nat} (x : (⟨1, ![n]⟩ : Shape).Idx → EReal) (h : (⟨1, ![n]⟩ : Shape).ShapeCasts ⟨2, ![1, n]⟩) (q : Fin n) :
    shapeCast ⟨2, ![1, n]⟩ x h (ix2 (0 : Fin 1) q) = x (ix1 q) :=
  shapeCast_apply x h (ix2 (0 : Fin 1) q) (ix1 q) (by
    rw [Shape.rowMajor_val_two, Shape.rowMajor_val_one]; show q.val = 0 * n + q.val; omega)

/-- The classifier at (p, q): the logistic function of the row's product with column q plus the bias. -/
theorem fcF_apply (x : FVec Ideal S512x128 .f32) (w : FVec Ideal S128x2 .f32) (b : FVec Ideal S2 .f32) (p : Fin 512) (q : Fin 2)
    (s : EReal) (hs : Host.dotGeneral (F := Ideal) dot_S512x128_S128x2_S512x2_1_0_0_1_n_n none x w (ix2 p q) = s) :
    fcF (F := Ideal) x w b (ix2 p q) = Ideal.logistic (s + b (ix1 q)) := by
  unfold fcF
  rw [hostDivf_apply, addf_apply, broadcastInDim_scalar_apply, constant_apply]
  have hb : broadcastInDim S512x2 ![0, 1] bcast_S1x2_S512x2_0_1 (broadcastInDim S1x2 ![1] bcast_S2_S1x2_1 b) (ix2 p q) = b (ix1 q) :=
    (broadcastInDim_oneRow_apply bcast_S1x2_S512x2_0_1 _ p q).trans
      (broadcastInDim_apply ![1] bcast_S2_S1x2_1 b (ix2 (0 : Fin 1) q) (ix1 q) (by
        intro a
        match a with
        | ⟨0, _⟩ => show q.val = if (2 : ℕ) = 1 then 0 else q.val; simp))
  show Ideal.div (Ideal.ofBits .f32 0x3F800000#32) (Ideal.ofBits .f32 0x3F800000#32 + Ideal.exp (-(Host.dotGeneral (F := Ideal) dot_S512x128_S128x2_S512x2_1_0_0_1_n_n none x w (ix2 p q)
      + broadcastInDim S512x2 ![0, 1] bcast_S1x2_S512x2_0_1 (broadcastInDim S1x2 ![1] bcast_S2_S1x2_1 b) (ix2 p q)))) = _
  rw [hb, hs, Ideal.ofBits_one_f32]
  rfl

end Cert.ReferenceIdeal.Bridge

end
-- ==== Proof.RefDot.lean ====
import proofs.«136765_j22849226015440_1_alg».proof.Proof.Gen.ReferenceIdeal
import Idealize.ShloMosaic.Lib.ValueIdx
import Idealize.ShloMosaic.PureOps.Ideal.Laws

/-! The reference's two host products read at an index: each entry of a matrix product is the sum, over the
    contracted coordinate, of the products of the operands' entries. -/

noncomputable section

namespace Cert.ReferenceIdeal.RefDot

open Cert.ReferenceIdeal Idealize.ShloMosaic Idealize.ShloMosaic.ValueIdx

/-- The dimension numbers of the [100000,128] by [128,128] product. -/
abbrev D1 : DotDims S100000x128 S128x128 S100000x128 := dot_S100000x128_S128x128_S100000x128_1_0_0_1_n_n
/-- The dimension numbers of the [512,128] by [128,2] product. -/
abbrev D2 : DotDims S512x128 S128x2 S512x2 := dot_S512x128_S128x2_S512x2_1_0_0_1_n_n

set_option maxHeartbeats 400000 in
/-- The [100000,128] by [128,128] host product at (p, q). -/
theorem dot1 (x : FVec Ideal S100000x128 .f32) (w : FVec Ideal S128x128 .f32) (p : Fin 100000) (q : Fin 128) :
    Host.dotGeneral (F := Ideal) dot_S100000x128_S128x128_S100000x128_1_0_0_1_n_n none x w (ix2 p q)
      = ∑ k : Fin 128, x (ix2 p k) * w (ix2 k q) := by
  show FloatOps.dotGeneral D1 none _ x w (ix2 p q) = _
  rw [Ideal.dotGeneral_apply, ← Equiv.sum_comp (contrEquiv1 D1 128 rfl rfl).symm]
  refine Finset.sum_congr rfl fun k _ => ?_
  have c2 := contrEquiv1_symm_val D1 128 rfl rfl k
  have l2 : D1.lhsIdx (ix2 p q) ((contrEquiv1 D1 128 rfl rfl).symm k) = ix2 p k := by
    funext ax; apply Fin.ext
    match ax with
    | ⟨0, _⟩ => simp [DotDims.lhsIdx, D1, dot_S100000x128_S128x128_S100000x128_1_0_0_1_n_n]; rfl
    | ⟨1, _⟩ => exact (D1.lhsIdx_val_of_single (cl := 1) rfl (ix2 p q) _).trans c2
  have r2 : D1.rhsIdx (ix2 p q) ((contrEquiv1 D1 128 rfl rfl).symm k) = ix2 k q := by
    funext ax; apply Fin.ext
    match ax with
    | ⟨0, _⟩ => exact (D1.rhsIdx_val_of_single (cr := 0) rfl (ix2 p q) _).trans c2
    | ⟨1, _⟩ => simp [DotDims.rhsIdx, D1, dot_S100000x128_S128x128_S100000x128_1_0_0_1_n_n]; rfl
  rw [l2, r2]

set_option maxHeartbeats 400000 in
/-- The [512,128] by [128,2] host product at (p, q). -/
theorem dot2 (x : FVec Ideal S512x128 .f32) (w : FVec Ideal S128x2 .f32) (p : Fin 512) (q : Fin 2) :
    Host.dotGeneral (F := Ideal) dot_S512x128_S128x2_S512x2_1_0_0_1_n_n none x w (ix2 p q)
      = ∑ k : Fin 128, x (ix2 p k) * w (ix2 k q) := by
  show FloatOps.dotGeneral D2 none _ x w (ix2 p q) = _
  rw [Ideal.dotGeneral_apply, ← Equiv.sum_comp (contrEquiv1 D2 128 rfl rfl).symm]
  refine Finset.sum_congr rfl fun k _ => ?_
  have c2 := contrEquiv1_symm_val D2 128 rfl rfl k
  have l2 : D2.lhsIdx (ix2 p q) ((contrEquiv1 D2 128 rfl rfl).symm k) = ix2 p k := by
    funext ax; apply Fin.ext
    match ax with
    | ⟨0, _⟩ => simp [DotDims.lhsIdx, D2, dot_S512x128_S128x2_S512x2_1_0_0_1_n_n]; rfl
    | ⟨1, _⟩ => exact (D2.lhsIdx_val_of_single (cl := 1) rfl (ix2 p q) _).trans c2
  have r2 : D2.rhsIdx (ix2 p q) ((contrEquiv1 D2 128 rfl rfl).symm k) = ix2 k q := by
    funext ax; apply Fin.ext
    match ax with
    | ⟨0, _⟩ => exact (D2.rhsIdx_val_of_single (cr := 0) rfl (ix2 p q) _).trans c2
    | ⟨1, _⟩ => simp [DotDims.rhsIdx, D2, dot_S512x128_S128x2_S512x2_1_0_0_1_n_n]; rfl
  rw [l2, r2]

end Cert.ReferenceIdeal.RefDot

end
-- ==== Proof.RegionMMLib.lean ====
import proofs.«136765_j22849226015440_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

/-! The payloads of the two row-tiled product regions and of the final region, read at an index of their block, over the
    extended reals: an entry of a matrix product into the zero accumulator is the sum over the contracted coordinate of
    the products of the operands' entries (the narrowing of the operands is the identity there); the final region adds
    the bias row's entry of the same column and takes the logistic. Every statement is over variables of the blocks'
    vector types, at explicit coordinates. Also the whole-array functions the regions' output arrays end holding. -/

noncomputable section

namespace Cert.KernelIdeal.RegionValue

open Cert.KernelIdeal Cert.KernelIdeal.Gen Idealize.ShloMosaic Idealize.ShloMosaic.ValueIdx Idealize.ShloMosaic.Pipeline

/-! ## The row-tiled products (regions 0 and 3) -/

/-- The dimension numbers of the row-block product: the left operand's axis 1 against the right operand's axis 0. -/
abbrev Dmm : DotDims S5000x128 S128x128 S5000x128 := dot_S5000x128_S128x128_S5000x128_1_0_0_1_n_n

set_option maxHeartbeats 400000 in
/-- A [5000,128] by [128,128] product into the zero accumulator, read at (p, q): the sum over the contracted
    coordinate of the products of the entries. -/
theorem matmul_rows_apply {φ₁ φ₂ : FTy} (x : FVec Ideal S5000x128 φ₁) (w : FVec Ideal S128x128 φ₂) (p : Fin 5000) (q : Fin 128) :
    FloatOps.matmul Dmm none x w (constant S5000x128 .f32 0x00000000#32) (ix2 p q)
      = ∑ k : Fin 128, x (ix2 p k) * w (ix2 k q) := by
  rw [Ideal.matmul_constant_zero_apply, ← Equiv.sum_comp (contrEquiv1 Dmm 128 rfl rfl).symm]
  refine Finset.sum_congr rfl fun k _ => ?_
  have c2 := contrEquiv1_symm_val Dmm 128 rfl rfl k
  have l2 : Dmm.lhsIdx (ix2 p q) ((contrEquiv1 Dmm 128 rfl rfl).symm k) = ix2 p k := by
    funext ax; apply Fin.ext
    match ax with
    | ⟨0, _⟩ => simp [DotDims.lhsIdx, Dmm, dot_S5000x128_S128x128_S5000x128_1_0_0_1_n_n]; rfl
    | ⟨1, _⟩ => exact (Dmm.lhsIdx_val_of_single (cl := 1) rfl (ix2 p q) _).trans c2
  have r2 : Dmm.rhsIdx (ix2 p q) ((contrEquiv1 Dmm 128 rfl rfl).symm k) = ix2 k q := by
    funext ax; apply Fin.ext
    match ax with
    | ⟨0, _⟩ => exact (Dmm.rhsIdx_val_of_single (cr := 0) rfl (ix2 p q) _).trans c2
    | ⟨1, _⟩ => simp [DotDims.rhsIdx, Dmm, dot_S5000x128_S128x128_S5000x128_1_0_0_1_n_n]; rfl
  rw [l2, r2]

theorem off_zero : (![0, 0] : Fin 2 → Nat) = fun _ => 0 := funext fun a => by fin_cases a <;> rfl

/-- The payload of product region 0 at (p, q), over any loaded blocks. -/
theorem pay0_apply (x : Vec Ideal S5000x128 .f32) (w : Vec Ideal S128x128 .f32) (p : Fin 5000) (q : Fin 128) :
    k0_pay1 (F := Ideal) x w (ix2 p q) = ∑ k : Fin 128, (x : S5000x128.Idx → EReal) (ix2 p k) * (w : S128x128.Idx → EReal) (ix2 k q) := by
  unfold k0_pay1
  exact matmul_rows_apply (φ₁ := .bf16) (φ₂ := .bf16) x w p q

/-- The same at any index of the block. -/
theorem pay0_idx (x : Vec Ideal S5000x128 .f32) (w : Vec Ideal S128x128 .f32) (y : S5000x128.Idx) :
    k0_pay1 (F := Ideal) x w y = ∑ k : Fin 128, (x : S5000x128.Idx → EReal) (ix2 (n0 := 5000) (n1 := 128) (y 0) k)
      * (w : S128x128.Idx → EReal) (ix2 (n0 := 128) (n1 := 128) k (y 1)) := by
  obtain ⟨p, q, rfl⟩ : ∃ (p : Fin 5000) (q : Fin 128), y = ix2 p q := ⟨y 0, y 1, eq_ix2 y⟩
  exact pay0_apply x w p q

/-- The whole-array product: row p of the left array against column q of the right one. -/
abbrev Gmm (A : S100000x128.Idx → EReal) (W : S128x128.Idx → EReal) : S100000x128.Idx → EReal :=
  fun i => ∑ k : Fin 128, A (ix2 (n0 := 100000) (n1 := 128) (i 0) k) * W (ix2 (n0 := 128) (n1 := 128) k (i 1))

/-- The payload of product region 3 at (p, q), over any loaded blocks (its leading reshape is to the same shape). -/
theorem pay3_apply (x : Vec Ideal S5000x128 .f32) (w : Vec Ideal S128x128 .f32) (p : Fin 5000) (q : Fin 128) :
    k3_pay1 (F := Ideal) x w (ix2 p q) = ∑ k : Fin 128, (x : S5000x128.Idx → EReal) (ix2 p k) * (w : S128x128.Idx → EReal) (ix2 k q) := by
  unfold k3_pay1
  simp only [shapeCast_self]
  exact matmul_rows_apply (φ₁ := .bf16) (φ₂ := .bf16) x w p q

/-- The same at any index of the block. -/
theorem pay3_idx (x : Vec Ideal S5000x128 .f32) (w : Vec Ideal S128x128 .f32) (y : S5000x128.Idx) :
    k3_pay1 (F := Ideal) x w y = ∑ k : Fin 128, (x : S5000x128.Idx → EReal) (ix2 (n0 := 5000) (n1 := 128) (y 0) k)
      * (w : S128x128.Idx → EReal) (ix2 (n0 := 128) (n1 := 128) k (y 1)) := by
  obtain ⟨p, q, rfl⟩ : ∃ (p : Fin 5000) (q : Fin 128), y = ix2 p q := ⟨y 0, y 1, eq_ix2 y⟩
  exact pay3_apply x w p q

/-! ## The final region (region 6) -/

/-- The dimension numbers of the final product: the left operand's axis 1 against the right operand's axis 0. -/
abbrev Dfc : DotDims S512x128 S128x2 S512x2 := dot_S512x128_S128x2_S512x2_1_0_0_1_n_n

set_option maxHeartbeats 400000 in
/-- A [512,128] by [128,2] product into the zero accumulator, read at (p, q). -/
theorem matmul_fc_apply {φ₁ φ₂ : FTy} (x : FVec Ideal S512x128 φ₁) (w : FVec Ideal S128x2 φ₂) (p : Fin 512) (q : Fin 2) :
    FloatOps.matmul Dfc none x w (constant S512x2 .f32 0x00000000#32) (ix2 p q)
      = ∑ k : Fin 128, x (ix2 p k) * w (ix2 k q) := by
  rw [Ideal.matmul_constant_zero_apply, ← Equiv.sum_comp (contrEquiv1 Dfc 128 rfl rfl).symm]
  refine Finset.sum_congr rfl fun k _ => ?_
  have c2 := contrEquiv1_symm_val Dfc 128 rfl rfl k
  have l2 : Dfc.lhsIdx (ix2 p q) ((contrEquiv1 Dfc 128 rfl rfl).symm k) = ix2 p k := by
    funext ax; apply Fin.ext
    match ax with
    | ⟨0, _⟩ => simp [DotDims.lhsIdx, Dfc, dot_S512x128_S128x2_S512x2_1_0_0_1_n_n]; rfl
    | ⟨1, _⟩ => exact (Dfc.lhsIdx_val_of_single (cl := 1) rfl (ix2 p q) _).trans c2
  have r2 : Dfc.rhsIdx (ix2 p q) ((contrEquiv1 Dfc 128 rfl rfl).symm k) = ix2 k q := by
    funext ax; apply Fin.ext
    match ax with
    | ⟨0, _⟩ => exact (Dfc.rhsIdx_val_of_single (cr := 0) rfl (ix2 p q) _).trans c2
    | ⟨1, _⟩ => simp [DotDims.rhsIdx, Dfc, dot_S512x128_S128x2_S512x2_1_0_0_1_n_n]; rfl
  rw [l2, r2]

/-- The bias row broadcast over the 512 rows, read at (p, q), is its entry q. -/
theorem bias_apply (b : FVec Ideal S1x2 .f32) (p : Fin 512) (q : Fin 2) :
    broadcastTo S512x2 b broadcasts_S1x2_S512x2 (ix2 p q) = b (ix2 (0 : Fin 1) q) := by
  refine broadcastTo_apply b broadcasts_S1x2_S512x2 (ix2 p q) (ix2 (0 : Fin 1) q) fun a => ?_
  match a with
  | ⟨0, _⟩ => rfl
  | ⟨1, _⟩ => rfl

set_option maxHeartbeats 400000 in
/-- The payload of region 6 at (p, q), over any loaded blocks. -/
theorem pay6_apply (x : Vec Ideal S512x128 .f32) (w : Vec Ideal S128x2 .f32) (b : Vec Ideal S1x2 .f32) (p : Fin 512) (q : Fin 2) :
    k6_pay1 (F := Ideal) x w b (ix2 p q)
      = Ideal.logistic ((∑ k : Fin 128, (x : S512x128.Idx → EReal) (ix2 p k) * (w : S128x2.Idx → EReal) (ix2 k q))
          + (b : S1x2.Idx → EReal) (ix2 (0 : Fin 1) q)) := by
  unfold k6_pay1
  simp only [shapeCast_self]
  show Ideal.logistic (FloatOps.matmul (F := Ideal) Dfc none (φ₁ := .bf16) (φ₂ := .bf16) x w (constant S512x2 .f32 0x00000000#32) (ix2 p q)
    + broadcastTo S512x2 b broadcasts_S1x2_S512x2 (ix2 p q)) = _
  rw [matmul_fc_apply, bias_apply]

/-- The same at any index of the block. -/
theorem pay6_idx (x : Vec Ideal S512x128 .f32) (w : Vec Ideal S128x2 .f32) (b : Vec Ideal S1x2 .f32) (y : S512x2.Idx) :
    k6_pay1 (F := Ideal) x w b y
      = Ideal.logistic ((∑ k : Fin 128, (x : S512x128.Idx → EReal) (ix2 (n0 := 512) (n1 := 128) (y 0) k)
            * (w : S128x2.Idx → EReal) (ix2 (n0 := 128) (n1 := 2) k (y 1)))
          + (b : S1x2.Idx → EReal) (ix2 (n0 := 1) (n1 := 2) (0 : Fin 1) (y 1))) := by
  obtain ⟨p, q, rfl⟩ : ∃ (p : Fin 512) (q : Fin 2), y = ix2 p q := ⟨y 0, y 1, eq_ix2 y⟩
  exact pay6_apply x w b p q

/-- The whole-array function of region 6: the logistic of the product plus the bias row. -/
abbrev Gfc (A : S512x128.Idx → EReal) (W : S128x2.Idx → EReal) (B : S1x2.Idx → EReal) : S512x2.Idx → EReal :=
  fun i => Ideal.logistic ((∑ k : Fin 128, A (ix2 (n0 := 512) (n1 := 128) (i 0) k) * W (ix2 (n0 := 128) (n1 := 2) k (i 1)))
    + B (ix2 (n0 := 1) (n1 := 2) (0 : Fin 1) (i 1)))

end Cert.KernelIdeal.RegionValue

end
-- ==== Proof.RegionMM.lean ====
import proofs.«136765_j22849226015440_1_alg».proof.Proof.Gen.KernelIdeal.Frame
import proofs.«136765_j22849226015440_1_alg».proof.Proof.RegionMMLib
import Idealize.ShloMosaic.Lib.ValueIdx
import Idealize.ShloMosaic.Lib.ValueLayout
import Idealize.ShloMosaic.Lib.Pipeline.Value
import Idealize.ShloMosaic.PureOps.Ideal.Laws

/-! The value of the output array of the two row-tiled product regions (0 and 3) and of the final region (6) after all
    grid points, index by index, as a function of the arrays the region finds at its entry (any contents `V`). Per
    region: the windows' index maps over the grid; each input block as the rows of its array that it holds; what a
    point writes back is that point's block of one whole-array function; the output's blocks cover its array (row r is
    in the block of point r / 5000; the final region has one point and whole-array blocks); hence the array ends
    holding the whole-array function. -/

noncomputable section

namespace Cert.KernelIdeal.RegionValue

open Cert.KernelIdeal Cert.KernelIdeal.Gen Idealize.ShloMosaic Idealize.ShloMosaic.ValueIdx Idealize.ShloMosaic.Pipeline
open Idealize.ShloMosaic.TcCoe

variable (V : (c : Dev nD) → (b : Ref sig .tc) → Buf (Elt Ideal) ((c : Thread nD τ).loc b)) (c : Dev nD)

/-! ## Region 0: the first row-tiled product -/

/-- The index maps of region 0 over the grid: the row-tiled windows sit at block (t, 0), the weights at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The row-tiled input's block at point t holds rows 5000 t … 5000 t + 4999 of its array. -/
theorem blk0_0_apply (t : Fin cfg0.N) (p : Fin 5000) (k : Fin 128) (r : Fin 100000) (h : r.val = t.val * 5000 + p.val) :
    (iblk0 V c 0 t : S5000x128.Idx → EReal) (ix2 p k) = (V c main_arg0 : S100000x128.Idx → EReal) (ix2 r k) := by
  obtain ⟨e0, e1, -, -, -, -⟩ := idx_facts0 t
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weights' block at any point is the whole array. -/
theorem blk0_1_apply (t : Fin cfg0.N) (k : Fin 128) (q q' : Fin 128) (h : q'.val = q.val) :
    (iblk0 V c 1 t : S128x128.Idx → EReal) (ix2 k q) = (V c main_arg3 : S128x128.Idx → EReal) (ix2 k q') := by
  obtain ⟨-, -, e2, e3, -, -⟩ := idx_facts0 t
  show (V c main_arg3 : S128x128.Idx → EReal) (((cfg0.win 1).blk t).view.emb (ix2 k q)) = _
  refine congrArg _ (funext fun a => Fin.ext ?_)
  match a with
  | ⟨0, _⟩ => show win0_1.index t (0 : Fin 2) * 128 + 1 * k.val = k.val; omega
  | ⟨1, _⟩ => show win0_1.index t (1 : Fin 2) * 128 + 1 * q.val = q'.val; omega

set_option maxHeartbeats 400000 in
/-- What point t writes back is block t of the whole-array product. -/
theorem flushed0_eq (t : Fin cfg0.N) :
    (dat0 (F := Ideal) V c).flushed 2 t = ((cfg0.win 2).blk t).view.read (Elt Ideal)
      (Gmm (V c main_arg0 : S100000x128.Idx → EReal) (V c main_arg3 : S128x128.Idx → EReal)) := by
  show (cfg0.win 2).cut (grid0.coords t) ((dat0 V c).after 2 t) = _
  rw [after0_2]
  unfold out0_2
  rw [View.canon_unit_zero off_zero]
  simp only [View.ld_unit_zero (S := S5000x128) off_zero, View.ld_unit_zero (S := S128x128) off_zero]
  obtain ⟨-, -, -, -, e4, e5⟩ := idx_facts0 t
  funext j
  refine (pay0_idx (iblk0 V c 0 t) (iblk0 V c 1 t) _).trans ?_
  show _ = Gmm (V c main_arg0 : S100000x128.Idx → EReal) (V c main_arg3 : S128x128.Idx → EReal) (((cfg0.win 2).blk t).view.emb j)
  refine Finset.sum_congr rfl fun k _ => congrArg₂ (· * ·) (blk0_0_apply V c t _ k _ ?_) (blk0_1_apply V c t k _ _ ?_)
  · show win0_2.index t (0 : Fin 2) * 5000 + 1 * (j 0).val = t.val * 5000 + (j 0).val; omega
  · show win0_2.index t (1 : Fin 2) * 128 + 1 * (j 1).val = (j 1).val; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v4).slice (win0_2.rect t)).set ↔ _
  rw [View.set_slice_whole, Rect.mem_set_unit]
  exact Iff.rfl

/-- Every row r of the output array is in the block of point r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  have hlt : (i 0).val / 5000 < cfg0.N := by rw [hN]; omega
  obtain ⟨-, -, -, -, e4, e5⟩ := idx_facts0 ⟨(i 0).val / 5000, hlt⟩
  have e4' : win0_2.index ⟨(i 0).val / 5000, hlt⟩ (0 : Fin 2) = (i 0).val / 5000 := e4
  refine ⟨⟨(i 0).val / 5000, hlt⟩, flush0_2 _, ?_⟩
  rw [mem_blk0]
  intro a
  match a with
  | ⟨0, _⟩ =>
    show win0_2.index ⟨(i 0).val / 5000, hlt⟩ (0 : Fin 2) * 5000 ≤ (i 0).val
      ∧ (i 0).val < win0_2.index ⟨(i 0).val / 5000, hlt⟩ (0 : Fin 2) * 5000 + 5000
    omega
  | ⟨1, _⟩ =>
    show win0_2.index ⟨(i 0).val / 5000, hlt⟩ (1 : Fin 2) * 128 ≤ (i 1).val
      ∧ (i 1).val < win0_2.index ⟨(i 0).val / 5000, hlt⟩ (1 : Fin 2) * 128 + 128
    omega

/-- The output array of region 0 after all grid points: the whole-array product of the region's two input arrays. -/
theorem final0 : (dat0 (F := Ideal) V c).arrAt 2 cfg0.N
    = Gmm (V c main_arg0 : S100000x128.Idx → EReal) (V c main_arg3 : S128x128.Idx → EReal) :=
  (dat0 (F := Ideal) V c).arrAt_eq_of_cover 2 _ (fun t _ => flushed0_eq V c t) cover0

/-- Region 0's output array at (p, q), the two input arrays named. -/
theorem mm0 (A : S100000x128.Idx → EReal) (W : S128x128.Idx → EReal) (hA : V c main_arg0 = A) (hW : V c main_arg3 = W)
    (p : Fin 100000) (q : Fin 128) :
    ((dat0 (F := Ideal) V c).arrAt 2 cfg0.N : S100000x128.Idx → EReal) (ix2 p q)
      = (∑ k : Fin 128, A (ix2 p k) * W (ix2 k q) : EReal) := by
  subst hA hW
  exact congrFun (final0 V c) (ix2 p q)

/-! ## Region 3: the second row-tiled product -/

/-- The index maps of region 3 over the grid: the row-tiled windows sit at block (t, 0), the weights at block (0, 0). -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The row-tiled input's block at point t holds rows 5000 t … 5000 t + 4999 of its array. -/
theorem blk3_0_apply (t : Fin cfg3.N) (p : Fin 5000) (k : Fin 128) (r : Fin 100000) (h : r.val = t.val * 5000 + p.val) :
    (iblk3 V c 0 t : S5000x128.Idx → EReal) (ix2 p k) = (V c main_v55 : S100000x128.Idx → EReal) (ix2 r k) := by
  obtain ⟨e0, e1, -, -, -, -⟩ := idx_facts3 t
  show (V c main_v55 : S100000x128.Idx → EReal) (((cfg3.win 0).blk t).view.emb (ix2 p k)) = _
  refine congrArg _ (funext fun a => Fin.ext ?_)
  match a with
  | ⟨0, _⟩ => show win3_0.index t (0 : Fin 2) * 5000 + 1 * p.val = r.val; omega
  | ⟨1, _⟩ => show win3_0.index t (1 : Fin 2) * 128 + 1 * k.val = k.val; omega

/-- The weights' block at any point is the whole array. -/
theorem blk3_1_apply (t : Fin cfg3.N) (k : Fin 128) (q q' : Fin 128) (h : q'.val = q.val) :
    (iblk3 V c 1 t : S128x128.Idx → EReal) (ix2 k q) = (V c main_arg7 : S128x128.Idx → EReal) (ix2 k q') := by
  obtain ⟨-, -, e2, e3, -, -⟩ := idx_facts3 t
  show (V c main_arg7 : S128x128.Idx → EReal) (((cfg3.win 1).blk t).view.emb (ix2 k q)) = _
  refine congrArg _ (funext fun a => Fin.ext ?_)
  match a with
  | ⟨0, _⟩ => show win3_1.index t (0 : Fin 2) * 128 + 1 * k.val = k.val; omega
  | ⟨1, _⟩ => show win3_1.index t (1 : Fin 2) * 128 + 1 * q.val = q'.val; omega

set_option maxHeartbeats 400000 in
/-- What point t writes back is block t of the whole-array product. -/
theorem flushed3_eq (t : Fin cfg3.N) :
    (dat3 (F := Ideal) V c).flushed 2 t = ((cfg3.win 2).blk t).view.read (Elt Ideal)
      (Gmm (V c main_v55 : S100000x128.Idx → EReal) (V c main_arg7 : S128x128.Idx → EReal)) := by
  show (cfg3.win 2).cut (grid3.coords t) ((dat3 V c).after 2 t) = _
  rw [after3_2]
  unfold out3_2
  rw [View.canon_unit_zero off_zero]
  simp only [View.ld_unit_zero (S := S5000x128) off_zero, View.ld_unit_zero (S := S128x128) off_zero]
  obtain ⟨-, -, -, -, e4, e5⟩ := idx_facts3 t
  funext j
  refine (pay3_idx (iblk3 V c 0 t) (iblk3 V c 1 t) _).trans ?_
  show _ = Gmm (V c main_v55 : S100000x128.Idx → EReal) (V c main_arg7 : S128x128.Idx → EReal) (((cfg3.win 2).blk t).view.emb j)
  refine Finset.sum_congr rfl fun k _ => congrArg₂ (· * ·) (blk3_0_apply V c t _ k _ ?_) (blk3_1_apply V c t k _ _ ?_)
  · show win3_2.index t (0 : Fin 2) * 5000 + 1 * (j 0).val = t.val * 5000 + (j 0).val; omega
  · show win3_2.index t (1 : Fin 2) * 128 + 1 * (j 1).val = (j 1).val; omega

/-- An index of the output array is in point t's block iff each coordinate is in the block's range on its axis. -/
theorem mem_blk3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v56).slice (win3_2.rect t)).set ↔ _
  rw [View.set_slice_whole, Rect.mem_set_unit]
  exact Iff.rfl

/-- Every row r of the output array is in the block of point r / 5000. -/
theorem cover3 (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨-, -, -, -, e4, e5⟩ := idx_facts3 ⟨(i 0).val / 5000, hlt⟩
  have e4' : win3_2.index ⟨(i 0).val / 5000, hlt⟩ (0 : Fin 2) = (i 0).val / 5000 := e4
  refine ⟨⟨(i 0).val / 5000, hlt⟩, flush3_2 _, ?_⟩
  rw [mem_blk3]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 128 ≤ (i 1).val
      ∧ (i 1).val < win3_2.index ⟨(i 0).val / 5000, hlt⟩ (1 : Fin 2) * 128 + 128
    omega

/-- The output array of region 3 after all grid points: the whole-array product of the region's two input arrays. -/
theorem final3 : (dat3 (F := Ideal) V c).arrAt 2 cfg3.N
    = Gmm (V c main_v55 : S100000x128.Idx → EReal) (V c main_arg7 : S128x128.Idx → EReal) :=
  (dat3 (F := Ideal) V c).arrAt_eq_of_cover 2 _ (fun t _ => flushed3_eq V c t) cover3

/-- Region 3's output array at (p, q), the two input arrays named. -/
theorem mm3 (A : S100000x128.Idx → EReal) (W : S128x128.Idx → EReal) (hA : V c main_v55 = A) (hW : V c main_arg7 = W)
    (p : Fin 100000) (q : Fin 128) :
    ((dat3 (F := Ideal) V c).arrAt 2 cfg3.N : S100000x128.Idx → EReal) (ix2 p q)
      = (∑ k : Fin 128, A (ix2 p k) * W (ix2 k q) : EReal) := by
  subst hA hW
  exact congrFun (final3 V c) (ix2 p q)

/-! ## Region 6: the final product, its bias and the logistic, on whole-array blocks -/

/-- The index maps of region 6 over its one-point grid: every window sits at block (0, 0). -/
theorem idx_facts6 : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0 :=
  (by decide +kernel : ∀ t : Fin grid6.N, _)

/-- The left operand's block is its whole array. -/
theorem blk6_0_apply (t : Fin cfg6.N) (p p' : Fin 512) (k : Fin 128) (h : p'.val = p.val) :
    (iblk6 V c 0 t : S512x128.Idx → EReal) (ix2 p k) = (V c main_v119 : S512x128.Idx → EReal) (ix2 p' k) := by
  obtain ⟨e0, e1, -, -, -, -, -, -⟩ := idx_facts6 t
  show (V c main_v119 : S512x128.Idx → EReal) (((cfg6.win 0).blk t).view.emb (ix2 p k)) = _
  refine congrArg _ (funext fun a => Fin.ext ?_)
  match a with
  | ⟨0, _⟩ => show win6_0.index t (0 : Fin 2) * 512 + 1 * p.val = p'.val; omega
  | ⟨1, _⟩ => show win6_0.index t (1 : Fin 2) * 128 + 1 * k.val = k.val; omega

/-- The right operand's block is its whole array. -/
theorem blk6_1_apply (t : Fin cfg6.N) (k : Fin 128) (q q' : Fin 2) (h : q'.val = q.val) :
    (iblk6 V c 1 t : S128x2.Idx → EReal) (ix2 k q) = (V c main_arg11 : S128x2.Idx → EReal) (ix2 k q') := by
  obtain ⟨-, -, e2, e3, -, -, -, -⟩ := idx_facts6 t
  show (V c main_arg11 : S128x2.Idx → EReal) (((cfg6.win 1).blk t).view.emb (ix2 k q)) = _
  refine congrArg _ (funext fun a => Fin.ext ?_)
  match a with
  | ⟨0, _⟩ => show win6_1.index t (0 : Fin 2) * 128 + 1 * k.val = k.val; omega
  | ⟨1, _⟩ => show win6_1.index t (1 : Fin 2) * 2 + 1 * q.val = q'.val; omega

/-- The bias row's block is its whole array. -/
theorem blk6_2_apply (t : Fin cfg6.N) (q q' : Fin 2) (h : q'.val = q.val) :
    (iblk6 V c 2 t : S1x2.Idx → EReal) (ix2 (0 : Fin 1) q) = (V c main_v120 : S1x2.Idx → EReal) (ix2 (0 : Fin 1) q') := by
  obtain ⟨-, -, -, -, e4, e5, -, -⟩ := idx_facts6 t
  show (V c main_v120 : S1x2.Idx → EReal) (((cfg6.win 2).blk t).view.emb (ix2 (0 : Fin 1) q)) = _
  refine congrArg _ (funext fun a => Fin.ext ?_)
  match a with
  | ⟨0, _⟩ => show win6_2.index t (0 : Fin 2) * 1 + 1 * (0 : Fin 1).val = (0 : Fin 1).val; omega
  | ⟨1, _⟩ => show win6_2.index t (1 : Fin 2) * 2 + 1 * q.val = q'.val; omega

set_option maxHeartbeats 400000 in
/-- What the one point writes back is the whole-array function's block there. -/
theorem flushed6_eq (t : Fin cfg6.N) :
    (dat6 (F := Ideal) V c).flushed 3 t = ((cfg6.win 3).blk t).view.read (Elt Ideal)
      (Gfc (V c main_v119 : S512x128.Idx → EReal) (V c main_arg11 : S128x2.Idx → EReal) (V c main_v120 : S1x2.Idx → EReal)) := by
  show (cfg6.win 3).cut (grid6.coords t) ((dat6 V c).after 3 t) = _
  rw [after6_3]
  unfold out6_3
  rw [View.canon_unit_zero off_zero]
  simp only [View.ld_unit_zero (S := S512x128) off_zero, View.ld_unit_zero (S := S128x2) off_zero,
    View.ld_unit_zero (S := S1x2) off_zero]
  obtain ⟨-, -, -, -, -, -, e6, e7⟩ := idx_facts6 t
  funext j
  refine (pay6_idx (iblk6 V c 0 t) (iblk6 V c 1 t) (iblk6 V c 2 t) _).trans ?_
  show _ = Gfc (V c main_v119 : S512x128.Idx → EReal) (V c main_arg11 : S128x2.Idx → EReal) (V c main_v120 : S1x2.Idx → EReal)
    (((cfg6.win 3).blk t).view.emb j)
  refine congrArg Ideal.logistic (congrArg₂ (· + ·)
    (Finset.sum_congr rfl fun k _ => congrArg₂ (· * ·) (blk6_0_apply V c t _ _ k ?_) (blk6_1_apply V c t k _ _ ?_))
    (blk6_2_apply V c t _ _ ?_))
  · show win6_3.index t (0 : Fin 2) * 512 + 1 * (j 0).val = (j 0).val; omega
  · show win6_3.index t (1 : Fin 2) * 2 + 1 * (j 1).val = (j 1).val; omega
  · show win6_3.index t (1 : Fin 2) * 2 + 1 * (j 1).val = (j 1).val; omega

/-- An index of the output array is in the point's block iff each coordinate is in the block's range on its axis. -/
theorem mem_blk6 (t : Fin cfg6.N) (i : S512x2.Idx) :
    i ∈ ((cfg6.win 3).blk t).view.set ↔ ∀ a : Fin 2, win6_3.index t a * S512x2.size a ≤ (i a).val
      ∧ (i a).val < win6_3.index t a * S512x2.size a + S512x2.size a := by
  show i ∈ ((View.whole main_v121).slice (win6_3.rect t)).set ↔ _
  rw [View.set_slice_whole, Rect.mem_set_unit]
  exact Iff.rfl

/-- The one point's block is the whole output array. -/
theorem cover6 (i : S512x2.Idx) :
    ∃ t : Fin cfg6.N, (cfg6.win 3).flush t = true ∧ i ∈ ((cfg6.win 3).blk t).view.set := by
  have hi0 : (i 0).val < 512 := (i 0).isLt
  have hi1 : (i 1).val < 2 := (i 1).isLt
  have hN : cfg6.N = 1 := N_6
  have hlt : 0 < cfg6.N := by rw [hN]; omega
  obtain ⟨-, -, -, -, -, -, e6, e7⟩ := idx_facts6 ⟨0, hlt⟩
  refine ⟨⟨0, hlt⟩, flush6_3 _, ?_⟩
  rw [mem_blk6]
  intro a
  match a with
  | ⟨0, _⟩ =>
    show win6_3.index ⟨0, hlt⟩ (0 : Fin 2) * 512 ≤ (i 0).val ∧ (i 0).val < win6_3.index ⟨0, hlt⟩ (0 : Fin 2) * 512 + 512
    omega
  | ⟨1, _⟩ =>
    show win6_3.index ⟨0, hlt⟩ (1 : Fin 2) * 2 ≤ (i 1).val ∧ (i 1).val < win6_3.index ⟨0, hlt⟩ (1 : Fin 2) * 2 + 2
    omega

/-- The output array of region 6 after its one grid point. -/
theorem final6 : (dat6 (F := Ideal) V c).arrAt 3 cfg6.N
    = Gfc (V c main_v119 : S512x128.Idx → EReal) (V c main_arg11 : S128x2.Idx → EReal) (V c main_v120 : S1x2.Idx → EReal) :=
  (dat6 (F := Ideal) V c).arrAt_eq_of_cover 3 _ (fun t _ => flushed6_eq V c t) cover6

/-- Region 6's output array at (p, q), the three input arrays named. -/
theorem fc6 (A : S512x128.Idx → EReal) (W : S128x2.Idx → EReal) (B : S1x2.Idx → EReal)
    (hA : V c main_v119 = A) (hW : V c main_arg11 = W) (hB : V c main_v120 = B) (p : Fin 512) (q : Fin 2) :
    ((dat6 (F := Ideal) V c).arrAt 3 cfg6.N : S512x2.Idx → EReal) (ix2 p q)
      = Ideal.logistic ((∑ k : Fin 128, A (ix2 p k) * W (ix2 k q)) + B (ix2 (0 : Fin 1) q)) := by
  subst hA hW hB
  exact congrFun (final6 V c) (ix2 p q)

end Cert.KernelIdeal.RegionValue

end
-- ==== Proof.RegionPWLib.lean ====
/- The four pointwise regions (1, 4: a bias row added and the positive part taken; 2, 5: normalisation by per-column
   mean and variance, scale and shift), part one: the whole-array functions the regions compute, and each region's
   payload read at an index of its [5000,128] block, at the ideal instance (extended reals, exact operations). -/
import proofs.«136765_j22849226015440_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx Idealize.ShloMosaic.Pipeline
open Idealize.ShloMosaic.TcCoe

theorem hz : (![0, 0] : Fin 2 → Nat) = fun _ => 0 := funext fun a => by fin_cases a <;> rfl

/-! ## The whole-array functions -/

/-- A bias row added to every row, then the positive part. -/
def reluBias (A : S100000x128.Idx → EReal) (B : S1x128.Idx → EReal) : S100000x128.Idx → EReal :=
  fun i => max (A i + B (ix2 (0 : Fin 1) (i 1 : Fin 128))) (Ideal.ofBits .f32 0x00000000#32)

theorem reluBias_apply (A : S100000x128.Idx → EReal) (B : S1x128.Idx → EReal) (p : Fin 100000) (q : Fin 128) :
    reluBias A B (ix2 p q) = max (A (ix2 p q) + B (ix2 (0 : Fin 1) q)) (Ideal.ofBits .f32 0x00000000#32) := rfl

/-- Every row normalised by the per-column mean and variance, scaled and shifted:
    ((h - mean) * rsqrt (var + eps)) * gamma + beta. -/
def bnApply (H : S100000x128.Idx → EReal) (Mu Var Ga Be : S1x128.Idx → EReal) : S100000x128.Idx → EReal :=
  fun i => ((H i - Mu (ix2 (0 : Fin 1) (i 1 : Fin 128)))
      * Ideal.rsqrt (Var (ix2 (0 : Fin 1) (i 1 : Fin 128)) + Ideal.ofBits .f32 0x3727C5AC#32))
      * Ga (ix2 (0 : Fin 1) (i 1 : Fin 128))
    + Be (ix2 (0 : Fin 1) (i 1 : Fin 128))

theorem bnApply_apply (H : S100000x128.Idx → EReal) (Mu Var Ga Be : S1x128.Idx → EReal) (p : Fin 100000) (q : Fin 128) :
    bnApply H Mu Var Ga Be (ix2 p q)
      = ((H (ix2 p q) - Mu (ix2 (0 : Fin 1) q)) * Ideal.rsqrt (Var (ix2 (0 : Fin 1) q) + Ideal.ofBits .f32 0x3727C5AC#32))
          * Ga (ix2 (0 : Fin 1) q)
        + Be (ix2 (0 : Fin 1) q) := rfl

/-! ## The payloads at an index -/

/-- The bias-and-positive-part payload of region 1 at (p, q): max (x + bias row, 0). -/
theorem k1_pay_apply (x : Vec Ideal S5000x128 .f32) (b : Vec Ideal S1x128 .f32) (p : Fin 5000) (q : Fin 128) :
    (k1_pay1 (F := Ideal) x b : S5000x128.Idx → EReal) (ix2 p q)
      = max ((x : S5000x128.Idx → EReal) (ix2 p q) + (b : S1x128.Idx → EReal) (ix2 (0 : Fin 1) q)) (Ideal.ofBits .f32 0x00000000#32) := by
  unfold k1_pay1
  rw [maximumf_apply, addf_apply, broadcast_apply, shapeCast_self, shapeCast_self, broadcastTo_1b_ab_apply]
  rfl

/-- One element of a block's payload is the whole-array function at the element's place in the array. -/
theorem relu_point1 (x : Vec Ideal S5000x128 .f32) (b : Vec Ideal S1x128 .f32)
    (A : S100000x128.Idx → EReal) (B : S1x128.Idx → EReal) (y : S5000x128.Idx) (i : S100000x128.Idx)
    (hx : (x : S5000x128.Idx → EReal) y = A i) (hb : (b : S1x128.Idx → EReal) = B) (hi : (i 1).val = (y 1).val) :
    (k1_pay1 (F := Ideal) x b : S5000x128.Idx → EReal) y = reluBias A B i := by
  obtain ⟨p, q, rfl⟩ : ∃ (p : Fin 5000) (q : Fin 128), y = ix2 p q := ⟨y 0, y 1, eq_ix2 y⟩
  rw [k1_pay_apply, hx, hb]
  have hq : (i 1 : Fin 128) = q := Fin.ext hi
  unfold reluBias
  rw [hq]

/-- The bias-and-positive-part payload of region 4 at (p, q): max (x + bias row, 0). -/
theorem k4_pay_apply (x : Vec Ideal S5000x128 .f32) (b : Vec Ideal S1x128 .f32) (p : Fin 5000) (q : Fin 128) :
    (k4_pay1 (F := Ideal) x b : S5000x128.Idx → EReal) (ix2 p q)
      = max ((x : S5000x128.Idx → EReal) (ix2 p q) + (b : S1x128.Idx → EReal) (ix2 (0 : Fin 1) q)) (Ideal.ofBits .f32 0x00000000#32) := by
  unfold k4_pay1
  rw [maximumf_apply, addf_apply, broadcast_apply, shapeCast_self, shapeCast_self, broadcastTo_1b_ab_apply]
  rfl

/-- One element of a block's payload is the whole-array function at the element's place in the array. -/
theorem relu_point4 (x : Vec Ideal S5000x128 .f32) (b : Vec Ideal S1x128 .f32)
    (A : S100000x128.Idx → EReal) (B : S1x128.Idx → EReal) (y : S5000x128.Idx) (i : S100000x128.Idx)
    (hx : (x : S5000x128.Idx → EReal) y = A i) (hb : (b : S1x128.Idx → EReal) = B) (hi : (i 1).val = (y 1).val) :
    (k4_pay1 (F := Ideal) x b : S5000x128.Idx → EReal) y = reluBias A B i := by
  obtain ⟨p, q, rfl⟩ : ∃ (p : Fin 5000) (q : Fin 128), y = ix2 p q := ⟨y 0, y 1, eq_ix2 y⟩
  rw [k4_pay_apply, hx, hb]
  have hq : (i 1 : Fin 128) = q := Fin.ext hi
  unfold reluBias
  rw [hq]

/-- The normalisation payload of region 2 at (p, q): ((h - mean) * rsqrt (var + eps)) * gamma + beta, the small operands read on their one row. -/
theorem k2_pay_apply (va : Vec Ideal S1x128 .f32) (h : Vec Ideal S5000x128 .f32) (mu : Vec Ideal S1x128 .f32)
    (ga : Vec Ideal S1x128 .f32) (be : Vec Ideal S1x128 .f32) (p : Fin 5000) (q : Fin 128) :
    (k2_pay1 (F := Ideal) va h mu ga be : S5000x128.Idx → EReal) (ix2 p q)
      = (((h : S5000x128.Idx → EReal) (ix2 p q) - (mu : S1x128.Idx → EReal) (ix2 (0 : Fin 1) q))
          * Ideal.rsqrt ((va : S1x128.Idx → EReal) (ix2 (0 : Fin 1) q) + Ideal.ofBits .f32 0x3727C5AC#32))
          * (ga : S1x128.Idx → EReal) (ix2 (0 : Fin 1) q)
        + (be : S1x128.Idx → EReal) (ix2 (0 : Fin 1) q) := by
  unfold k2_pay1
  rw [addf_apply, mulf_apply, mulf_apply, subf_apply]
  simp only [shapeCast_self, broadcastTo_1b_ab_apply]
  rfl

/-- One element of a block's payload is the whole-array function at the element's place in the array. -/
theorem bn_point2 (va : Vec Ideal S1x128 .f32) (h : Vec Ideal S5000x128 .f32) (mu : Vec Ideal S1x128 .f32)
    (ga : Vec Ideal S1x128 .f32) (be : Vec Ideal S1x128 .f32)
    (H : S100000x128.Idx → EReal) (Mu Var Ga Be : S1x128.Idx → EReal) (y : S5000x128.Idx) (i : S100000x128.Idx)
    (hx : (h : S5000x128.Idx → EReal) y = H i) (hmu : (mu : S1x128.Idx → EReal) = Mu) (hva : (va : S1x128.Idx → EReal) = Var)
    (hga : (ga : S1x128.Idx → EReal) = Ga) (hbe : (be : S1x128.Idx → EReal) = Be) (hi : (i 1).val = (y 1).val) :
    (k2_pay1 (F := Ideal) va h mu ga be : S5000x128.Idx → EReal) y = bnApply H Mu Var Ga Be i := by
  obtain ⟨p, q, rfl⟩ : ∃ (p : Fin 5000) (q : Fin 128), y = ix2 p q := ⟨y 0, y 1, eq_ix2 y⟩
  rw [k2_pay_apply, hx, hmu, hva, hga, hbe]
  have hq : (i 1 : Fin 128) = q := Fin.ext hi
  unfold bnApply
  rw [hq]

/-- The normalisation payload of region 5 at (p, q): ((h - mean) * rsqrt (var + eps)) * gamma + beta, the small operands read on their one row. -/
theorem k5_pay_apply (va : Vec Ideal S1x128 .f32) (h : Vec Ideal S5000x128 .f32) (mu : Vec Ideal S1x128 .f32)
    (ga : Vec Ideal S1x128 .f32) (be : Vec Ideal S1x128 .f32) (p : Fin 5000) (q : Fin 128) :
    (k5_pay1 (F := Ideal) va h mu ga be : S5000x128.Idx → EReal) (ix2 p q)
      = (((h : S5000x128.Idx → EReal) (ix2 p q) - (mu : S1x128.Idx → EReal) (ix2 (0 : Fin 1) q))
          * Ideal.rsqrt ((va : S1x128.Idx → EReal) (ix2 (0 : Fin 1) q) + Ideal.ofBits .f32 0x3727C5AC#32))
          * (ga : S1x128.Idx → EReal) (ix2 (0 : Fin 1) q)
        + (be : S1x128.Idx → EReal) (ix2 (0 : Fin 1) q) := by
  unfold k5_pay1
  rw [addf_apply, mulf_apply, mulf_apply, subf_apply]
  simp only [shapeCast_self, broadcastTo_1b_ab_apply]
  rfl

/-- One element of a block's payload is the whole-array function at the element's place in the array. -/
theorem bn_point5 (va : Vec Ideal S1x128 .f32) (h : Vec Ideal S5000x128 .f32) (mu : Vec Ideal S1x128 .f32)
    (ga : Vec Ideal S1x128 .f32) (be : Vec Ideal S1x128 .f32)
    (H : S100000x128.Idx → EReal) (Mu Var Ga Be : S1x128.Idx → EReal) (y : S5000x128.Idx) (i : S100000x128.Idx)
    (hx : (h : S5000x128.Idx → EReal) y = H i) (hmu : (mu : S1x128.Idx → EReal) = Mu) (hva : (va : S1x128.Idx → EReal) = Var)
    (hga : (ga : S1x128.Idx → EReal) = Ga) (hbe : (be : S1x128.Idx → EReal) = Be) (hi : (i 1).val = (y 1).val) :
    (k5_pay1 (F := Ideal) va h mu ga be : S5000x128.Idx → EReal) y = bnApply H Mu Var Ga Be i := by
  obtain ⟨p, q, rfl⟩ : ∃ (p : Fin 5000) (q : Fin 128), y = ix2 p q := ⟨y 0, y 1, eq_ix2 y⟩
  rw [k5_pay_apply, hx, hmu, hva, hga, hbe]
  have hq : (i 1 : Fin 128) = q := Fin.ext hi
  unfold bnApply
  rw [hq]

end Cert.KernelIdeal.RegionValue

end
-- ==== Proof.RegionPW.lean ====
/- The four pointwise regions, part two: from blocks to the array. Each region's output array after its 20 grid points
   is one function of the region's input arrays as the region finds them: point t writes rows 5000 t … 5000 t + 4999,
   the element (r, q) of that block is the payload of the big input's block at the same place and of the one-row
   operands (whose block is their whole array at every point), and the 20 blocks cover the 100000 rows. -/
import proofs.«136765_j22849226015440_1_alg».proof.Proof.RegionPWLib

noncomputable section

namespace Cert.KernelIdeal.RegionValue

open Cert.KernelIdeal Cert.KernelIdeal.Gen Idealize.ShloMosaic Idealize.ShloMosaic.ValueIdx Idealize.ShloMosaic.Pipeline
open Idealize.ShloMosaic.TcCoe

variable (V : (c : Dev nD) → (b : Ref sig .tc) → Buf (Elt Ideal) ((c : Thread nD τ).loc b)) (c : Dev nD)

/-! ## Region 1: bias and positive part -/

/-- The index maps, decided over the 20 grid points: the big input and the output move together, row block t; the
    bias window stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The bias window's block is the whole bias array at every point. -/
theorem blk1_1 (t : Fin cfg1.N) : (iblk1 V c 1 t : S1x128.Idx → EReal) = (V c main_v46 : S1x128.Idx → EReal) := by
  obtain ⟨e0, e1, e2, e3, e4, e5⟩ := idx1 t
  funext y
  show V c main_v46 (((cfg1.win 1).blk t).view.emb y) = V c main_v46 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 128 + 1 * (y 1).val = (y 1).val; omega

/-- What point t writes back is block t of the whole-array function of the arrays as the region finds them. -/
theorem flushed1_eq (t : Fin cfg1.N) :
    (dat1 (F := Ideal) V c).flushed 2 t
      = ((cfg1.win 2).blk t).view.read (Elt Ideal) (reluBias (V c main_v45) (V c main_v46)) := by
  show (cfg1.win 2).cut (grid1.coords t) ((dat1 V c).after 2 t) = _
  rw [after1_2]
  unfold out1_2
  rw [View.canon_unit_zero hz]
  simp only [View.ld_unit_zero (S := S5000x128) hz, View.ld_unit_zero (S := S1x128) hz]
  obtain ⟨e0, e1, e2, e3, e4, e5⟩ := idx1 t
  funext j
  show k1_pay1 (iblk1 V c 0 t) (iblk1 V c 1 t) j = reluBias (V c main_v45) (V c main_v46) (((cfg1.win 2).blk t).view.emb j)
  refine relu_point1 _ _ _ _ j _ ?_ (blk1_1 V c t) ?_
  · show V c main_v45 (((cfg1.win 0).blk t).view.emb j) = V c main_v45 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 128 + 1 * (j 1).val = win1_2.index t (1 : Fin 2) * 128 + 1 * (j 1).val; omega
  · show win1_2.index t (1 : Fin 2) * 128 + 1 * (j 1).val = (j 1).val; omega

/-- An index of the array is in point t's block iff each coordinate is in the block's range on its axis. -/
theorem mem_blk1 (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v47).slice (win1_2.rect t)).set ↔ _
  rw [View.set_slice_whole, Rect.mem_set_unit]
  exact Iff.rfl

/-- Every index of the array is in some point's block: row r is covered by point r / 5000. -/
theorem cover1 (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  let t : Fin cfg1.N := ⟨(i 0).val / 5000, by rw [hN]; omega⟩
  obtain ⟨e0, e1, e2, e3, e4, e5⟩ := idx1 t
  have ht : t.val = (i 0).val / 5000 := rfl
  refine ⟨t, flush1_2 t, ?_⟩
  rw [mem_blk1]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- The output array of region 1 after all its grid points, as one function of the region's input arrays. -/
theorem final1 : (dat1 (F := Ideal) V c).arrAt 2 cfg1.N = reluBias (V c main_v45) (V c main_v46) :=
  (dat1 (F := Ideal) V c).arrAt_eq_of_cover 2 (reluBias (V c main_v45) (V c main_v46)) (fun t _ => flushed1_eq V c t) cover1

theorem rb1 (p : Fin 100000) (q : Fin 128) :
    ((dat1 (F := Ideal) V c).arrAt 2 cfg1.N : S100000x128.Idx → EReal) (ix2 p q)
      = reluBias (V c main_v45) (V c main_v46) (ix2 p q) := by
  rw [final1]

/-- The same with the input arrays named. -/
theorem rb1_vars (A : S100000x128.Idx → EReal) (B : S1x128.Idx → EReal) (hA : V c main_v45 = A) (hB : V c main_v46 = B)
    (p : Fin 100000) (q : Fin 128) :
    ((dat1 (F := Ideal) V c).arrAt 2 cfg1.N : S100000x128.Idx → EReal) (ix2 p q)
      = max (A (ix2 p q) + B (ix2 (0 : Fin 1) q)) (Ideal.ofBits .f32 0x00000000#32) := by
  subst hA hB
  rw [final1]; rfl

/-! ## Region 2: normalisation by the column statistics -/

/-- The index maps, decided over the 20 grid points: the activations and the output move together, row block t; the
    four one-row windows stay at block (0, 0). -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Window 1's block is its whole one-row array at every point. -/
theorem blk2_1 (t : Fin cfg2.N) : (iblk2 V c 1 t : S1x128.Idx → EReal) = (V c main_v51 : S1x128.Idx → EReal) := by
  obtain ⟨e0, e1, e2, e3, e4, e5, e6, e7, e8, e9, e10, e11⟩ := idx2 t
  funext y
  show V c main_v51 (((cfg2.win 1).blk t).view.emb y) = V c main_v51 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2's block is its whole one-row array at every point. -/
theorem blk2_2 (t : Fin cfg2.N) : (iblk2 V c 2 t : S1x128.Idx → EReal) = (V c main_v52 : S1x128.Idx → EReal) := by
  obtain ⟨e0, e1, e2, e3, e4, e5, e6, e7, e8, e9, e10, e11⟩ := idx2 t
  funext y
  show V c main_v52 (((cfg2.win 2).blk t).view.emb y) = V c main_v52 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3's block is its whole one-row array at every point. -/
theorem blk2_3 (t : Fin cfg2.N) : (iblk2 V c 3 t : S1x128.Idx → EReal) = (V c main_v53 : S1x128.Idx → EReal) := by
  obtain ⟨e0, e1, e2, e3, e4, e5, e6, e7, e8, e9, e10, e11⟩ := idx2 t
  funext y
  show V c main_v53 (((cfg2.win 3).blk t).view.emb y) = V c main_v53 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block is its whole one-row array at every point. -/
theorem blk2_4 (t : Fin cfg2.N) : (iblk2 V c 4 t : S1x128.Idx → EReal) = (V c main_v54 : S1x128.Idx → EReal) := by
  obtain ⟨e0, e1, e2, e3, e4, e5, e6, e7, e8, e9, e10, e11⟩ := idx2 t
  funext y
  show V c main_v54 (((cfg2.win 4).blk t).view.emb y) = V c main_v54 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- What point t writes back is block t of the whole-array function of the arrays as the region finds them. -/
theorem flushed2_eq (t : Fin cfg2.N) :
    (dat2 (F := Ideal) V c).flushed 5 t
      = ((cfg2.win 5).blk t).view.read (Elt Ideal) (bnApply (V c main_v47) (V c main_v51) (V c main_v52) (V c main_v53) (V c main_v54)) := by
  show (cfg2.win 5).cut (grid2.coords t) ((dat2 V c).after 5 t) = _
  rw [after2_5]
  unfold out2_5
  rw [View.canon_unit_zero hz]
  simp only [View.ld_unit_zero (S := S5000x128) hz, View.ld_unit_zero (S := S1x128) hz]
  obtain ⟨e0, e1, e2, e3, e4, e5, e6, e7, e8, e9, e10, e11⟩ := idx2 t
  funext j
  show k2_pay1 (iblk2 V c 2 t) (iblk2 V c 0 t) (iblk2 V c 1 t) (iblk2 V c 3 t) (iblk2 V c 4 t) j
    = bnApply (V c main_v47) (V c main_v51) (V c main_v52) (V c main_v53) (V c main_v54) (((cfg2.win 5).blk t).view.emb j)
  refine bn_point2 _ _ _ _ _ _ _ _ _ _ j _ ?_ (blk2_1 V c t) (blk2_2 V c t) (blk2_3 V c t) (blk2_4 V c t) ?_
  · show V c main_v47 (((cfg2.win 0).blk t).view.emb j) = V c main_v47 (((cfg2.win 5).blk t).view.emb j)
    refine congrArg _ (funext fun a => Fin.ext ?_)
    match a with
    | ⟨0, _⟩ => show win2_0.index t (0 : Fin 2) * 5000 + 1 * (j 0).val = win2_5.index t (0 : Fin 2) * 5000 + 1 * (j 0).val; omega
    | ⟨1, _⟩ => show win2_0.index t (1 : Fin 2) * 128 + 1 * (j 1).val = win2_5.index t (1 : Fin 2) * 128 + 1 * (j 1).val; omega
  · show win2_5.index t (1 : Fin 2) * 128 + 1 * (j 1).val = (j 1).val; omega

/-- An index of the array is in point t's block iff each coordinate is in the block's range on its axis. -/
theorem mem_blk2 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole main_v55).slice (win2_5.rect t)).set ↔ _
  rw [View.set_slice_whole, Rect.mem_set_unit]
  exact Iff.rfl

/-- Every index of the array is in some point's block: row r is covered by point r / 5000. -/
theorem cover2 (i : S100000x128.Idx) : ∃ t : Fin cfg2.N, (cfg2.win 5).flush t = true ∧ i ∈ ((cfg2.win 5).blk t).view.set := by
  have hi0 : (i 0).val < 100000 := (i 0).isLt
  have hi1 : (i 1).val < 128 := (i 1).isLt
  have hN : cfg2.N = 20 := N_2
  let t : Fin cfg2.N := ⟨(i 0).val / 5000, by rw [hN]; omega⟩
  obtain ⟨e0, e1, e2, e3, e4, e5, e6, e7, e8, e9, e10, e11⟩ := idx2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- The output array of region 2 after all its grid points, as one function of the region's input arrays. -/
theorem final2 : (dat2 (F := Ideal) V c).arrAt 5 cfg2.N = bnApply (V c main_v47) (V c main_v51) (V c main_v52) (V c main_v53) (V c main_v54) :=
  (dat2 (F := Ideal) V c).arrAt_eq_of_cover 5 (bnApply (V c main_v47) (V c main_v51) (V c main_v52) (V c main_v53) (V c main_v54)) (fun t _ => flushed2_eq V c t) cover2

theorem bn2 (p : Fin 100000) (q : Fin 128) :
    ((dat2 (F := Ideal) V c).arrAt 5 cfg2.N : S100000x128.Idx → EReal) (ix2 p q)
      = bnApply (V c main_v47) (V c main_v51) (V c main_v52) (V c main_v53) (V c main_v54) (ix2 p q) := by
  rw [final2]

/-- The same with the input arrays named. -/
theorem bn2_vars (H : S100000x128.Idx → EReal) (Mu Var Ga Be : S1x128.Idx → EReal)
    (hH : V c main_v47 = H) (hMu : V c main_v51 = Mu) (hVar : V c main_v52 = Var) (hGa : V c main_v53 = Ga) (hBe : V c main_v54 = Be)
    (p : Fin 100000) (q : Fin 128) :
    ((dat2 (F := Ideal) V c).arrAt 5 cfg2.N : S100000x128.Idx → EReal) (ix2 p q)
      = ((H (ix2 p q) - Mu (ix2 (0 : Fin 1) q)) * Ideal.rsqrt (Var (ix2 (0 : Fin 1) q) + Ideal.ofBits .f32 0x3727C5AC#32))
          * Ga (ix2 (0 : Fin 1) q)
        + Be (ix2 (0 : Fin 1) q) := by
  subst hH hMu hVar hGa hBe
  rw [final2]; rfl

/-! ## Region 4: bias and positive part -/

/-- The index maps, decided over the 20 grid points: the big input and the output move together, row block t; the
    bias window stays at block (0, 0). -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- The bias window's block is the whole bias array at every point. -/
theorem blk4_1 (t : Fin cfg4.N) : (iblk4 V c 1 t : S1x128.Idx → EReal) = (V c main_v98 : S1x128.Idx → EReal) := by
  obtain ⟨e0, e1, e2, e3, e4, e5⟩ := idx4 t
  funext y
  show V c main_v98 (((cfg4.win 1).blk t).view.emb y) = V c main_v98 y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- What point t writes back is block t of the whole-array function of the arrays as the region finds them. -/
theorem flushed4_eq (t : Fin cfg4.N) :
    (dat4 (F := Ideal) V c).flushed 2 t
      = ((cfg4.win 2).blk t).view.read (Elt Ideal) (reluBias (V c main_v97) (V c main_v98)) := by
  show (cfg4.win 2).cut (grid4.coords t) ((dat4 V c).after 2 t) = _
  rw [after4_2]
  unfold out4_2
  rw [View.canon_unit_zero hz]
  simp only [View.ld_unit_zero (S := S5000x128) hz, View.ld_unit_zero (S := S1x128) hz]
  obtain ⟨e0, e1, e2, e3, e4, e5⟩ := idx4 t
  funext j
  show k4_pay1 (iblk4 V c 0 t) (iblk4 V c 1 t) j = reluBias (V c main_v97) (V c main_v98) (((cfg4.win 2).blk t).view.emb j)
  refine relu_point4 _ _ _ _ j _ ?_ (blk4_1 V c t) ?_
  · show V c main_v97 (((cfg4.win 0).blk t).view.emb j) = V c main_v97 (((cfg4.win 2).blk t).view.emb j)
    refine congrArg _ (funext fun a => Fin.ext ?_)
    match a with
    | ⟨0, _⟩ => show win4_0.index t (0 : Fin 2) * 5000 + 1 * (j 0).val = win4_2.index t (0 : Fin 2) * 5000 + 1 * (j 0).val; omega
    | ⟨1, _⟩ => show win4_0.index t (1 : Fin 2) * 128 + 1 * (j 1).val = win4_2.index t (1 : Fin 2) * 128 + 1 * (j 1).val; omega
  · show win4_2.index t (1 : Fin 2) * 128 + 1 * (j 1).val = (j 1).val; omega

/-- An index of the array is in point t's block iff each coordinate is in the block's range on its axis. -/
theorem mem_blk4 (t : Fin cfg4.N) (i : S100000x128.Idx) :
    i ∈ ((cfg4.win 2).blk t).view.set ↔ ∀ a : Fin 2, win4_2.index t a * S5000x128.size a ≤ (i a).val ∧ (i a).val < win4_2.index t a * S5000x128.size a + S5000x128.size a := by
  show i ∈ ((View.whole main_v99).slice (win4_2.rect t)).set ↔ _
  rw [View.set_slice_whole, Rect.mem_set_unit]
  exact Iff.rfl

/-- Every index of the array is in some point's block: row r is covered by point r / 5000. -/
theorem cover4 (i : S100000x128.Idx) : ∃ t : Fin cfg4.N, (cfg4.win 2).flush t = true ∧ i ∈ ((cfg4.win 2).blk t).view.set := by
  have hi0 : (i 0).val < 100000 := (i 0).isLt
  have hi1 : (i 1).val < 128 := (i 1).isLt
  have hN : cfg4.N = 20 := N_4
  let t : Fin cfg4.N := ⟨(i 0).val / 5000, by rw [hN]; omega⟩
  obtain ⟨e0, e1, e2, e3, e4, e5⟩ := idx4 t
  have ht : t.val = (i 0).val / 5000 := rfl
  refine ⟨t, flush4_2 t, ?_⟩
  rw [mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 128 ≤ (i 1).val ∧ (i 1).val < win4_2.index t (1 : Fin 2) * 128 + 128; omega

/-- The output array of region 4 after all its grid points, as one function of the region's input arrays. -/
theorem final4 : (dat4 (F := Ideal) V c).arrAt 2 cfg4.N = reluBias (V c main_v97) (V c main_v98) :=
  (dat4 (F := Ideal) V c).arrAt_eq_of_cover 2 (reluBias (V c main_v97) (V c main_v98)) (fun t _ => flushed4_eq V c t) cover4

theorem rb4 (p : Fin 100000) (q : Fin 128) :
    ((dat4 (F := Ideal) V c).arrAt 2 cfg4.N : S100000x128.Idx → EReal) (ix2 p q)
      = reluBias (V c main_v97) (V c main_v98) (ix2 p q) := by
  rw [final4]

/-- The same with the input arrays named. -/
theorem rb4_vars (A : S100000x128.Idx → EReal) (B : S1x128.Idx → EReal) (hA : V c main_v97 = A) (hB : V c main_v98 = B)
    (p : Fin 100000) (q : Fin 128) :
    ((dat4 (F := Ideal) V c).arrAt 2 cfg4.N : S100000x128.Idx → EReal) (ix2 p q)
      = max (A (ix2 p q) + B (ix2 (0 : Fin 1) q)) (Ideal.ofBits .f32 0x00000000#32) := by
  subst hA hB
  rw [final4]; rfl

/-! ## Region 5: normalisation by the column statistics -/

/-- The index maps, decided over the 20 grid points: the activations and the output move together, row block t; the
    four one-row windows stay at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Window 1's block is its whole one-row array at every point. -/
theorem blk5_1 (t : Fin cfg5.N) : (iblk5 V c 1 t : S1x128.Idx → EReal) = (V c main_v103 : S1x128.Idx → EReal) := by
  obtain ⟨e0, e1, e2, e3, e4, e5, e6, e7, e8, e9, e10, e11⟩ := idx5 t
  funext y
  show V c main_v103 (((cfg5.win 1).blk t).view.emb y) = V c main_v103 y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- Window 2's block is its whole one-row array at every point. -/
theorem blk5_2 (t : Fin cfg5.N) : (iblk5 V c 2 t : S1x128.Idx → EReal) = (V c main_v104 : S1x128.Idx → EReal) := by
  obtain ⟨e0, e1, e2, e3, e4, e5, e6, e7, e8, e9, e10, e11⟩ := idx5 t
  funext y
  show V c main_v104 (((cfg5.win 2).blk t).view.emb y) = V c main_v104 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3's block is its whole one-row array at every point. -/
theorem blk5_3 (t : Fin cfg5.N) : (iblk5 V c 3 t : S1x128.Idx → EReal) = (V c main_v105 : S1x128.Idx → EReal) := by
  obtain ⟨e0, e1, e2, e3, e4, e5, e6, e7, e8, e9, e10, e11⟩ := idx5 t
  funext y
  show V c main_v105 (((cfg5.win 3).blk t).view.emb y) = V c main_v105 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 4's block is its whole one-row array at every point. -/
theorem blk5_4 (t : Fin cfg5.N) : (iblk5 V c 4 t : S1x128.Idx → EReal) = (V c main_v106 : S1x128.Idx → EReal) := by
  obtain ⟨e0, e1, e2, e3, e4, e5, e6, e7, e8, e9, e10, e11⟩ := idx5 t
  funext y
  show V c main_v106 (((cfg5.win 4).blk t).view.emb y) = V c main_v106 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- What point t writes back is block t of the whole-array function of the arrays as the region finds them. -/
theorem flushed5_eq (t : Fin cfg5.N) :
    (dat5 (F := Ideal) V c).flushed 5 t
      = ((cfg5.win 5).blk t).view.read (Elt Ideal) (bnApply (V c main_v99) (V c main_v103) (V c main_v104) (V c main_v105) (V c main_v106)) := by
  show (cfg5.win 5).cut (grid5.coords t) ((dat5 V c).after 5 t) = _
  rw [after5_5]
  unfold out5_5
  rw [View.canon_unit_zero hz]
  simp only [View.ld_unit_zero (S := S5000x128) hz, View.ld_unit_zero (S := S1x128) hz]
  obtain ⟨e0, e1, e2, e3, e4, e5, e6, e7, e8, e9, e10, e11⟩ := idx5 t
  funext j
  show k5_pay1 (iblk5 V c 2 t) (iblk5 V c 0 t) (iblk5 V c 1 t) (iblk5 V c 3 t) (iblk5 V c 4 t) j
    = bnApply (V c main_v99) (V c main_v103) (V c main_v104) (V c main_v105) (V c main_v106) (((cfg5.win 5).blk t).view.emb j)
  refine bn_point5 _ _ _ _ _ _ _ _ _ _ j _ ?_ (blk5_1 V c t) (blk5_2 V c t) (blk5_3 V c t) (blk5_4 V c t) ?_
  · show V c main_v99 (((cfg5.win 0).blk t).view.emb j) = V c main_v99 (((cfg5.win 5).blk t).view.emb j)
    refine congrArg _ (funext fun a => Fin.ext ?_)
    match a with
    | ⟨0, _⟩ => show win5_0.index t (0 : Fin 2) * 5000 + 1 * (j 0).val = win5_5.index t (0 : Fin 2) * 5000 + 1 * (j 0).val; omega
    | ⟨1, _⟩ => show win5_0.index t (1 : Fin 2) * 128 + 1 * (j 1).val = win5_5.index t (1 : Fin 2) * 128 + 1 * (j 1).val; omega
  · show win5_5.index t (1 : Fin 2) * 128 + 1 * (j 1).val = (j 1).val; omega

/-- An index of the array is in point t's block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v107).slice (win5_5.rect t)).set ↔ _
  rw [View.set_slice_whole, Rect.mem_set_unit]
  exact Iff.rfl

/-- Every index of the array is in some point's block: row r is covered by point r / 5000. -/
theorem cover5 (i : S100000x128.Idx) : ∃ t : Fin cfg5.N, (cfg5.win 5).flush t = true ∧ i ∈ ((cfg5.win 5).blk t).view.set := by
  have hi0 : (i 0).val < 100000 := (i 0).isLt
  have hi1 : (i 1).val < 128 := (i 1).isLt
  have hN : cfg5.N = 20 := N_5
  let t : Fin cfg5.N := ⟨(i 0).val / 5000, by rw [hN]; omega⟩
  obtain ⟨e0, e1, e2, e3, e4, e5, e6, e7, e8, e9, e10, e11⟩ := idx5 t
  have ht : t.val = (i 0).val / 5000 := rfl
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; omega
  | ⟨1, _⟩ => show win5_5.index t (1 : Fin 2) * 128 ≤ (i 1).val ∧ (i 1).val < win5_5.index t (1 : Fin 2) * 128 + 128; omega

/-- The output array of region 5 after all its grid points, as one function of the region's input arrays. -/
theorem final5 : (dat5 (F := Ideal) V c).arrAt 5 cfg5.N = bnApply (V c main_v99) (V c main_v103) (V c main_v104) (V c main_v105) (V c main_v106) :=
  (dat5 (F := Ideal) V c).arrAt_eq_of_cover 5 (bnApply (V c main_v99) (V c main_v103) (V c main_v104) (V c main_v105) (V c main_v106)) (fun t _ => flushed5_eq V c t) cover5

theorem bn5 (p : Fin 100000) (q : Fin 128) :
    ((dat5 (F := Ideal) V c).arrAt 5 cfg5.N : S100000x128.Idx → EReal) (ix2 p q)
      = bnApply (V c main_v99) (V c main_v103) (V c main_v104) (V c main_v105) (V c main_v106) (ix2 p q) := by
  rw [final5]

/-- The same with the input arrays named. -/
theorem bn5_vars (H : S100000x128.Idx → EReal) (Mu Var Ga Be : S1x128.Idx → EReal)
    (hH : V c main_v99 = H) (hMu : V c main_v103 = Mu) (hVar : V c main_v104 = Var) (hGa : V c main_v105 = Ga) (hBe : V c main_v106 = Be)
    (p : Fin 100000) (q : Fin 128) :
    ((dat5 (F := Ideal) V c).arrAt 5 cfg5.N : S100000x128.Idx → EReal) (ix2 p q)
      = ((H (ix2 p q) - Mu (ix2 (0 : Fin 1) q)) * Ideal.rsqrt (Var (ix2 (0 : Fin 1) q) + Ideal.ofBits .f32 0x3727C5AC#32))
          * Ga (ix2 (0 : Fin 1) q)
        + Be (ix2 (0 : Fin 1) q) := by
  subst hH hMu hVar hGa hBe
  rw [final5]; rfl

end Cert.KernelIdeal.RegionValue

end
-- ==== Proof.KChain.lean ====
/-
  The idealized kernel program's result buffer as the reference's function of the argument arrays: the fold of @main's
  boundaries walked forward from the launch memory. At each region's exit its output array is the region's function of
  its entry arrays (the block values assembled over the grid), which is the reference's stage function of the same
  inputs: a matrix product entry is the same sum over the contracted axis; the bias-and-rectifier and the
  batch-normalisation stages are the same expression entry by entry, the one-row statistics and parameters read at
  (0, q) being the reference's vectors at q; the classifier's logistic function is 1 / (1 + exp (-x)) by definition.
  Between the regions the host stretches are the reference's own operations on equal inputs.
-/
import proofs.«136765_j22849226015440_1_alg».proof.Proof.KRead
import proofs.«136765_j22849226015440_1_alg».proof.Proof.Bridge
import proofs.«136765_j22849226015440_1_alg».proof.Proof.RefDot
import proofs.«136765_j22849226015440_1_alg».proof.Proof.RegionMM
import proofs.«136765_j22849226015440_1_alg».proof.Proof.RegionPW

set_option maxRecDepth 16384

noncomputable section

namespace Cert.KernelIdeal.KChain

open Cert.KernelIdeal Cert.KernelIdeal.Gen
open Idealize.ShloMosaic Idealize.ShloMosaic.TcCoe Idealize.SL.Sem Idealize.ShloMosaic.StableHlo Idealize.ShloMosaic.ValueIdx
open Cert.ReferenceIdeal (Spec.srcF Spec.dstF Spec.mmF Spec.aggF Spec.reluBiasF Spec.meanF Spec.varF Spec.bnF Spec.poolF Spec.fcF Spec.layerF Spec.outF
  KSpec.meanK KSpec.varK Bridge.castRow_apply Bridge.reluBiasF_apply Bridge.bnF_apply Bridge.meanK_apply Bridge.varK_apply Bridge.fcF_apply
  RefDot.dot1 RefDot.dot2)
open Cert.KernelIdeal.KRead (arg)

variable (m : (ℓ : Loc nD τ sig) → Buf (Elt Ideal) ℓ) (ρ : Dev nD → PrngReg) (c : Dev nD)

/-! ## The named values: the reference's stages of the launch contents -/

abbrev G1 := Spec.aggF (F := Ideal) (Spec.mmF (arg m c main_arg0) (arg m c main_arg3)) (Spec.srcF (arg m c main_arg1)) (Spec.dstF (arg m c main_arg1))
abbrev R1 := Spec.reluBiasF (F := Ideal) (G1 m c) (arg m c main_arg4)
abbrev N1 := Spec.bnF (F := Ideal) (R1 m c) (arg m c main_arg5) (arg m c main_arg6)
abbrev G2 := Spec.aggF (F := Ideal) (Spec.mmF (N1 m c) (arg m c main_arg7)) (Spec.srcF (arg m c main_arg1)) (Spec.dstF (arg m c main_arg1))
abbrev R2 := Spec.reluBiasF (F := Ideal) (G2 m c) (arg m c main_arg8)
abbrev N2 := Spec.bnF (F := Ideal) (R2 m c) (arg m c main_arg9) (arg m c main_arg10)
abbrev P0 := Spec.poolF (F := Ideal) (N2 m c) (arg m c main_arg2)

/-! ## Layer 1 -/

/-- Region 0's output: the projection x · W1. -/
theorem W2_v4 : W2 m ρ c (Proc.devRef .tc main_v4) = Spec.mmF (F := Ideal) (arg m c main_arg0) (arg m c main_arg3) := by
  refine (W2_arr m ρ c 2).trans ?_
  refine funext fun (i : S100000x128.Idx) => ?_
  obtain ⟨p, q, rfl⟩ : ∃ (p : Fin 100000) (q : Fin 128), i = ix2 p q := ⟨i 0, i 1, eq_ix2 i⟩
  exact (RegionValue.mm0 (V1 m ρ) c _ _ (KRead.W1_arg0 m ρ c) (KRead.W1_arg3 m ρ c) p q).trans (RefDot.dot1 _ _ p q).symm

theorem W3_v45 : W3 m ρ c (Proc.devRef .tc main_v45) = G1 m c :=
  (KHost.ops1_v45 (W2 m ρ c)).trans (by rw [W2_v4 m ρ c, KRead.W2_v1 m ρ c, KRead.W2_v3 m ρ c])

theorem W3_v46 : W3 m ρ c (Proc.devRef .tc main_v46)
    = (shapeCast S1x128 (arg m c main_arg4) shapeCasts_S128_S1x128 : S1x128.Idx → Elt Ideal .f32) :=
  (KHost.ops1_v46 (W2 m ρ c)).trans (by rw [KRead.W2_arg4 m ρ c])

/-- Region 1's output: max (agg + b1) 0. -/
theorem W4_v47 : W4 m ρ c (Proc.devRef .tc main_v47) = R1 m c := by
  refine (W4_arr m ρ c 2).trans ?_
  have h45 : V3 m ρ c main_v45 = G1 m c := W3_v45 m ρ c
  have h46 : V3 m ρ c main_v46 = (shapeCast S1x128 (arg m c main_arg4) shapeCasts_S128_S1x128 : S1x128.Idx → Elt Ideal .f32) := W3_v46 m ρ c
  rw [RegionValue.final1 (V3 m ρ) c, h45, h46]
  refine funext fun (i : S100000x128.Idx) => ?_
  obtain ⟨p, q, rfl⟩ : ∃ (p : Fin 100000) (q : Fin 128), i = ix2 p q := ⟨i 0, i 1, eq_ix2 i⟩
  rw [RegionValue.reluBias_apply, Bridge.castRow_apply]
  exact (Bridge.reluBiasF_apply _ _ p q).symm

theorem W7_v47 : W7 m ρ c (Proc.devRef .tc main_v47) = R1 m c := (KHost.ops2_v47 (W4 m ρ c)).trans (W4_v47 m ρ c)
theorem W7_v51 : W7 m ρ c (Proc.devRef .tc main_v51) = KSpec.meanK (F := Ideal) (R1 m c) :=
  (KHost.ops2_v51 (W4 m ρ c)).trans (by rw [W4_v47 m ρ c])
theorem W7_v52 : W7 m ρ c (Proc.devRef .tc main_v52) = KSpec.varK (F := Ideal) (R1 m c) :=
  (KHost.ops2_v52 (W4 m ρ c)).trans (by rw [W4_v47 m ρ c])
theorem W7_v53 : W7 m ρ c (Proc.devRef .tc main_v53)
    = (shapeCast S1x128 (arg m c main_arg5) shapeCasts_S128_S1x128 : S1x128.Idx → Elt Ideal .f32) :=
  (KHost.ops2_v53 (W4 m ρ c)).trans (by rw [KRead.W4_arg5 m ρ c])
theorem W7_v54 : W7 m ρ c (Proc.devRef .tc main_v54)
    = (shapeCast S1x128 (arg m c main_arg6) shapeCasts_S128_S1x128 : S1x128.Idx → Elt Ideal .f32) :=
  (KHost.ops2_v54 (W4 m ρ c)).trans (by rw [KRead.W4_arg6 m ρ c])

/-- Region 2's output: the batch normalisation of the rectified rows. -/
theorem W8_v55 : W8 m ρ c (Proc.devRef .tc main_v55) = N1 m c := by
  refine (W8_arr m ρ c 5).trans ?_
  have h47 : V7 m ρ c main_v47 = R1 m c := W7_v47 m ρ c
  have h51 : V7 m ρ c main_v51 = KSpec.meanK (F := Ideal) (R1 m c) := W7_v51 m ρ c
  have h52 : V7 m ρ c main_v52 = KSpec.varK (F := Ideal) (R1 m c) := W7_v52 m ρ c
  have h53 : V7 m ρ c main_v53 = (shapeCast S1x128 (arg m c main_arg5) shapeCasts_S128_S1x128 : S1x128.Idx → Elt Ideal .f32) := W7_v53 m ρ c
  have h54 : V7 m ρ c main_v54 = (shapeCast S1x128 (arg m c main_arg6) shapeCasts_S128_S1x128 : S1x128.Idx → Elt Ideal .f32) := W7_v54 m ρ c
  rw [RegionValue.final2 (V7 m ρ) c, h47, h51, h52, h53, h54]
  refine funext fun (i : S100000x128.Idx) => ?_
  obtain ⟨p, q, rfl⟩ : ∃ (p : Fin 100000) (q : Fin 128), i = ix2 p q := ⟨i 0, i 1, eq_ix2 i⟩
  rw [RegionValue.bnApply_apply, Bridge.meanK_apply, Bridge.varK_apply, Bridge.castRow_apply, Bridge.castRow_apply]
  exact (Bridge.bnF_apply _ _ _ p q).symm

/-! ## Layer 2 -/

/-- Region 3's output: the projection of the first layer's rows by W2. -/
theorem W9_v56 : W9 m ρ c (Proc.devRef .tc main_v56) = Spec.mmF (F := Ideal) (N1 m c) (arg m c main_arg7) := by
  refine (W9_arr m ρ c 2).trans ?_
  refine funext fun (i : S100000x128.Idx) => ?_
  obtain ⟨p, q, rfl⟩ : ∃ (p : Fin 100000) (q : Fin 128), i = ix2 p q := ⟨i 0, i 1, eq_ix2 i⟩
  exact (RegionValue.mm3 (V8 m ρ) c _ _ (W8_v55 m ρ c) (KRead.W8_arg7 m ρ c) p q).trans (RefDot.dot1 _ _ p q).symm

theorem W10_v97 : W10 m ρ c (Proc.devRef .tc main_v97) = G2 m c :=
  (KHost.ops4_v97 (W9 m ρ c)).trans (by rw [W9_v56 m ρ c, KRead.W9_v1 m ρ c, KRead.W9_v3 m ρ c])

theorem W10_v98 : W10 m ρ c (Proc.devRef .tc main_v98)
    = (shapeCast S1x128 (arg m c main_arg8) shapeCasts_S128_S1x128 : S1x128.Idx → Elt Ideal .f32) :=
  (KHost.ops4_v98 (W9 m ρ c)).trans (by rw [KRead.W9_arg8 m ρ c])

/-- Region 4's output: max (agg + b2) 0. -/
theorem W11_v99 : W11 m ρ c (Proc.devRef .tc main_v99) = R2 m c := by
  refine (W11_arr m ρ c 2).trans ?_
  have h97 : V10 m ρ c main_v97 = G2 m c := W10_v97 m ρ c
  have h98 : V10 m ρ c main_v98 = (shapeCast S1x128 (arg m c main_arg8) shapeCasts_S128_S1x128 : S1x128.Idx → Elt Ideal .f32) := W10_v98 m ρ c
  rw [RegionValue.final4 (V10 m ρ) c, h97, h98]
  refine funext fun (i : S100000x128.Idx) => ?_
  obtain ⟨p, q, rfl⟩ : ∃ (p : Fin 100000) (q : Fin 128), i = ix2 p q := ⟨i 0, i 1, eq_ix2 i⟩
  rw [RegionValue.reluBias_apply, Bridge.castRow_apply]
  exact (Bridge.reluBiasF_apply _ _ p q).symm

theorem W14_v99 : W14 m ρ c (Proc.devRef .tc main_v99) = R2 m c := (KHost.ops5_v99 (W11 m ρ c)).trans (W11_v99 m ρ c)
theorem W14_v103 : W14 m ρ c (Proc.devRef .tc main_v103) = KSpec.meanK (F := Ideal) (R2 m c) :=
  (KHost.ops5_v103 (W11 m ρ c)).trans (by rw [W11_v99 m ρ c])
theorem W14_v104 : W14 m ρ c (Proc.devRef .tc main_v104) = KSpec.varK (F := Ideal) (R2 m c) :=
  (KHost.ops5_v104 (W11 m ρ c)).trans (by rw [W11_v99 m ρ c])
theorem W14_v105 : W14 m ρ c (Proc.devRef .tc main_v105)
    = (shapeCast S1x128 (arg m c main_arg9) shapeCasts_S128_S1x128 : S1x128.Idx → Elt Ideal .f32) :=
  (KHost.ops5_v105 (W11 m ρ c)).trans (by rw [KRead.W11_arg9 m ρ c])
theorem W14_v106 : W14 m ρ c (Proc.devRef .tc main_v106)
    = (shapeCast S1x128 (arg m c main_arg10) shapeCasts_S128_S1x128 : S1x128.Idx → Elt Ideal .f32) :=
  (KHost.ops5_v106 (W11 m ρ c)).trans (by rw [KRead.W11_arg10 m ρ c])

/-- Region 5's output: the second batch normalisation. -/
theorem W15_v107 : W15 m ρ c (Proc.devRef .tc main_v107) = N2 m c := by
  refine (W15_arr m ρ c 5).trans ?_
  have h99 : V14 m ρ c main_v99 = R2 m c := W14_v99 m ρ c
  have h103 : V14 m ρ c main_v103 = KSpec.meanK (F := Ideal) (R2 m c) := W14_v103 m ρ c
  have h104 : V14 m ρ c main_v104 = KSpec.varK (F := Ideal) (R2 m c) := W14_v104 m ρ c
  have h105 : V14 m ρ c main_v105 = (shapeCast S1x128 (arg m c main_arg9) shapeCasts_S128_S1x128 : S1x128.Idx → Elt Ideal .f32) := W14_v105 m ρ c
  have h106 : V14 m ρ c main_v106 = (shapeCast S1x128 (arg m c main_arg10) shapeCasts_S128_S1x128 : S1x128.Idx → Elt Ideal .f32) := W14_v106 m ρ c
  rw [RegionValue.final5 (V14 m ρ) c, h99, h103, h104, h105, h106]
  refine funext fun (i : S100000x128.Idx) => ?_
  obtain ⟨p, q, rfl⟩ : ∃ (p : Fin 100000) (q : Fin 128), i = ix2 p q := ⟨i 0, i 1, eq_ix2 i⟩
  rw [RegionValue.bnApply_apply, Bridge.meanK_apply, Bridge.varK_apply, Bridge.castRow_apply, Bridge.castRow_apply]
  exact (Bridge.bnF_apply _ _ _ p q).symm

/-! ## The pooling and the classifier -/

theorem W16_v119 : W16 m ρ c (Proc.devRef .tc main_v119) = P0 m c :=
  (KHost.ops6_v119 (W15 m ρ c)).trans (by rw [W15_v107 m ρ c, KRead.W15_arg2 m ρ c])

theorem W16_v120 : W16 m ρ c (Proc.devRef .tc main_v120)
    = (shapeCast S1x2 (arg m c main_arg12) shapeCasts_S2_S1x2 : S1x2.Idx → Elt Ideal .f32) :=
  (KHost.ops6_v120 (W15 m ρ c)).trans (by rw [KRead.W15_arg12 m ρ c])

theorem W16_arg11 : W16 m ρ c (Proc.devRef .tc main_arg11) = arg m c main_arg11 :=
  (KHost.ops6_arg11 (W15 m ρ c)).trans (KRead.W15_arg11 m ρ c)

/-- Region 6's output, the program's result: the classifier of the pooled rows. -/
theorem W17_v121 : W17 m ρ c (Proc.devRef .tc main_v121) = Spec.fcF (F := Ideal) (P0 m c) (arg m c main_arg11) (arg m c main_arg12) := by
  refine (W17_arr m ρ c 3).trans ?_
  refine funext fun (i : S512x2.Idx) => ?_
  obtain ⟨p, q, rfl⟩ : ∃ (p : Fin 512) (q : Fin 2), i = ix2 p q := ⟨i 0, i 1, eq_ix2 i⟩
  refine (RegionValue.fc6 (V16 m ρ) c _ _ _ (W16_v119 m ρ c) (W16_arg11 m ρ c) (W16_v120 m ρ c) p q).trans ?_
  rw [Bridge.castRow_apply]
  exact (Bridge.fcF_apply _ _ _ p q _ (RefDot.dot2 _ _ p q)).symm

/-- The result buffer at the last boundary is the reference's function of the launch contents of the arguments. -/
theorem result_eq : W17 m ρ c (Proc.devRef .tc main_v121)
    = Spec.outF (F := Ideal) (arg m c main_arg0) (arg m c main_arg1) (arg m c main_arg2) (arg m c main_arg3) (arg m c main_arg4)
        (arg m c main_arg5) (arg m c main_arg6) (arg m c main_arg7) (arg m c main_arg8) (arg m c main_arg9) (arg m c main_arg10)
        (arg m c main_arg11) (arg m c main_arg12) :=
  W17_v121 m ρ c

end Cert.KernelIdeal.KChain

end
-- ==== Proof.RefOps.lean ====
/- The reference's @main, window by window, as lists of its host operations: each window of @main is the straight line
   of its list (a call's operations stand at the call, over the call's record and operands), and every operation of a
   list names TensorCore buffers only. -/
import proofs.«136765_j22849226015440_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 60 operations of @main's window 0, in order. -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v9 main_v8 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_8 (constant S_ .f32 0x3F800000#32),
    StableHlo.unary main_cst_8 main_v40 (broadcastInDim S100000 ![] bcast_S_S100000 : (⟨S_, .f32⟩ : BufTy).Contents (Elt F) → (⟨S100000, .f32⟩ : BufTy).Contents (Elt F)),
    StableHlo.binary main_v40 main_v10 main_v41 (Host.divf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v43 main_v44 (mulf : (⟨S100000x128, .f32⟩ : BufTy).Contents (Elt F) → (⟨S100000x128, .f32⟩ : BufTy).Contents (Elt F) → (⟨S100000x128, .f32⟩ : BufTy).Contents (Elt F)),
    StableHlo.binary main_v39 main_v44 main_v45 (addf : (⟨S100000x128, .f32⟩ : BufTy).Contents (Elt F) → (⟨S100000x128, .f32⟩ : BufTy).Contents (Elt F) → (⟨S100000x128, .f32⟩ : BufTy).Contents (Elt F)),
    StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)) ]

set_option maxRecDepth 8192 in
set_option maxHeartbeats 4000000 in
/-- Window 0 of @main is the straight line of its operations. -/
theorem part0_eq (c : Dev nD) : main_part0 (F := F) c = seq ops0 := rfl

set_option maxRecDepth 8192 in
/-- Every operation of window 0 reads and writes TensorCore buffers only. -/
theorem ops0_sub : (ops0 : List (HloOp τ sig (Elt F))).Forall fun op => op.bufs ⊆ tcRefs τ sig :=
  ⟨unary_bufs_sub .., reshape_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub ..⟩

/-- The 83 operations of @main's window 1, in order, the callees' operations at their calls. -/
abbrev ops1 : List (HloOp τ sig (Elt F)) :=
  [ StableHlo.TRef.nullary main_call0.cst (constant S_ .f32 0x00000000#32),
    StableHlo.TRef.unary main_call0.cst main_call0.v0 (broadcastInDim S100000x128 ![] bcast_S_S100000x128),
    StableHlo.TRef.binary (.of main_v48) main_call0.v0 main_call0.v1 maximumf,
    StableHlo.nullary main_cst_9 (constant S_ .f32 0x00000000#32),
    StableHlo.binary main_v49 main_cst_9 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v49) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v49) main_call1.v4 main_call1.v5 subf,
    StableHlo.TRef.binary main_call1.v5 main_call1.v5 main_call1.v6 mulf,
    StableHlo.TRef.unary (.of main_c_11) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v57 (broadcastInDim S128 ![] bcast_S_S128 : (⟨S_, .f32⟩ : BufTy).Contents (Elt F) → (⟨S128, .f32⟩ : BufTy).Contents (Elt F)),
    StableHlo.binary main_v53 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg5 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg6 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)),
    StableHlo.binary main_v68 main_arg7 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_13 (constant S_ .f32 0x3F800000#32),
    StableHlo.unary main_cst_13 main_v70 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v71 (broadcastInDim S100000 ![] bcast_S_S100000 : (⟨S_, .f32⟩ : BufTy).Contents (Elt F) → (⟨S100000, .f32⟩ : BufTy).Contents (Elt F)),
    StableHlo.unary main_v3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v74 (broadcastInDim S100000 ![] bcast_S_S100000 : (⟨S_, .f32⟩ : BufTy).Contents (Elt F) → (⟨S100000, .f32⟩ : BufTy).Contents (Elt F)),
    StableHlo.binary main_v74 main_v73 main_v75 (addf : (⟨S100000, .f32⟩ : BufTy).Contents (Elt F) → (⟨S100000, .f32⟩ : BufTy).Contents (Elt F) → (⟨S100000, .f32⟩ : BufTy).Contents (Elt F)),
    StableHlo.unary main_v75 main_v76 (Host.rsqrt : (⟨S100000, .f32⟩ : BufTy).Contents (Elt F) → (⟨S100000, .f32⟩ : BufTy).Contents (Elt F)),
    StableHlo.nullary main_c_16 (constantI S_ 32 0#32),
    StableHlo.unary main_c_16 main_v77 (broadcastInDim S1600000 ![] bcast_S_S1600000 : (⟨S_, .i32⟩ : BufTy).Contents (Elt F) → (⟨S1600000, .i32⟩ : BufTy).Contents (Elt F)),
    StableHlo.binary main_v1 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v79 (broadcastInDim S1600000 ![] bcast_S_S1600000 : (⟨S_, .i32⟩ : BufTy).Contents (Elt F) → (⟨S1600000, .i32⟩ : BufTy).Contents (Elt F)),
    StableHlo.binary main_v1 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v76 main_v82 main_v83 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_18 (constantI S_ 32 0#32),
    StableHlo.unary main_c_18 main_v84 (broadcastInDim S1600000 ![] bcast_S_S1600000 : (⟨S_, .i32⟩ : BufTy).Contents (Elt F) → (⟨S1600000, .i32⟩ : BufTy).Contents (Elt F)),
    StableHlo.binary main_v3 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v86 (broadcastInDim S1600000 ![] bcast_S_S1600000 : (⟨S_, .i32⟩ : BufTy).Contents (Elt F) → (⟨S1600000, .i32⟩ : BufTy).Contents (Elt F)),
    StableHlo.binary main_v3 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v3 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v76 main_v89 main_v90 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v83 main_v90 main_v91 (mulf : (⟨S1600000, .f32⟩ : BufTy).Contents (Elt F) → (⟨S1600000, .f32⟩ : BufTy).Contents (Elt F) → (⟨S1600000, .f32⟩ : BufTy).Contents (Elt F)),
    StableHlo.nullary main_c_20 (constantI S_ 32 0#32),
    StableHlo.unary main_c_20 main_v92 (broadcastInDim S1600000 ![] bcast_S_S1600000 : (⟨S_, .i32⟩ : BufTy).Contents (Elt F) → (⟨S1600000, .i32⟩ : BufTy).Contents (Elt F)),
    StableHlo.binary main_v1 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v94 (broadcastInDim S1600000 ![] bcast_S_S1600000 : (⟨S_, .i32⟩ : BufTy).Contents (Elt F) → (⟨S1600000, .i32⟩ : BufTy).Contents (Elt F)),
    StableHlo.binary main_v1 main_v94 main_v95 (addi : (⟨S1600000, .i32⟩ : BufTy).Contents (Elt F) → (⟨S1600000, .i32⟩ : BufTy).Contents (Elt F) → (⟨S1600000, .i32⟩ : BufTy).Contents (Elt F)) ]

set_option maxRecDepth 8192 in
set_option maxHeartbeats 4000000 in
/-- Window 1 of @main is the straight line of its operations. -/
theorem part1_eq (c : Dev nD) : main_part1 (F := F) c = seq ops1 := by
  simp only [main_part1, fn_relu.body, fn_var.body, fn_where.body, seq, bind_assoc, pure_bind]
  rfl

set_option maxRecDepth 8192 in
/-- Every operation of window 1 reads and writes TensorCore buffers only. -/
theorem ops1_sub : (ops1 : List (HloOp τ sig (Elt F))).Forall fun op => op.bufs ⊆ tcRefs τ sig :=
  ⟨nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub ..⟩

/-- The 83 operations of @main's window 2, in order, the callees' operations at their calls. -/
abbrev ops2 : List (HloOp τ sig (Elt F)) :=
  [ StableHlo.ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)),
    StableHlo.binary main_v69 main_v97 main_v98 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v91 main_v99 (broadcastInDim S1600000x1 ![0] bcast_S1600000_S1600000x1_0 : (⟨S1600000, .f32⟩ : BufTy).Contents (Elt F) → (⟨S1600000x1, .f32⟩ : BufTy).Contents (Elt F)),
    StableHlo.unary main_v99 main_v100 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v98 main_v100 main_v101 (mulf : (⟨S1600000x128, .f32⟩ : BufTy).Contents (Elt F) → (⟨S1600000x128, .f32⟩ : BufTy).Contents (Elt F) → (⟨S1600000x128, .f32⟩ : BufTy).Contents (Elt F)),
    StableHlo.nullary main_cst_22 (constant S_ .f32 0x00000000#32),
    StableHlo.unary main_cst_22 main_v102 (broadcastInDim S100000x128 ![] bcast_S_S100000x128 : (⟨S_, .f32⟩ : BufTy).Contents (Elt F) → (⟨S100000x128, .f32⟩ : BufTy).Contents (Elt F)),
    StableHlo.unary main_v3 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_23 (constant S_ .f32 0x3F800000#32),
    StableHlo.unary main_cst_23 main_v105 (broadcastInDim S100000 ![] bcast_S_S100000 : (⟨S_, .f32⟩ : BufTy).Contents (Elt F) → (⟨S100000, .f32⟩ : BufTy).Contents (Elt F)),
    StableHlo.binary main_v105 main_v75 main_v106 (Host.divf : (⟨S100000, .f32⟩ : BufTy).Contents (Elt F) → (⟨S100000, .f32⟩ : BufTy).Contents (Elt F) → (⟨S100000, .f32⟩ : BufTy).Contents (Elt F)),
    StableHlo.unary main_v106 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v108 main_v109 (mulf : (⟨S100000x128, .f32⟩ : BufTy).Contents (Elt F) → (⟨S100000x128, .f32⟩ : BufTy).Contents (Elt F) → (⟨S100000x128, .f32⟩ : BufTy).Contents (Elt F)),
    StableHlo.binary main_v104 main_v109 main_v110 (addf : (⟨S100000x128, .f32⟩ : BufTy).Contents (Elt F) → (⟨S100000x128, .f32⟩ : BufTy).Contents (Elt F) → (⟨S100000x128, .f32⟩ : BufTy).Contents (Elt F)),
    StableHlo.unary main_arg8 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v112 main_v113 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v113) main_call2.v0 main_call2.v1 maximumf,
    StableHlo.nullary main_cst_24 (constant S_ .f32 0x00000000#32),
    StableHlo.binary main_v114 main_cst_24 main_v115 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call3.cst (constant S_ .f32 0x00000000#32),
    StableHlo.TRef.binary (.of main_v114) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v114) main_call3.v4 main_call3.v5 subf,
    StableHlo.TRef.binary main_call3.v5 main_call3.v5 main_call3.v6 mulf,
    StableHlo.TRef.unary (.of main_c_26) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v120 main_v121 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v122 (broadcastInDim S128 ![] bcast_S_S128 : (⟨S_, .f32⟩ : BufTy).Contents (Elt F) → (⟨S128, .f32⟩ : BufTy).Contents (Elt F)),
    StableHlo.binary main_v118 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v126 main_v127 (mulf : (⟨S100000x128, .f32⟩ : BufTy).Contents (Elt F) → (⟨S100000x128, .f32⟩ : BufTy).Contents (Elt F) → (⟨S100000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v129 main_v130 (mulf : (⟨S100000x128, .f32⟩ : BufTy).Contents (Elt F) → (⟨S100000x128, .f32⟩ : BufTy).Contents (Elt F) → (⟨S100000x128, .f32⟩ : BufTy).Contents (Elt F)),
    StableHlo.unary main_arg10 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (addf : (⟨S100000x128, .f32⟩ : BufTy).Contents (Elt F) → (⟨S100000x128, .f32⟩ : BufTy).Contents (Elt F) → (⟨S100000x128, .f32⟩ : BufTy).Contents (Elt F)),
    StableHlo.nullary main_cst_28 (constant S_ .f32 0x00000000#32),
    StableHlo.unary main_cst_28 main_v134 (broadcastInDim S512x128 ![] bcast_S_S512x128 : (⟨S_, .f32⟩ : BufTy).Contents (Elt F) → (⟨S512x128, .f32⟩ : BufTy).Contents (Elt F)),
    StableHlo.unary main_arg2 main_v135 (broadcastInDim S100000x1 ![0] bcast_S100000_S100000x1_0 : (⟨S100000, .i32⟩ : BufTy).Contents (Elt F) → (⟨S100000x1, .i32⟩ : BufTy).Contents (Elt F)),
    StableHlo.ternary main_v134 main_v135 main_v133 main_v136 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_29 (constant S_ .f32 0x3F800000#32),
    StableHlo.unary main_cst_29 main_v137 (broadcastInDim S100000 ![] bcast_S_S100000 : (⟨S_, .f32⟩ : BufTy).Contents (Elt F) → (⟨S100000, .f32⟩ : BufTy).Contents (Elt F)),
    StableHlo.nullary main_cst_30 (constant S_ .f32 0x00000000#32),
    StableHlo.unary main_cst_30 main_v138 (broadcastInDim S512 ![] bcast_S_S512 : (⟨S_, .f32⟩ : BufTy).Contents (Elt F) → (⟨S512, .f32⟩ : BufTy).Contents (Elt F)),
    StableHlo.unary main_arg2 main_v139 (broadcastInDim S100000x1 ![0] bcast_S100000_S100000x1_0 : (⟨S100000, .i32⟩ : BufTy).Contents (Elt F) → (⟨S100000x1, .i32⟩ : BufTy).Contents (Elt F)),
    StableHlo.ternary main_v138 main_v139 main_v137 main_v140 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_31 (constant S_ .f32 0x3F800000#32),
    StableHlo.unary main_cst_31 main_v141 (broadcastInDim S512 ![] bcast_S_S512 : (⟨S_, .f32⟩ : BufTy).Contents (Elt F) → (⟨S512, .f32⟩ : BufTy).Contents (Elt F)),
    StableHlo.binary main_v140 main_v141 main_v142 (maximumf : (⟨S512, .f32⟩ : BufTy).Contents (Elt F) → (⟨S512, .f32⟩ : BufTy).Contents (Elt F) → (⟨S512, .f32⟩ : BufTy).Contents (Elt F)),
    StableHlo.unary main_v142 main_v143 (broadcastInDim S512x1 ![0] bcast_S512_S512x1_0 : (⟨S512, .f32⟩ : BufTy).Contents (Elt F) → (⟨S512x1, .f32⟩ : BufTy).Contents (Elt F)),
    StableHlo.unary main_v143 main_v144 (broadcastInDim S512x128 ![0, 1] bcast_S512x1_S512x128_0_1 : (⟨S512x1, .f32⟩ : BufTy).Contents (Elt F) → (⟨S512x128, .f32⟩ : BufTy).Contents (Elt F)),
    StableHlo.binary main_v136 main_v144 main_v145 (Host.divf : (⟨S512x128, .f32⟩ : BufTy).Contents (Elt F) → (⟨S512x128, .f32⟩ : BufTy).Contents (Elt F) → (⟨S512x128, .f32⟩ : BufTy).Contents (Elt F)) ]

set_option maxRecDepth 8192 in
set_option maxHeartbeats 4000000 in
/-- Window 2 of @main is the straight line of its operations. -/
theorem part2_eq (c : Dev nD) : main_part2 (F := F) c = seq ops2 := by
  simp only [main_part2, fn_relu.body, fn_var.body, fn_where.body, seq, bind_assoc, pure_bind]
  rfl

set_option maxRecDepth 8192 in
/-- Every operation of window 2 reads and writes TensorCore buffers only. -/
theorem ops2_sub : (ops2 : List (HloOp τ sig (Elt F))).Forall fun op => op.bufs ⊆ tcRefs τ sig :=
  ⟨ternary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub ..⟩

/-- The 12 operations of @main's window 3, in order. -/
abbrev ops3 : List (HloOp τ sig (Elt F)) :=
  [ StableHlo.binary main_v145 main_arg11 main_v146 ((fun l r => Host.dotGeneral dot_S512x128_S128x2_S512x2_1_0_0_1_n_n none l r) : (⟨S512x128, .f32⟩ : BufTy).Contents (Elt F) → (⟨S128x2, .f32⟩ : BufTy).Contents (Elt F) → (⟨S512x2, .f32⟩ : BufTy).Contents (Elt F)),
    StableHlo.unary main_arg12 main_v147 (broadcastInDim S1x2 ![1] bcast_S2_S1x2_1 : (⟨S2, .f32⟩ : BufTy).Contents (Elt F) → (⟨S1x2, .f32⟩ : BufTy).Contents (Elt F)),
    StableHlo.unary main_v147 main_v148 (broadcastInDim S512x2 ![0, 1] bcast_S1x2_S512x2_0_1 : (⟨S1x2, .f32⟩ : BufTy).Contents (Elt F) → (⟨S512x2, .f32⟩ : BufTy).Contents (Elt F)),
    StableHlo.binary main_v146 main_v148 main_v149 (addf : (⟨S512x2, .f32⟩ : BufTy).Contents (Elt F) → (⟨S512x2, .f32⟩ : BufTy).Contents (Elt F) → (⟨S512x2, .f32⟩ : BufTy).Contents (Elt F)),
    StableHlo.unary main_v149 main_v150 (Host.negf : (⟨S512x2, .f32⟩ : BufTy).Contents (Elt F) → (⟨S512x2, .f32⟩ : BufTy).Contents (Elt F)),
    StableHlo.unary main_v150 main_v151 (Host.exp : (⟨S512x2, .f32⟩ : BufTy).Contents (Elt F) → (⟨S512x2, .f32⟩ : BufTy).Contents (Elt F)),
    StableHlo.nullary main_cst_32 (constant S_ .f32 0x3F800000#32),
    StableHlo.unary main_cst_32 main_v152 (broadcastInDim S512x2 ![] bcast_S_S512x2 : (⟨S_, .f32⟩ : BufTy).Contents (Elt F) → (⟨S512x2, .f32⟩ : BufTy).Contents (Elt F)),
    StableHlo.binary main_v152 main_v151 main_v153 (addf : (⟨S512x2, .f32⟩ : BufTy).Contents (Elt F) → (⟨S512x2, .f32⟩ : BufTy).Contents (Elt F) → (⟨S512x2, .f32⟩ : BufTy).Contents (Elt F)),
    StableHlo.nullary main_cst_33 (constant S_ .f32 0x3F800000#32),
    StableHlo.unary main_cst_33 main_v154 (broadcastInDim S512x2 ![] bcast_S_S512x2 : (⟨S_, .f32⟩ : BufTy).Contents (Elt F) → (⟨S512x2, .f32⟩ : BufTy).Contents (Elt F)),
    StableHlo.binary main_v154 main_v153 main_v155 (Host.divf : (⟨S512x2, .f32⟩ : BufTy).Contents (Elt F) → (⟨S512x2, .f32⟩ : BufTy).Contents (Elt F) → (⟨S512x2, .f32⟩ : BufTy).Contents (Elt F)) ]

set_option maxRecDepth 8192 in
set_option maxHeartbeats 4000000 in
/-- Window 3 of @main is the straight line of its operations. -/
theorem part3_eq (c : Dev nD) : main_part3 (F := F) c = seq ops3 := rfl

set_option maxRecDepth 8192 in
/-- Every operation of window 3 reads and writes TensorCore buffers only. -/
theorem ops3_sub : (ops3 : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

end Cert.ReferenceIdeal.RefRun

end
-- ==== Proof.RefRun.lean ====
/- The reference's run: @main is the straight line of its four windows' operations, joined; on a signature that scopes
   nothing every weakly fair execution of it terminates with each TensorCore buffer at the fold of the operations'
   results over the buffer's launch contents. -/
import proofs.«136765_j22849226015440_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the four windows' lists, joined. -/
abbrev ops : List (HloOp τ sig (Elt F)) := ops0 ++ ops1 ++ ops2 ++ ops3

/-- @main runs its windows in order, each the straight line of its list; lines run one after the other are their
    concatenation run as one, and sequencing is associative. -/
theorem main_eq (c : Dev nD) : main (F := F) c = seq ops := by
  rw [show (ops : List (HloOp τ sig (Elt F))) = ops0 ++ ops1 ++ ops2 ++ ops3 from rfl,
    seq_append, seq_append, seq_append, ← part0_eq c, ← part1_eq c, ← part2_eq c, ← part3_eq c]
  simp only [main, bind_assoc]

theorem scopedRefs_eq : (Finset.univ.filter fun b : Ref sig .tc => b.isScoped) = ∅ := by decide
theorem scopedSems_eq : (Finset.univ.filter fun sm : SemLoc sig => sm.isScoped .tc) = ∅ := by decide

/-- Every operation of @main reads and writes TensorCore buffers only: window by window. -/
theorem ops_sub : (ops : List (HloOp τ sig (Elt F))).Forall fun op => op.bufs ⊆ tcRefs τ sig :=
  List.forall_iff_forall_mem.mpr fun op h => by
    rcases List.mem_append.mp h with h | h
    · rcases List.mem_append.mp h with h | h
      · rcases List.mem_append.mp h with h | h
        · exact List.forall_iff_forall_mem.mp ops0_sub op h
        · exact List.forall_iff_forall_mem.mp ops1_sub op h
      · exact List.forall_iff_forall_mem.mp ops2_sub op h
    · exact List.forall_iff_forall_mem.mp ops3_sub op h

set_option maxRecDepth 8192 in
/-- Every operation of window 0 determines its results. -/
theorem ops0_fresh : ∀ op ∈ (ops0 : List (HloOp τ sig (Elt F))), op.fresh = ∅ := by
  intro _ h; (repeat (cases h with | head => rfl | tail _ h => ?_)); exact nomatch h

set_option maxRecDepth 8192 in
/-- Every operation of window 1 determines its results. -/
theorem ops1_fresh : ∀ op ∈ (ops1 : List (HloOp τ sig (Elt F))), op.fresh = ∅ := by
  intro _ h; (repeat (cases h with | head => rfl | tail _ h => ?_)); exact nomatch h

set_option maxRecDepth 8192 in
/-- Every operation of window 2 determines its results. -/
theorem ops2_fresh : ∀ op ∈ (ops2 : List (HloOp τ sig (Elt F))), op.fresh = ∅ := by
  intro _ h; (repeat (cases h with | head => rfl | tail _ h => ?_)); exact nomatch h

set_option maxRecDepth 8192 in
/-- Every operation of window 3 determines its results. -/
theorem ops3_fresh : ∀ op ∈ (ops3 : List (HloOp τ sig (Elt F))), op.fresh = ∅ := by
  intro _ h; (repeat (cases h with | head => rfl | tail _ h => ?_)); exact nomatch h

/-- Every operation of @main determines its results: window by window. -/
theorem ops_fresh : ∀ op ∈ (ops : List (HloOp τ sig (Elt F))), op.fresh = ∅ := fun op h => by
  rcases List.mem_append.mp h with h | h
  · rcases List.mem_append.mp h with h | h
    · rcases List.mem_append.mp h with h | h
      · exact ops0_fresh op h
      · exact ops1_fresh op h
    · exact ops2_fresh op h
  · exact ops3_fresh op h

/-- At the compiled mesh, for any float values, from any memory with zero counters: every weakly fair execution of
    @main on the TensorCores terminates, and every final state has each TensorCore buffer at the operations' fold
    over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

end Cert.ReferenceIdeal.RefRun

end
-- ==== Proof.RefCut.lean ====
/- @main's operations cut at the ends of the reference's stages into ten stretches: the stretches joined are @main's
   list, and a buffer that a stretch does not write keeps its contents through it. -/
import proofs.«136765_j22849226015440_1_alg».proof.Proof.RefRun

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Stretch 0: the 5 operations of @main ending with the one that writes main_v4. -/
def s0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.binary main_arg0 main_arg3 main_v4 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers that stretch 0's operations write. -/
abbrev s0_W : List (Ref sig .tc) := [main_v0, main_v1, main_v2, main_v3, main_v4]

set_option maxRecDepth 8192 in
theorem s0_writes : (s0 : List (HloOp τ sig (Elt F))).Forall fun op => op.writes ⊆ (s0_W.map (Proc.devRef (τ := τ) .tc)).toFinset := by
  simp only [s0, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 0 does not write keeps its contents through it. -/
theorem s0_keep (W : Valuation τ sig (Elt F)) (r : Ref sig .tc) (h : r ∉ s0_W) :
    after s0 W (no_index (Proc.devRef .tc r)) = W (Proc.devRef .tc r) :=
  after_of_writes_sub s0 W s0_writes h

/-- Stretch 1: the 52 operations of @main ending with the one that writes main_v45. -/
def s1 : List (HloOp τ sig (Elt F)) :=
  [ StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v3 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v9 main_v8 main_v10 (addf : (⟨S100000, .f32⟩ : BufTy).Contents (Elt F) → (⟨S100000, .f32⟩ : BufTy).Contents (Elt F) → (⟨S100000, .f32⟩ : BufTy).Contents (Elt F)),
    StableHlo.unary main_v10 main_v11 (Host.rsqrt : (⟨S100000, .f32⟩ : BufTy).Contents (Elt F) → (⟨S100000, .f32⟩ : BufTy).Contents (Elt F)),
    StableHlo.nullary main_c (constantI S_ 32 0#32),
    StableHlo.unary main_c main_v12 (broadcastInDim S1600000 ![] bcast_S_S1600000 : (⟨S_, .i32⟩ : BufTy).Contents (Elt F) → (⟨S1600000, .i32⟩ : BufTy).Contents (Elt F)),
    StableHlo.binary main_v1 main_v12 main_v13 (cmpi .slt : (⟨S1600000, .i32⟩ : BufTy).Contents (Elt F) → (⟨S1600000, .i32⟩ : BufTy).Contents (Elt F) → (⟨S1600000, .i1⟩ : BufTy).Contents (Elt F)),
    StableHlo.nullary main_c_2 (constantI S_ 32 100000#32),
    StableHlo.unary main_c_2 main_v14 (broadcastInDim S1600000 ![] bcast_S_S1600000 : (⟨S_, .i32⟩ : BufTy).Contents (Elt F) → (⟨S1600000, .i32⟩ : BufTy).Contents (Elt F)),
    StableHlo.binary main_v1 main_v14 main_v15 (addi : (⟨S1600000, .i32⟩ : BufTy).Contents (Elt F) → (⟨S1600000, .i32⟩ : BufTy).Contents (Elt F) → (⟨S1600000, .i32⟩ : BufTy).Contents (Elt F)),
    StableHlo.ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v16 main_v17 (broadcastInDim S1600000x1 ![0] bcast_S1600000_S1600000x1_0 : (⟨S1600000, .i32⟩ : BufTy).Contents (Elt F) → (⟨S1600000x1, .i32⟩ : BufTy).Contents (Elt F)),
    StableHlo.binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_3 (constantI S_ 32 0#32),
    StableHlo.unary main_c_3 main_v19 (broadcastInDim S1600000 ![] bcast_S_S1600000 : (⟨S_, .i32⟩ : BufTy).Contents (Elt F) → (⟨S1600000, .i32⟩ : BufTy).Contents (Elt F)),
    StableHlo.binary main_v3 main_v19 main_v20 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v21 (broadcastInDim S1600000 ![] bcast_S_S1600000 : (⟨S_, .i32⟩ : BufTy).Contents (Elt F) → (⟨S1600000, .i32⟩ : BufTy).Contents (Elt F)),
    StableHlo.binary main_v3 main_v21 main_v22 (addi : (⟨S1600000, .i32⟩ : BufTy).Contents (Elt F) → (⟨S1600000, .i32⟩ : BufTy).Contents (Elt F) → (⟨S1600000, .i32⟩ : BufTy).Contents (Elt F)),
    StableHlo.ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v23 main_v24 (broadcastInDim S1600000x1 ![0] bcast_S1600000_S1600000x1_0 : (⟨S1600000, .i32⟩ : BufTy).Contents (Elt F) → (⟨S1600000x1, .i32⟩ : BufTy).Contents (Elt F)),
    StableHlo.binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v18 main_v25 main_v26 (mulf : (⟨S1600000, .f32⟩ : BufTy).Contents (Elt F) → (⟨S1600000, .f32⟩ : BufTy).Contents (Elt F) → (⟨S1600000, .f32⟩ : BufTy).Contents (Elt F)),
    StableHlo.nullary main_c_5 (constantI S_ 32 0#32),
    StableHlo.unary main_c_5 main_v27 (broadcastInDim S1600000 ![] bcast_S_S1600000 : (⟨S_, .i32⟩ : BufTy).Contents (Elt F) → (⟨S1600000, .i32⟩ : BufTy).Contents (Elt F)),
    StableHlo.binary main_v1 main_v27 main_v28 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v29 (broadcastInDim S1600000 ![] bcast_S_S1600000 : (⟨S_, .i32⟩ : BufTy).Contents (Elt F) → (⟨S1600000, .i32⟩ : BufTy).Contents (Elt F)),
    StableHlo.binary main_v1 main_v29 main_v30 (addi : (⟨S1600000, .i32⟩ : BufTy).Contents (Elt F) → (⟨S1600000, .i32⟩ : BufTy).Contents (Elt F) → (⟨S1600000, .i32⟩ : BufTy).Contents (Elt F)),
    StableHlo.ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v31 main_v32 (broadcastInDim S1600000x1 ![0] bcast_S1600000_S1600000x1_0 : (⟨S1600000, .i32⟩ : BufTy).Contents (Elt F) → (⟨S1600000x1, .i32⟩ : BufTy).Contents (Elt F)),
    StableHlo.binary main_v4 main_v32 main_v33 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v26 main_v34 (broadcastInDim S1600000x1 ![0] bcast_S1600000_S1600000x1_0 : (⟨S1600000, .f32⟩ : BufTy).Contents (Elt F) → (⟨S1600000x1, .f32⟩ : BufTy).Contents (Elt F)),
    StableHlo.unary main_v34 main_v35 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v33 main_v35 main_v36 (mulf : (⟨S1600000x128, .f32⟩ : BufTy).Contents (Elt F) → (⟨S1600000x128, .f32⟩ : BufTy).Contents (Elt F) → (⟨S1600000x128, .f32⟩ : BufTy).Contents (Elt F)),
    StableHlo.nullary main_cst_7 (constant S_ .f32 0x00000000#32),
    StableHlo.unary main_cst_7 main_v37 (broadcastInDim S100000x128 ![] bcast_S_S100000x128 : (⟨S_, .f32⟩ : BufTy).Contents (Elt F) → (⟨S100000x128, .f32⟩ : BufTy).Contents (Elt F)),
    StableHlo.unary main_v3 main_v38 (broadcastInDim S1600000x1 ![0] bcast_S1600000_S1600000x1_0 : (⟨S1600000, .i32⟩ : BufTy).Contents (Elt F) → (⟨S1600000x1, .i32⟩ : BufTy).Contents (Elt F)),
    StableHlo.ternary main_v37 main_v38 main_v36 main_v39 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_8 (constant S_ .f32 0x3F800000#32),
    StableHlo.unary main_cst_8 main_v40 (broadcastInDim S100000 ![] bcast_S_S100000 : (⟨S_, .f32⟩ : BufTy).Contents (Elt F) → (⟨S100000, .f32⟩ : BufTy).Contents (Elt F)),
    StableHlo.binary main_v40 main_v10 main_v41 (Host.divf : (⟨S100000, .f32⟩ : BufTy).Contents (Elt F) → (⟨S100000, .f32⟩ : BufTy).Contents (Elt F) → (⟨S100000, .f32⟩ : BufTy).Contents (Elt F)),
    StableHlo.unary main_v41 main_v42 (broadcastInDim S100000x1 ![0] bcast_S100000_S100000x1_0 : (⟨S100000, .f32⟩ : BufTy).Contents (Elt F) → (⟨S100000x1, .f32⟩ : BufTy).Contents (Elt F)),
    StableHlo.unary main_v42 main_v43 (broadcastInDim S100000x128 ![0, 1] bcast_S100000x1_S100000x128_0_1 : (⟨S100000x1, .f32⟩ : BufTy).Contents (Elt F) → (⟨S100000x128, .f32⟩ : BufTy).Contents (Elt F)),
    StableHlo.binary main_v4 main_v43 main_v44 (mulf : (⟨S100000x128, .f32⟩ : BufTy).Contents (Elt F) → (⟨S100000x128, .f32⟩ : BufTy).Contents (Elt F) → (⟨S100000x128, .f32⟩ : BufTy).Contents (Elt F)),
    StableHlo.binary main_v39 main_v44 main_v45 (addf : (⟨S100000x128, .f32⟩ : BufTy).Contents (Elt F) → (⟨S100000x128, .f32⟩ : BufTy).Contents (Elt F) → (⟨S100000x128, .f32⟩ : BufTy).Contents (Elt F)) ]

/-- The buffers that stretch 1's operations write. -/
abbrev s1_W : List (Ref sig .tc) := [main_cst, main_v5, main_cst_0, main_v6, main_v7, main_v8, main_cst_1, main_v9, main_v10, main_v11, main_c, main_v12, main_v13, main_c_2, main_v14, main_v15, main_v16, main_v17, main_v18, main_c_3, main_v19, main_v20, main_c_4, main_v21, main_v22, main_v23, main_v24, main_v25, main_v26, main_c_5, main_v27, main_v28, main_c_6, main_v29, main_v30, main_v31, main_v32, main_v33, main_v34, main_v35, main_v36, main_cst_7, main_v37, main_v38, main_v39, main_cst_8, main_v40, main_v41, main_v42, main_v43, main_v44, main_v45]

set_option maxRecDepth 8192 in
theorem s1_writes : (s1 : List (HloOp τ sig (Elt F))).Forall fun op => op.writes ⊆ (s1_W.map (Proc.devRef (τ := τ) .tc)).toFinset := by
  simp only [s1, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 1 does not write keeps its contents through it. -/
theorem s1_keep (W : Valuation τ sig (Elt F)) (r : Ref sig .tc) (h : r ∉ s1_W) :
    after s1 W (no_index (Proc.devRef .tc r)) = W (Proc.devRef .tc r) :=
  after_of_writes_sub s1 W s1_writes h

/-- Stretch 2: the 6 operations of @main ending with the one that writes main_call0.v1. -/
def s2 : List (HloOp τ sig (Elt F)) :=
  [ StableHlo.unary main_arg4 main_v46 (broadcastInDim S1x128 ![1] bcast_S128_S1x128_1 : (⟨S128, .f32⟩ : BufTy).Contents (Elt F) → (⟨S1x128, .f32⟩ : BufTy).Contents (Elt F)),
    StableHlo.unary main_v46 main_v47 (broadcastInDim S100000x128 ![0, 1] bcast_S1x128_S100000x128_0_1 : (⟨S1x128, .f32⟩ : BufTy).Contents (Elt F) → (⟨S100000x128, .f32⟩ : BufTy).Contents (Elt F)),
    StableHlo.binary main_v45 main_v47 main_v48 (addf : (⟨S100000x128, .f32⟩ : BufTy).Contents (Elt F) → (⟨S100000x128, .f32⟩ : BufTy).Contents (Elt F) → (⟨S100000x128, .f32⟩ : BufTy).Contents (Elt F)),
    StableHlo.TRef.nullary main_call0.cst (constant S_ .f32 0x00000000#32),
    StableHlo.TRef.unary main_call0.cst main_call0.v0 (broadcastInDim S100000x128 ![] bcast_S_S100000x128),
    StableHlo.TRef.binary (.of main_v48) main_call0.v0 main_call0.v1 maximumf ]

/-- The buffers that stretch 2's operations write. -/
abbrev s2_W : List (Ref sig .tc) := [main_v46, main_v47, main_v48, main_call0.cst.ref, main_call0.v0.ref, main_call0.v1.ref]

set_option maxRecDepth 8192 in
theorem s2_writes : (s2 : List (HloOp τ sig (Elt F))).Forall fun op => op.writes ⊆ (s2_W.map (Proc.devRef (τ := τ) .tc)).toFinset := by
  simp only [s2, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 2 does not write keeps its contents through it. -/
theorem s2_keep (W : Valuation τ sig (Elt F)) (r : Ref sig .tc) (h : r ∉ s2_W) :
    after s2 W (no_index (Proc.devRef .tc r)) = W (Proc.devRef .tc r) :=
  after_of_writes_sub s2 W s2_writes h

/-- Stretch 3: the 44 operations of @main ending with the one that writes main_v68. -/
def s3 : List (HloOp τ sig (Elt F)) :=
  [ StableHlo.nullary main_cst_9 (constant S_ .f32 0x00000000#32),
    StableHlo.binary main_v49 main_cst_9 main_v50 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_10 (constant S_ .f32 0x47C35000#32),
    StableHlo.unary main_cst_10 main_v51 (broadcastInDim S128 ![] bcast_S_S128 : (⟨S_, .f32⟩ : BufTy).Contents (Elt F) → (⟨S128, .f32⟩ : BufTy).Contents (Elt F)),
    StableHlo.binary main_v50 main_v51 main_v52 (Host.divf : (⟨S128, .f32⟩ : BufTy).Contents (Elt F) → (⟨S128, .f32⟩ : BufTy).Contents (Elt F) → (⟨S128, .f32⟩ : BufTy).Contents (Elt F)),
    StableHlo.nullary main_c_11 (constantI S_ 32 0#32),
    StableHlo.TRef.nullary main_call1.cst (constant S_ .f32 0x00000000#32),
    StableHlo.TRef.binary (.of main_v49) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (.of main_v49) main_call1.v4 main_call1.v5 subf,
    StableHlo.TRef.binary main_call1.v5 main_call1.v5 main_call1.v6 mulf,
    StableHlo.TRef.unary (.of main_c_11) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v52 main_v54 (broadcastInDim S1x128 ![1] bcast_S128_S1x128_1 : (⟨S128, .f32⟩ : BufTy).Contents (Elt F) → (⟨S1x128, .f32⟩ : BufTy).Contents (Elt F)),
    StableHlo.unary main_v54 main_v55 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v55 main_v56 (subf : (⟨S100000x128, .f32⟩ : BufTy).Contents (Elt F) → (⟨S100000x128, .f32⟩ : BufTy).Contents (Elt F) → (⟨S100000x128, .f32⟩ : BufTy).Contents (Elt F)),
    StableHlo.nullary main_cst_12 (constant S_ .f32 0x3727C5AC#32),
    StableHlo.unary main_cst_12 main_v57 (broadcastInDim S128 ![] bcast_S_S128 : (⟨S_, .f32⟩ : BufTy).Contents (Elt F) → (⟨S128, .f32⟩ : BufTy).Contents (Elt F)),
    StableHlo.binary main_v53 main_v57 main_v58 (addf : (⟨S128, .f32⟩ : BufTy).Contents (Elt F) → (⟨S128, .f32⟩ : BufTy).Contents (Elt F) → (⟨S128, .f32⟩ : BufTy).Contents (Elt F)),
    StableHlo.unary main_v58 main_v59 (Host.rsqrt : (⟨S128, .f32⟩ : BufTy).Contents (Elt F) → (⟨S128, .f32⟩ : BufTy).Contents (Elt F)),
    StableHlo.unary main_v59 main_v60 (broadcastInDim S1x128 ![1] bcast_S128_S1x128_1 : (⟨S128, .f32⟩ : BufTy).Contents (Elt F) → (⟨S1x128, .f32⟩ : BufTy).Contents (Elt F)),
    StableHlo.unary main_v60 main_v61 (broadcastInDim S100000x128 ![0, 1] bcast_S1x128_S100000x128_0_1 : (⟨S1x128, .f32⟩ : BufTy).Contents (Elt F) → (⟨S100000x128, .f32⟩ : BufTy).Contents (Elt F)),
    StableHlo.binary main_v56 main_v61 main_v62 (mulf : (⟨S100000x128, .f32⟩ : BufTy).Contents (Elt F) → (⟨S100000x128, .f32⟩ : BufTy).Contents (Elt F) → (⟨S100000x128, .f32⟩ : BufTy).Contents (Elt F)),
    StableHlo.unary main_arg5 main_v63 (broadcastInDim S1x128 ![1] bcast_S128_S1x128_1 : (⟨S128, .f32⟩ : BufTy).Contents (Elt F) → (⟨S1x128, .f32⟩ : BufTy).Contents (Elt F)),
    StableHlo.unary main_v63 main_v64 (broadcastInDim S100000x128 ![0, 1] bcast_S1x128_S100000x128_0_1 : (⟨S1x128, .f32⟩ : BufTy).Contents (Elt F) → (⟨S100000x128, .f32⟩ : BufTy).Contents (Elt F)),
    StableHlo.binary main_v62 main_v64 main_v65 (mulf : (⟨S100000x128, .f32⟩ : BufTy).Contents (Elt F) → (⟨S100000x128, .f32⟩ : BufTy).Contents (Elt F) → (⟨S100000x128, .f32⟩ : BufTy).Contents (Elt F)),
    StableHlo.unary main_arg6 main_v66 (broadcastInDim S1x128 ![1] bcast_S128_S1x128_1 : (⟨S128, .f32⟩ : BufTy).Contents (Elt F) → (⟨S1x128, .f32⟩ : BufTy).Contents (Elt F)),
    StableHlo.unary main_v66 main_v67 (broadcastInDim S100000x128 ![0, 1] bcast_S1x128_S100000x128_0_1 : (⟨S1x128, .f32⟩ : BufTy).Contents (Elt F) → (⟨S100000x128, .f32⟩ : BufTy).Contents (Elt F)),
    StableHlo.binary main_v65 main_v67 main_v68 (addf : (⟨S100000x128, .f32⟩ : BufTy).Contents (Elt F) → (⟨S100000x128, .f32⟩ : BufTy).Contents (Elt F) → (⟨S100000x128, .f32⟩ : BufTy).Contents (Elt F)) ]

/-- The buffers that stretch 3's operations write. -/
abbrev s3_W : List (Ref sig .tc) := [main_cst_9, main_v50, main_cst_10, main_v51, main_v52, main_c_11, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref, main_v54, main_v55, main_v56, main_cst_12, main_v57, main_v58, main_v59, main_v60, main_v61, main_v62, main_v63, main_v64, main_v65, main_v66, main_v67, main_v68]

set_option maxRecDepth 8192 in
theorem s3_writes : (s3 : List (HloOp τ sig (Elt F))).Forall fun op => op.writes ⊆ (s3_W.map (Proc.devRef (τ := τ) .tc)).toFinset := by
  simp only [s3, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 3 does not write keeps its contents through it. -/
theorem s3_keep (W : Valuation τ sig (Elt F)) (r : Ref sig .tc) (h : r ∉ s3_W) :
    after s3 W (no_index (Proc.devRef .tc r)) = W (Proc.devRef .tc r) :=
  after_of_writes_sub s3 W s3_writes h

/-- Stretch 4: the 1 operation of @main ending with the one that writes main_v69. -/
def s4 : List (HloOp τ sig (Elt F)) :=
  [ StableHlo.binary main_v68 main_arg7 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)) ]

/-- The buffers that stretch 4's operations write. -/
abbrev s4_W : List (Ref sig .tc) := [main_v69]

set_option maxRecDepth 8192 in
theorem s4_writes : (s4 : List (HloOp τ sig (Elt F))).Forall fun op => op.writes ⊆ (s4_W.map (Proc.devRef (τ := τ) .tc)).toFinset := by
  simp only [s4, List.Forall]
  exact (by simp only [nullary_writes, unary_writes, binary_writes, ternary_writes, quaternary_writes, reshape_writes, Finset.singleton_subset_iff, List.mem_toFinset]; exact List.mem_map_of_mem (by decide))

/-- A buffer that stretch 4 does not write keeps its contents through it. -/
theorem s4_keep (W : Valuation τ sig (Elt F)) (r : Ref sig .tc) (h : r ∉ s4_W) :
    after s4 W (no_index (Proc.devRef .tc r)) = W (Proc.devRef .tc r) :=
  after_of_writes_sub s4 W s4_writes h

/-- Stretch 5: the 52 operations of @main ending with the one that writes main_v110. -/
def s5 : List (HloOp τ sig (Elt F)) :=
  [ StableHlo.nullary main_cst_13 (constant S_ .f32 0x3F800000#32),
    StableHlo.unary main_cst_13 main_v70 (broadcastInDim S1600000 ![] bcast_S_S1600000 : (⟨S_, .f32⟩ : BufTy).Contents (Elt F) → (⟨S1600000, .f32⟩ : BufTy).Contents (Elt F)),
    StableHlo.nullary main_cst_14 (constant S_ .f32 0x00000000#32),
    StableHlo.unary main_cst_14 main_v71 (broadcastInDim S100000 ![] bcast_S_S100000 : (⟨S_, .f32⟩ : BufTy).Contents (Elt F) → (⟨S100000, .f32⟩ : BufTy).Contents (Elt F)),
    StableHlo.unary main_v3 main_v72 (broadcastInDim S1600000x1 ![0] bcast_S1600000_S1600000x1_0 : (⟨S1600000, .i32⟩ : BufTy).Contents (Elt F) → (⟨S1600000x1, .i32⟩ : BufTy).Contents (Elt F)),
    StableHlo.ternary main_v71 main_v72 main_v70 main_v73 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_15 (constant S_ .f32 0x3F800000#32),
    StableHlo.unary main_cst_15 main_v74 (broadcastInDim S100000 ![] bcast_S_S100000 : (⟨S_, .f32⟩ : BufTy).Contents (Elt F) → (⟨S100000, .f32⟩ : BufTy).Contents (Elt F)),
    StableHlo.binary main_v74 main_v73 main_v75 (addf : (⟨S100000, .f32⟩ : BufTy).Contents (Elt F) → (⟨S100000, .f32⟩ : BufTy).Contents (Elt F) → (⟨S100000, .f32⟩ : BufTy).Contents (Elt F)),
    StableHlo.unary main_v75 main_v76 (Host.rsqrt : (⟨S100000, .f32⟩ : BufTy).Contents (Elt F) → (⟨S100000, .f32⟩ : BufTy).Contents (Elt F)),
    StableHlo.nullary main_c_16 (constantI S_ 32 0#32),
    StableHlo.unary main_c_16 main_v77 (broadcastInDim S1600000 ![] bcast_S_S1600000 : (⟨S_, .i32⟩ : BufTy).Contents (Elt F) → (⟨S1600000, .i32⟩ : BufTy).Contents (Elt F)),
    StableHlo.binary main_v1 main_v77 main_v78 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v79 (broadcastInDim S1600000 ![] bcast_S_S1600000 : (⟨S_, .i32⟩ : BufTy).Contents (Elt F) → (⟨S1600000, .i32⟩ : BufTy).Contents (Elt F)),
    StableHlo.binary main_v1 main_v79 main_v80 (addi : (⟨S1600000, .i32⟩ : BufTy).Contents (Elt F) → (⟨S1600000, .i32⟩ : BufTy).Contents (Elt F) → (⟨S1600000, .i32⟩ : BufTy).Contents (Elt F)),
    StableHlo.ternary main_v78 main_v80 main_v1 main_v81 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v81 main_v82 (broadcastInDim S1600000x1 ![0] bcast_S1600000_S1600000x1_0 : (⟨S1600000, .i32⟩ : BufTy).Contents (Elt F) → (⟨S1600000x1, .i32⟩ : BufTy).Contents (Elt F)),
    StableHlo.binary main_v76 main_v82 main_v83 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_18 (constantI S_ 32 0#32),
    StableHlo.unary main_c_18 main_v84 (broadcastInDim S1600000 ![] bcast_S_S1600000 : (⟨S_, .i32⟩ : BufTy).Contents (Elt F) → (⟨S1600000, .i32⟩ : BufTy).Contents (Elt F)),
    StableHlo.binary main_v3 main_v84 main_v85 (cmpi .slt : (⟨S1600000, .i32⟩ : BufTy).Contents (Elt F) → (⟨S1600000, .i32⟩ : BufTy).Contents (Elt F) → (⟨S1600000, .i1⟩ : BufTy).Contents (Elt F)),
    StableHlo.nullary main_c_19 (constantI S_ 32 100000#32),
    StableHlo.unary main_c_19 main_v86 (broadcastInDim S1600000 ![] bcast_S_S1600000 : (⟨S_, .i32⟩ : BufTy).Contents (Elt F) → (⟨S1600000, .i32⟩ : BufTy).Contents (Elt F)),
    StableHlo.binary main_v3 main_v86 main_v87 (addi : (⟨S1600000, .i32⟩ : BufTy).Contents (Elt F) → (⟨S1600000, .i32⟩ : BufTy).Contents (Elt F) → (⟨S1600000, .i32⟩ : BufTy).Contents (Elt F)),
    StableHlo.ternary main_v85 main_v87 main_v3 main_v88 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v88 main_v89 (broadcastInDim S1600000x1 ![0] bcast_S1600000_S1600000x1_0 : (⟨S1600000, .i32⟩ : BufTy).Contents (Elt F) → (⟨S1600000x1, .i32⟩ : BufTy).Contents (Elt F)),
    StableHlo.binary main_v76 main_v89 main_v90 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v83 main_v90 main_v91 (mulf : (⟨S1600000, .f32⟩ : BufTy).Contents (Elt F) → (⟨S1600000, .f32⟩ : BufTy).Contents (Elt F) → (⟨S1600000, .f32⟩ : BufTy).Contents (Elt F)),
    StableHlo.nullary main_c_20 (constantI S_ 32 0#32),
    StableHlo.unary main_c_20 main_v92 (broadcastInDim S1600000 ![] bcast_S_S1600000 : (⟨S_, .i32⟩ : BufTy).Contents (Elt F) → (⟨S1600000, .i32⟩ : BufTy).Contents (Elt F)),
    StableHlo.binary main_v1 main_v92 main_v93 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v94 (broadcastInDim S1600000 ![] bcast_S_S1600000 : (⟨S_, .i32⟩ : BufTy).Contents (Elt F) → (⟨S1600000, .i32⟩ : BufTy).Contents (Elt F)),
    StableHlo.binary main_v1 main_v94 main_v95 (addi : (⟨S1600000, .i32⟩ : BufTy).Contents (Elt F) → (⟨S1600000, .i32⟩ : BufTy).Contents (Elt F) → (⟨S1600000, .i32⟩ : BufTy).Contents (Elt F)),
    StableHlo.ternary main_v93 main_v95 main_v1 main_v96 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v96 main_v97 (broadcastInDim S1600000x1 ![0] bcast_S1600000_S1600000x1_0 : (⟨S1600000, .i32⟩ : BufTy).Contents (Elt F) → (⟨S1600000x1, .i32⟩ : BufTy).Contents (Elt F)),
    StableHlo.binary main_v69 main_v97 main_v98 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v91 main_v99 (broadcastInDim S1600000x1 ![0] bcast_S1600000_S1600000x1_0 : (⟨S1600000, .f32⟩ : BufTy).Contents (Elt F) → (⟨S1600000x1, .f32⟩ : BufTy).Contents (Elt F)),
    StableHlo.unary main_v99 main_v100 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v98 main_v100 main_v101 (mulf : (⟨S1600000x128, .f32⟩ : BufTy).Contents (Elt F) → (⟨S1600000x128, .f32⟩ : BufTy).Contents (Elt F) → (⟨S1600000x128, .f32⟩ : BufTy).Contents (Elt F)),
    StableHlo.nullary main_cst_22 (constant S_ .f32 0x00000000#32),
    StableHlo.unary main_cst_22 main_v102 (broadcastInDim S100000x128 ![] bcast_S_S100000x128 : (⟨S_, .f32⟩ : BufTy).Contents (Elt F) → (⟨S100000x128, .f32⟩ : BufTy).Contents (Elt F)),
    StableHlo.unary main_v3 main_v103 (broadcastInDim S1600000x1 ![0] bcast_S1600000_S1600000x1_0 : (⟨S1600000, .i32⟩ : BufTy).Contents (Elt F) → (⟨S1600000x1, .i32⟩ : BufTy).Contents (Elt F)),
    StableHlo.ternary main_v102 main_v103 main_v101 main_v104 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_23 (constant S_ .f32 0x3F800000#32),
    StableHlo.unary main_cst_23 main_v105 (broadcastInDim S100000 ![] bcast_S_S100000 : (⟨S_, .f32⟩ : BufTy).Contents (Elt F) → (⟨S100000, .f32⟩ : BufTy).Contents (Elt F)),
    StableHlo.binary main_v105 main_v75 main_v106 (Host.divf : (⟨S100000, .f32⟩ : BufTy).Contents (Elt F) → (⟨S100000, .f32⟩ : BufTy).Contents (Elt F) → (⟨S100000, .f32⟩ : BufTy).Contents (Elt F)),
    StableHlo.unary main_v106 main_v107 (broadcastInDim S100000x1 ![0] bcast_S100000_S100000x1_0 : (⟨S100000, .f32⟩ : BufTy).Contents (Elt F) → (⟨S100000x1, .f32⟩ : BufTy).Contents (Elt F)),
    StableHlo.unary main_v107 main_v108 (broadcastInDim S100000x128 ![0, 1] bcast_S100000x1_S100000x128_0_1 : (⟨S100000x1, .f32⟩ : BufTy).Contents (Elt F) → (⟨S100000x128, .f32⟩ : BufTy).Contents (Elt F)),
    StableHlo.binary main_v69 main_v108 main_v109 (mulf : (⟨S100000x128, .f32⟩ : BufTy).Contents (Elt F) → (⟨S100000x128, .f32⟩ : BufTy).Contents (Elt F) → (⟨S100000x128, .f32⟩ : BufTy).Contents (Elt F)),
    StableHlo.binary main_v104 main_v109 main_v110 (addf : (⟨S100000x128, .f32⟩ : BufTy).Contents (Elt F) → (⟨S100000x128, .f32⟩ : BufTy).Contents (Elt F) → (⟨S100000x128, .f32⟩ : BufTy).Contents (Elt F)) ]

/-- The buffers that stretch 5's operations write. -/
abbrev s5_W : List (Ref sig .tc) := [main_cst_13, main_v70, main_cst_14, main_v71, main_v72, main_v73, main_cst_15, main_v74, main_v75, main_v76, main_c_16, main_v77, main_v78, main_c_17, main_v79, main_v80, main_v81, main_v82, main_v83, main_c_18, main_v84, main_v85, main_c_19, main_v86, main_v87, main_v88, main_v89, main_v90, main_v91, main_c_20, main_v92, main_v93, main_c_21, main_v94, main_v95, main_v96, main_v97, main_v98, main_v99, main_v100, main_v101, main_cst_22, main_v102, main_v103, main_v104, main_cst_23, main_v105, main_v106, main_v107, main_v108, main_v109, main_v110]

set_option maxRecDepth 8192 in
theorem s5_writes : (s5 : List (HloOp τ sig (Elt F))).Forall fun op => op.writes ⊆ (s5_W.map (Proc.devRef (τ := τ) .tc)).toFinset := by
  simp only [s5, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 5 does not write keeps its contents through it. -/
theorem s5_keep (W : Valuation τ sig (Elt F)) (r : Ref sig .tc) (h : r ∉ s5_W) :
    after s5 W (no_index (Proc.devRef .tc r)) = W (Proc.devRef .tc r) :=
  after_of_writes_sub s5 W s5_writes h

/-- Stretch 6: the 6 operations of @main ending with the one that writes main_call2.v1. -/
def s6 : List (HloOp τ sig (Elt F)) :=
  [ StableHlo.unary main_arg8 main_v111 (broadcastInDim S1x128 ![1] bcast_S128_S1x128_1 : (⟨S128, .f32⟩ : BufTy).Contents (Elt F) → (⟨S1x128, .f32⟩ : BufTy).Contents (Elt F)),
    StableHlo.unary main_v111 main_v112 (broadcastInDim S100000x128 ![0, 1] bcast_S1x128_S100000x128_0_1 : (⟨S1x128, .f32⟩ : BufTy).Contents (Elt F) → (⟨S100000x128, .f32⟩ : BufTy).Contents (Elt F)),
    StableHlo.binary main_v110 main_v112 main_v113 (addf : (⟨S100000x128, .f32⟩ : BufTy).Contents (Elt F) → (⟨S100000x128, .f32⟩ : BufTy).Contents (Elt F) → (⟨S100000x128, .f32⟩ : BufTy).Contents (Elt F)),
    StableHlo.TRef.nullary main_call2.cst (constant S_ .f32 0x00000000#32),
    StableHlo.TRef.unary main_call2.cst main_call2.v0 (broadcastInDim S100000x128 ![] bcast_S_S100000x128),
    StableHlo.TRef.binary (.of main_v113) main_call2.v0 main_call2.v1 maximumf ]

/-- The buffers that stretch 6's operations write. -/
abbrev s6_W : List (Ref sig .tc) := [main_v111, main_v112, main_v113, main_call2.cst.ref, main_call2.v0.ref, main_call2.v1.ref]

set_option maxRecDepth 8192 in
theorem s6_writes : (s6 : List (HloOp τ sig (Elt F))).Forall fun op => op.writes ⊆ (s6_W.map (Proc.devRef (τ := τ) .tc)).toFinset := by
  simp only [s6, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 6 does not write keeps its contents through it. -/
theorem s6_keep (W : Valuation τ sig (Elt F)) (r : Ref sig .tc) (h : r ∉ s6_W) :
    after s6 W (no_index (Proc.devRef .tc r)) = W (Proc.devRef .tc r) :=
  after_of_writes_sub s6 W s6_writes h

/-- Stretch 7: the 44 operations of @main ending with the one that writes main_v133. -/
def s7 : List (HloOp τ sig (Elt F)) :=
  [ StableHlo.nullary main_cst_24 (constant S_ .f32 0x00000000#32),
    StableHlo.binary main_v114 main_cst_24 main_v115 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_25 (constant S_ .f32 0x47C35000#32),
    StableHlo.unary main_cst_25 main_v116 (broadcastInDim S128 ![] bcast_S_S128 : (⟨S_, .f32⟩ : BufTy).Contents (Elt F) → (⟨S128, .f32⟩ : BufTy).Contents (Elt F)),
    StableHlo.binary main_v115 main_v116 main_v117 (Host.divf : (⟨S128, .f32⟩ : BufTy).Contents (Elt F) → (⟨S128, .f32⟩ : BufTy).Contents (Elt F) → (⟨S128, .f32⟩ : BufTy).Contents (Elt F)),
    StableHlo.nullary main_c_26 (constantI S_ 32 0#32),
    StableHlo.TRef.nullary main_call3.cst (constant S_ .f32 0x00000000#32),
    StableHlo.TRef.binary (.of main_v114) main_call3.cst main_call3.v0 (fun x v => Host.reduceAdd x v reducesTo_S100000x128_S128_d0 h_S_),
    StableHlo.TRef.unary main_call3.v0 main_call3.v1 (broadcastInDim S1x128 ![1] bcast_S128_S1x128_1),
    StableHlo.TRef.nullary main_call3.cst_0 (constant S_ .f32 0x47C35000#32),
    StableHlo.TRef.unary main_call3.cst_0 main_call3.v2 (broadcastInDim S1x128 ![] bcast_S_S1x128),
    StableHlo.TRef.binary main_call3.v1 main_call3.v2 main_call3.v3 Host.divf,
    StableHlo.TRef.unary main_call3.v3 main_call3.v4 (broadcastInDim S100000x128 ![0, 1] bcast_S1x128_S100000x128_0_1),
    StableHlo.TRef.binary (.of main_v114) main_call3.v4 main_call3.v5 subf,
    StableHlo.TRef.binary main_call3.v5 main_call3.v5 main_call3.v6 mulf,
    StableHlo.TRef.unary (.of main_c_26) main_call3.v7 (sitofp .f32),
    StableHlo.TRef.nullary main_call3.cst_1 (constant S_ .f32 0x47C35000#32),
    StableHlo.TRef.binary main_call3.cst_1 main_call3.v7 main_call3.v8 subf,
    StableHlo.TRef.nullary main_call3.cst_2 (constant S_ .f32 0x00000000#32),
    StableHlo.TRef.binary main_call3.v6 main_call3.cst_2 main_call3.v9 (fun x v => Host.reduceAdd x v reducesTo_S100000x128_S128_d0 h_S_),
    StableHlo.TRef.unary main_call3.v8 main_call3.v10 (broadcastInDim S128 ![] bcast_S_S128),
    StableHlo.TRef.binary main_call3.v9 main_call3.v10 main_call3.v11 Host.divf,
    StableHlo.TRef.nullary main_call3.cst_3 (constant S_ .f32 0x00000000#32),
    StableHlo.TRef.binary main_call3.v8 main_call3.cst_3 main_call3.v12 (cmpf .ogt),
    StableHlo.TRef.nullary main_call3.cst_4 (constant S_ .f32 0x7FC00000#32),
    StableHlo.TRef.unary main_call3.cst_4 main_call3.call0.v0 id,
    StableHlo.TRef.unary main_call3.call0.v0 main_call3.call0.v1 (broadcastInDim S128 ![] bcast_S_S128),
    StableHlo.TRef.ternary main_call3.v12 main_call3.v11 main_call3.call0.v1 main_call3.call0.v2 (fun p a b => select (broadcastInDim S128 ![] bcast_S_S128 p) a b),
    StableHlo.unary main_v117 main_v119 (broadcastInDim S1x128 ![1] bcast_S128_S1x128_1 : (⟨S128, .f32⟩ : BufTy).Contents (Elt F) → (⟨S1x128, .f32⟩ : BufTy).Contents (Elt F)),
    StableHlo.unary main_v119 main_v120 (broadcastInDim S100000x128 ![0, 1] bcast_S1x128_S100000x128_0_1 : (⟨S1x128, .f32⟩ : BufTy).Contents (Elt F) → (⟨S100000x128, .f32⟩ : BufTy).Contents (Elt F)),
    StableHlo.binary main_v114 main_v120 main_v121 (subf : (⟨S100000x128, .f32⟩ : BufTy).Contents (Elt F) → (⟨S100000x128, .f32⟩ : BufTy).Contents (Elt F) → (⟨S100000x128, .f32⟩ : BufTy).Contents (Elt F)),
    StableHlo.nullary main_cst_27 (constant S_ .f32 0x3727C5AC#32),
    StableHlo.unary main_cst_27 main_v122 (broadcastInDim S128 ![] bcast_S_S128 : (⟨S_, .f32⟩ : BufTy).Contents (Elt F) → (⟨S128, .f32⟩ : BufTy).Contents (Elt F)),
    StableHlo.binary main_v118 main_v122 main_v123 (addf : (⟨S128, .f32⟩ : BufTy).Contents (Elt F) → (⟨S128, .f32⟩ : BufTy).Contents (Elt F) → (⟨S128, .f32⟩ : BufTy).Contents (Elt F)),
    StableHlo.unary main_v123 main_v124 (Host.rsqrt : (⟨S128, .f32⟩ : BufTy).Contents (Elt F) → (⟨S128, .f32⟩ : BufTy).Contents (Elt F)),
    StableHlo.unary main_v124 main_v125 (broadcastInDim S1x128 ![1] bcast_S128_S1x128_1 : (⟨S128, .f32⟩ : BufTy).Contents (Elt F) → (⟨S1x128, .f32⟩ : BufTy).Contents (Elt F)),
    StableHlo.unary main_v125 main_v126 (broadcastInDim S100000x128 ![0, 1] bcast_S1x128_S100000x128_0_1 : (⟨S1x128, .f32⟩ : BufTy).Contents (Elt F) → (⟨S100000x128, .f32⟩ : BufTy).Contents (Elt F)),
    StableHlo.binary main_v121 main_v126 main_v127 (mulf : (⟨S100000x128, .f32⟩ : BufTy).Contents (Elt F) → (⟨S100000x128, .f32⟩ : BufTy).Contents (Elt F) → (⟨S100000x128, .f32⟩ : BufTy).Contents (Elt F)),
    StableHlo.unary main_arg9 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v127 main_v129 main_v130 (mulf : (⟨S100000x128, .f32⟩ : BufTy).Contents (Elt F) → (⟨S100000x128, .f32⟩ : BufTy).Contents (Elt F) → (⟨S100000x128, .f32⟩ : BufTy).Contents (Elt F)),
    StableHlo.unary main_arg10 main_v131 (broadcastInDim S1x128 ![1] bcast_S128_S1x128_1 : (⟨S128, .f32⟩ : BufTy).Contents (Elt F) → (⟨S1x128, .f32⟩ : BufTy).Contents (Elt F)),
    StableHlo.unary main_v131 main_v132 (broadcastInDim S100000x128 ![0, 1] bcast_S1x128_S100000x128_0_1 : (⟨S1x128, .f32⟩ : BufTy).Contents (Elt F) → (⟨S100000x128, .f32⟩ : BufTy).Contents (Elt F)),
    StableHlo.binary main_v130 main_v132 main_v133 (addf : (⟨S100000x128, .f32⟩ : BufTy).Contents (Elt F) → (⟨S100000x128, .f32⟩ : BufTy).Contents (Elt F) → (⟨S100000x128, .f32⟩ : BufTy).Contents (Elt F)) ]

/-- The buffers that stretch 7's operations write. -/
abbrev s7_W : List (Ref sig .tc) := [main_cst_24, main_v115, main_cst_25, main_v116, main_v117, main_c_26, main_call3.cst.ref, main_call3.v0.ref, main_call3.v1.ref, main_call3.cst_0.ref, main_call3.v2.ref, main_call3.v3.ref, main_call3.v4.ref, main_call3.v5.ref, main_call3.v6.ref, main_call3.v7.ref, main_call3.cst_1.ref, main_call3.v8.ref, main_call3.cst_2.ref, main_call3.v9.ref, main_call3.v10.ref, main_call3.v11.ref, main_call3.cst_3.ref, main_call3.v12.ref, main_call3.cst_4.ref, main_call3.call0.v0.ref, main_call3.call0.v1.ref, main_call3.call0.v2.ref, main_v119, main_v120, main_v121, main_cst_27, main_v122, main_v123, main_v124, main_v125, main_v126, main_v127, main_v128, main_v129, main_v130, main_v131, main_v132, main_v133]

set_option maxRecDepth 8192 in
theorem s7_writes : (s7 : List (HloOp τ sig (Elt F))).Forall fun op => op.writes ⊆ (s7_W.map (Proc.devRef (τ := τ) .tc)).toFinset := by
  simp only [s7, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 7 does not write keeps its contents through it. -/
theorem s7_keep (W : Valuation τ sig (Elt F)) (r : Ref sig .tc) (h : r ∉ s7_W) :
    after s7 W (no_index (Proc.devRef .tc r)) = W (Proc.devRef .tc r) :=
  after_of_writes_sub s7 W s7_writes h

/-- Stretch 8: the 16 operations of @main ending with the one that writes main_v145. -/
def s8 : List (HloOp τ sig (Elt F)) :=
  [ StableHlo.nullary main_cst_28 (constant S_ .f32 0x00000000#32),
    StableHlo.unary main_cst_28 main_v134 (broadcastInDim S512x128 ![] bcast_S_S512x128 : (⟨S_, .f32⟩ : BufTy).Contents (Elt F) → (⟨S512x128, .f32⟩ : BufTy).Contents (Elt F)),
    StableHlo.unary main_arg2 main_v135 (broadcastInDim S100000x1 ![0] bcast_S100000_S100000x1_0 : (⟨S100000, .i32⟩ : BufTy).Contents (Elt F) → (⟨S100000x1, .i32⟩ : BufTy).Contents (Elt F)),
    StableHlo.ternary main_v134 main_v135 main_v133 main_v136 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_29 (constant S_ .f32 0x3F800000#32),
    StableHlo.unary main_cst_29 main_v137 (broadcastInDim S100000 ![] bcast_S_S100000 : (⟨S_, .f32⟩ : BufTy).Contents (Elt F) → (⟨S100000, .f32⟩ : BufTy).Contents (Elt F)),
    StableHlo.nullary main_cst_30 (constant S_ .f32 0x00000000#32),
    StableHlo.unary main_cst_30 main_v138 (broadcastInDim S512 ![] bcast_S_S512 : (⟨S_, .f32⟩ : BufTy).Contents (Elt F) → (⟨S512, .f32⟩ : BufTy).Contents (Elt F)),
    StableHlo.unary main_arg2 main_v139 (broadcastInDim S100000x1 ![0] bcast_S100000_S100000x1_0 : (⟨S100000, .i32⟩ : BufTy).Contents (Elt F) → (⟨S100000x1, .i32⟩ : BufTy).Contents (Elt F)),
    StableHlo.ternary main_v138 main_v139 main_v137 main_v140 ((fun x i u => Host.scatterAdd scatter_S512_S100000x1_S100000_n_0_0_1 x i u) : (⟨S512, .f32⟩ : BufTy).Contents (Elt F) → (⟨S100000x1, .i32⟩ : BufTy).Contents (Elt F) → (⟨S100000, .f32⟩ : BufTy).Contents (Elt F) → (⟨S512, .f32⟩ : BufTy).Contents (Elt F)),
    StableHlo.nullary main_cst_31 (constant S_ .f32 0x3F800000#32),
    StableHlo.unary main_cst_31 main_v141 (broadcastInDim S512 ![] bcast_S_S512 : (⟨S_, .f32⟩ : BufTy).Contents (Elt F) → (⟨S512, .f32⟩ : BufTy).Contents (Elt F)),
    StableHlo.binary main_v140 main_v141 main_v142 (maximumf : (⟨S512, .f32⟩ : BufTy).Contents (Elt F) → (⟨S512, .f32⟩ : BufTy).Contents (Elt F) → (⟨S512, .f32⟩ : BufTy).Contents (Elt F)),
    StableHlo.unary main_v142 main_v143 (broadcastInDim S512x1 ![0] bcast_S512_S512x1_0 : (⟨S512, .f32⟩ : BufTy).Contents (Elt F) → (⟨S512x1, .f32⟩ : BufTy).Contents (Elt F)),
    StableHlo.unary main_v143 main_v144 (broadcastInDim S512x128 ![0, 1] bcast_S512x1_S512x128_0_1 : (⟨S512x1, .f32⟩ : BufTy).Contents (Elt F) → (⟨S512x128, .f32⟩ : BufTy).Contents (Elt F)),
    StableHlo.binary main_v136 main_v144 main_v145 (Host.divf : (⟨S512x128, .f32⟩ : BufTy).Contents (Elt F) → (⟨S512x128, .f32⟩ : BufTy).Contents (Elt F) → (⟨S512x128, .f32⟩ : BufTy).Contents (Elt F)) ]

/-- The buffers that stretch 8's operations write. -/
abbrev s8_W : List (Ref sig .tc) := [main_cst_28, main_v134, main_v135, main_v136, main_cst_29, main_v137, main_cst_30, main_v138, main_v139, main_v140, main_cst_31, main_v141, main_v142, main_v143, main_v144, main_v145]

set_option maxRecDepth 8192 in
theorem s8_writes : (s8 : List (HloOp τ sig (Elt F))).Forall fun op => op.writes ⊆ (s8_W.map (Proc.devRef (τ := τ) .tc)).toFinset := by
  simp only [s8, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 8 does not write keeps its contents through it. -/
theorem s8_keep (W : Valuation τ sig (Elt F)) (r : Ref sig .tc) (h : r ∉ s8_W) :
    after s8 W (no_index (Proc.devRef .tc r)) = W (Proc.devRef .tc r) :=
  after_of_writes_sub s8 W s8_writes h

/-- Stretch 9: the 12 operations of @main ending with the one that writes main_v155. -/
def s9 : List (HloOp τ sig (Elt F)) :=
  [ StableHlo.binary main_v145 main_arg11 main_v146 ((fun l r => Host.dotGeneral dot_S512x128_S128x2_S512x2_1_0_0_1_n_n none l r) : (⟨S512x128, .f32⟩ : BufTy).Contents (Elt F) → (⟨S128x2, .f32⟩ : BufTy).Contents (Elt F) → (⟨S512x2, .f32⟩ : BufTy).Contents (Elt F)),
    StableHlo.unary main_arg12 main_v147 (broadcastInDim S1x2 ![1] bcast_S2_S1x2_1 : (⟨S2, .f32⟩ : BufTy).Contents (Elt F) → (⟨S1x2, .f32⟩ : BufTy).Contents (Elt F)),
    StableHlo.unary main_v147 main_v148 (broadcastInDim S512x2 ![0, 1] bcast_S1x2_S512x2_0_1 : (⟨S1x2, .f32⟩ : BufTy).Contents (Elt F) → (⟨S512x2, .f32⟩ : BufTy).Contents (Elt F)),
    StableHlo.binary main_v146 main_v148 main_v149 (addf : (⟨S512x2, .f32⟩ : BufTy).Contents (Elt F) → (⟨S512x2, .f32⟩ : BufTy).Contents (Elt F) → (⟨S512x2, .f32⟩ : BufTy).Contents (Elt F)),
    StableHlo.unary main_v149 main_v150 (Host.negf : (⟨S512x2, .f32⟩ : BufTy).Contents (Elt F) → (⟨S512x2, .f32⟩ : BufTy).Contents (Elt F)),
    StableHlo.unary main_v150 main_v151 (Host.exp : (⟨S512x2, .f32⟩ : BufTy).Contents (Elt F) → (⟨S512x2, .f32⟩ : BufTy).Contents (Elt F)),
    StableHlo.nullary main_cst_32 (constant S_ .f32 0x3F800000#32),
    StableHlo.unary main_cst_32 main_v152 (broadcastInDim S512x2 ![] bcast_S_S512x2 : (⟨S_, .f32⟩ : BufTy).Contents (Elt F) → (⟨S512x2, .f32⟩ : BufTy).Contents (Elt F)),
    StableHlo.binary main_v152 main_v151 main_v153 (addf : (⟨S512x2, .f32⟩ : BufTy).Contents (Elt F) → (⟨S512x2, .f32⟩ : BufTy).Contents (Elt F) → (⟨S512x2, .f32⟩ : BufTy).Contents (Elt F)),
    StableHlo.nullary main_cst_33 (constant S_ .f32 0x3F800000#32),
    StableHlo.unary main_cst_33 main_v154 (broadcastInDim S512x2 ![] bcast_S_S512x2 : (⟨S_, .f32⟩ : BufTy).Contents (Elt F) → (⟨S512x2, .f32⟩ : BufTy).Contents (Elt F)),
    StableHlo.binary main_v154 main_v153 main_v155 (Host.divf : (⟨S512x2, .f32⟩ : BufTy).Contents (Elt F) → (⟨S512x2, .f32⟩ : BufTy).Contents (Elt F) → (⟨S512x2, .f32⟩ : BufTy).Contents (Elt F)) ]

/-- The buffers that stretch 9's operations write. -/
abbrev s9_W : List (Ref sig .tc) := [main_v146, main_v147, main_v148, main_v149, main_v150, main_v151, main_cst_32, main_v152, main_v153, main_cst_33, main_v154, main_v155]

set_option maxRecDepth 8192 in
theorem s9_writes : (s9 : List (HloOp τ sig (Elt F))).Forall fun op => op.writes ⊆ (s9_W.map (Proc.devRef (τ := τ) .tc)).toFinset := by
  simp only [s9, List.Forall]
  exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- A buffer that stretch 9 does not write keeps its contents through it. -/
theorem s9_keep (W : Valuation τ sig (Elt F)) (r : Ref sig .tc) (h : r ∉ s9_W) :
    after s9 W (no_index (Proc.devRef .tc r)) = W (Proc.devRef .tc r) :=
  after_of_writes_sub s9 W s9_writes h

set_option maxRecDepth 65536 in
/-- @main's list is the stretches joined: both sides are the same operations in the same order. -/
theorem ops_split : (ops : List (HloOp τ sig (Elt F))) = s0 ++ s1 ++ s2 ++ s3 ++ s4 ++ s5 ++ s6 ++ s7 ++ s8 ++ s9 := rfl

end Cert.ReferenceIdeal.RefRun

end
-- ==== Proof.RefRead.lean ====
/- Reading the reference's run back through its list of operations, stretch by stretch: each stretch of @main leaves
   one stage function of the buffers it reads in the stage's result buffer, a buffer that no later stretch writes keeps
   that value, and so @main's result is the stage functions composed over the arguments' launch contents, the
   arguments unchanged. -/
import proofs.«136765_j22849226015440_1_alg».proof.Proof.RefCut
import proofs.«136765_j22849226015440_1_alg».proof.Proof.Spec
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- the gathers, scatters and reductions are folds over their operands: no equation below looks inside them
attribute [local irreducible] Host.scatterAdd Host.gather Host.reduceAdd

set_option maxRecDepth 8192 in
set_option maxHeartbeats 1000000 in
/-- Stretch 0 leaves the source row of the edge list, flattened in main_v1. -/
theorem s0_v1 (W : Valuation τ sig (Elt F)) :
    after s0 W (no_index (Proc.devRef .tc main_v1)) = Spec.srcF (W (Proc.devRef .tc main_arg1)) := by
  simp only [s0]
  after_results_simp
  rfl

set_option maxRecDepth 8192 in
set_option maxHeartbeats 1000000 in
/-- Stretch 0 leaves the destination row of the edge list, flattened in main_v3. -/
theorem s0_v3 (W : Valuation τ sig (Elt F)) :
    after s0 W (no_index (Proc.devRef .tc main_v3)) = Spec.dstF (W (Proc.devRef .tc main_arg1)) := by
  simp only [s0]
  after_results_simp
  rfl

set_option maxRecDepth 8192 in
set_option maxHeartbeats 1000000 in
/-- Stretch 0 leaves the dense projection of the node features in main_v4. -/
theorem s0_v4 (W : Valuation τ sig (Elt F)) :
    after s0 W (no_index (Proc.devRef .tc main_v4)) = Spec.mmF (W (Proc.devRef .tc main_arg0)) (W (Proc.devRef .tc main_arg3)) := by
  simp only [s0]
  after_results_simp
  rfl

set_option maxRecDepth 8192 in
set_option maxHeartbeats 1000000 in
/-- Stretch 1 leaves the normalised neighbour sum of the projected features in main_v45. -/
theorem s1_v45 (W : Valuation τ sig (Elt F)) :
    after s1 W (no_index (Proc.devRef .tc main_v45)) = Spec.aggF (W (Proc.devRef .tc main_v4)) (W (Proc.devRef .tc main_v1)) (W (Proc.devRef .tc main_v3)) := by
  simp only [s1]
  after_results_simp
  rfl

set_option maxRecDepth 8192 in
set_option maxHeartbeats 1000000 in
/-- Stretch 2 leaves bias and rectifier in main_v49. -/
theorem s2_v49 (W : Valuation τ sig (Elt F)) :
    after s2 W (no_index (Proc.devRef .tc main_v49)) = Spec.reluBiasF (W (Proc.devRef .tc main_v45)) (W (Proc.devRef .tc main_arg4)) := by
  simp only [s2]
  after_results_simp
  rfl

set_option maxRecDepth 8192 in
set_option maxHeartbeats 1000000 in
/-- Stretch 3 leaves batch normalisation over the node rows in main_v68. -/
theorem s3_v68 (W : Valuation τ sig (Elt F)) :
    after s3 W (no_index (Proc.devRef .tc main_v68)) = Spec.bnF (W (Proc.devRef .tc main_v49)) (W (Proc.devRef .tc main_arg5)) (W (Proc.devRef .tc main_arg6)) := by
  simp only [s3]
  after_results_simp
  rfl

set_option maxRecDepth 8192 in
set_option maxHeartbeats 1000000 in
/-- Stretch 4 leaves the second layer's dense projection in main_v69. -/
theorem s4_v69 (W : Valuation τ sig (Elt F)) :
    after s4 W (no_index (Proc.devRef .tc main_v69)) = Spec.mmF (W (Proc.devRef .tc main_v68)) (W (Proc.devRef .tc main_arg7)) := by
  simp only [s4]
  after_results_simp
  rfl

set_option maxRecDepth 8192 in
set_option maxHeartbeats 1000000 in
/-- Stretch 5 leaves the second layer's normalised neighbour sum in main_v110. -/
theorem s5_v110 (W : Valuation τ sig (Elt F)) :
    after s5 W (no_index (Proc.devRef .tc main_v110)) = Spec.aggF (W (Proc.devRef .tc main_v69)) (W (Proc.devRef .tc main_v1)) (W (Proc.devRef .tc main_v3)) := by
  simp only [s5]
  after_results_simp
  rfl

set_option maxRecDepth 8192 in
set_option maxHeartbeats 1000000 in
/-- Stretch 6 leaves the second layer's bias and rectifier in main_v114. -/
theorem s6_v114 (W : Valuation τ sig (Elt F)) :
    after s6 W (no_index (Proc.devRef .tc main_v114)) = Spec.reluBiasF (W (Proc.devRef .tc main_v110)) (W (Proc.devRef .tc main_arg8)) := by
  simp only [s6]
  after_results_simp
  rfl

set_option maxRecDepth 8192 in
set_option maxHeartbeats 1000000 in
/-- Stretch 7 leaves the second layer's batch normalisation in main_v133. -/
theorem s7_v133 (W : Valuation τ sig (Elt F)) :
    after s7 W (no_index (Proc.devRef .tc main_v133)) = Spec.bnF (W (Proc.devRef .tc main_v114)) (W (Proc.devRef .tc main_arg9)) (W (Proc.devRef .tc main_arg10)) := by
  simp only [s7]
  after_results_simp
  rfl

set_option maxRecDepth 8192 in
set_option maxHeartbeats 1000000 in
/-- Stretch 8 leaves the per-graph mean of the node rows in main_v145. -/
theorem s8_v145 (W : Valuation τ sig (Elt F)) :
    after s8 W (no_index (Proc.devRef .tc main_v145)) = Spec.poolF (W (Proc.devRef .tc main_v133)) (W (Proc.devRef .tc main_arg2)) := by
  simp only [s8]
  after_results_simp
  rfl

set_option maxRecDepth 8192 in
set_option maxHeartbeats 1000000 in
/-- Stretch 9 leaves the classifier in main_v155. -/
theorem s9_v155 (W : Valuation τ sig (Elt F)) :
    after s9 W (no_index (Proc.devRef .tc main_v155)) = Spec.fcF (W (Proc.devRef .tc main_v145)) (W (Proc.devRef .tc main_arg11)) (W (Proc.devRef .tc main_arg12)) := by
  simp only [s9]
  after_results_simp
  rfl

/-- The buffer contents after @main are the stretches' results composed, the last stretch outermost. -/
theorem after_ops (V : Valuation τ sig (Elt F)) :
    after ops V = after s9 (after s8 (after s7 (after s6 (after s5 (after s4 (after s3 (after s2 (after s1 (after s0 V))))))))) := by
  rw [ops_split]
  simp only [after_append]

/-- A buffer that no stretch writes keeps its contents through @main. -/
theorem keep_all (V : Valuation τ sig (Elt F)) (r : Ref sig .tc)
    (h0 : r ∉ s0_W) (h1 : r ∉ s1_W) (h2 : r ∉ s2_W) (h3 : r ∉ s3_W) (h4 : r ∉ s4_W) (h5 : r ∉ s5_W) (h6 : r ∉ s6_W) (h7 : r ∉ s7_W) (h8 : r ∉ s8_W) (h9 : r ∉ s9_W) :
    after ops V (Proc.devRef .tc r) = V (Proc.devRef .tc r) := by
  rw [after_ops, s9_keep _ r h9, s8_keep _ r h8, s7_keep _ r h7, s6_keep _ r h6, s5_keep _ r h5, s4_keep _ r h4, s3_keep _ r h3, s2_keep _ r h2, s1_keep _ r h1, s0_keep _ r h0]

set_option maxRecDepth 8192 in
set_option maxHeartbeats 1000000 in
/-- @main's result is the stage functions composed over the arguments: each stretch's result read off in turn, the
    buffers a later stretch reads kept through the stretches between. -/
theorem out_eq (V : Valuation τ sig (Elt F)) :
    after ops V (main_v155 : DevRef τ sig)
      = Spec.outF (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [after_ops]
  simp (disch := decide) only [s9_v155, s8_v145, s7_v133, s6_v114, s5_v110, s4_v69, s3_v68, s2_v49, s1_v45, s0_v4, s0_v3, s0_v1,
    s0_keep, s1_keep, s2_keep, s3_keep, s4_keep, s5_keep, s6_keep, s7_keep, s8_keep, s9_keep, Spec.outF, Spec.layerF]

set_option maxRecDepth 8192 in
/-- @main does not write its argument 0. -/
theorem arg0_eq (V : Valuation τ sig (Elt F)) :
    after ops V (main_arg0 : DevRef τ sig) = V (main_arg0 : DevRef τ sig) :=
  keep_all V main_arg0 (by decide) (by decide) (by decide) (by decide) (by decide) (by decide) (by decide) (by decide) (by decide) (by decide)

set_option maxRecDepth 8192 in
/-- @main does not write its argument 1. -/
theorem arg1_eq (V : Valuation τ sig (Elt F)) :
    after ops V (main_arg1 : DevRef τ sig) = V (main_arg1 : DevRef τ sig) :=
  keep_all V main_arg1 (by decide) (by decide) (by decide) (by decide) (by decide) (by decide) (by decide) (by decide) (by decide) (by decide)

set_option maxRecDepth 8192 in
/-- @main does not write its argument 2. -/
theorem arg2_eq (V : Valuation τ sig (Elt F)) :
    after ops V (main_arg2 : DevRef τ sig) = V (main_arg2 : DevRef τ sig) :=
  keep_all V main_arg2 (by decide) (by decide) (by decide) (by decide) (by decide) (by decide) (by decide) (by decide) (by decide) (by decide)

set_option maxRecDepth 8192 in
/-- @main does not write its argument 3. -/
theorem arg3_eq (V : Valuation τ sig (Elt F)) :
    after ops V (main_arg3 : DevRef τ sig) = V (main_arg3 : DevRef τ sig) :=
  keep_all V main_arg3 (by decide) (by decide) (by decide) (by decide) (by decide) (by decide) (by decide) (by decide) (by decide) (by decide)

set_option maxRecDepth 8192 in
/-- @main does not write its argument 4. -/
theorem arg4_eq (V : Valuation τ sig (Elt F)) :
    after ops V (main_arg4 : DevRef τ sig) = V (main_arg4 : DevRef τ sig) :=
  keep_all V main_arg4 (by decide) (by decide) (by decide) (by decide) (by decide) (by decide) (by decide) (by decide) (by decide) (by decide)

set_option maxRecDepth 8192 in
/-- @main does not write its argument 5. -/
theorem arg5_eq (V : Valuation τ sig (Elt F)) :
    after ops V (main_arg5 : DevRef τ sig) = V (main_arg5 : DevRef τ sig) :=
  keep_all V main_arg5 (by decide) (by decide) (by decide) (by decide) (by decide) (by decide) (by decide) (by decide) (by decide) (by decide)

set_option maxRecDepth 8192 in
/-- @main does not write its argument 6. -/
theorem arg6_eq (V : Valuation τ sig (Elt F)) :
    after ops V (main_arg6 : DevRef τ sig) = V (main_arg6 : DevRef τ sig) :=
  keep_all V main_arg6 (by decide) (by decide) (by decide) (by decide) (by decide) (by decide) (by decide) (by decide) (by decide) (by decide)

set_option maxRecDepth 8192 in
/-- @main does not write its argument 7. -/
theorem arg7_eq (V : Valuation τ sig (Elt F)) :
    after ops V (main_arg7 : DevRef τ sig) = V (main_arg7 : DevRef τ sig) :=
  keep_all V main_arg7 (by decide) (by decide) (by decide) (by decide) (by decide) (by decide) (by decide) (by decide) (by decide) (by decide)

set_option maxRecDepth 8192 in
/-- @main does not write its argument 8. -/
theorem arg8_eq (V : Valuation τ sig (Elt F)) :
    after ops V (main_arg8 : DevRef τ sig) = V (main_arg8 : DevRef τ sig) :=
  keep_all V main_arg8 (by decide) (by decide) (by decide) (by decide) (by decide) (by decide) (by decide) (by decide) (by decide) (by decide)

set_option maxRecDepth 8192 in
/-- @main does not write its argument 9. -/
theorem arg9_eq (V : Valuation τ sig (Elt F)) :
    after ops V (main_arg9 : DevRef τ sig) = V (main_arg9 : DevRef τ sig) :=
  keep_all V main_arg9 (by decide) (by decide) (by decide) (by decide) (by decide) (by decide) (by decide) (by decide) (by decide) (by decide)

set_option maxRecDepth 8192 in
/-- @main does not write its argument 10. -/
theorem arg10_eq (V : Valuation τ sig (Elt F)) :
    after ops V (main_arg10 : DevRef τ sig) = V (main_arg10 : DevRef τ sig) :=
  keep_all V main_arg10 (by decide) (by decide) (by decide) (by decide) (by decide) (by decide) (by decide) (by decide) (by decide) (by decide)

set_option maxRecDepth 8192 in
/-- @main does not write its argument 11. -/
theorem arg11_eq (V : Valuation τ sig (Elt F)) :
    after ops V (main_arg11 : DevRef τ sig) = V (main_arg11 : DevRef τ sig) :=
  keep_all V main_arg11 (by decide) (by decide) (by decide) (by decide) (by decide) (by decide) (by decide) (by decide) (by decide) (by decide)

set_option maxRecDepth 8192 in
/-- @main does not write its argument 12. -/
theorem arg12_eq (V : Valuation τ sig (Elt F)) :
    after ops V (main_arg12 : DevRef τ sig) = V (main_arg12 : DevRef τ sig) :=
  keep_all V main_arg12 (by decide) (by decide) (by decide) (by decide) (by decide) (by decide) (by decide) (by decide) (by decide) (by decide)

/-- At the compiled mesh, for any float values, from any memory with zero counters: every weakly fair execution of @main
    terminates with the result buffer at the stage functions composed over the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v155)
        = Spec.outF (m ((c.tc : Thread nD τ).loc main_arg0))
            (m ((c.tc : Thread nD τ).loc main_arg1))
            (m ((c.tc : Thread nD τ).loc main_arg2))
            (m ((c.tc : Thread nD τ).loc main_arg3))
            (m ((c.tc : Thread nD τ).loc main_arg4))
            (m ((c.tc : Thread nD τ).loc main_arg5))
            (m ((c.tc : Thread nD τ).loc main_arg6))
            (m ((c.tc : Thread nD τ).loc main_arg7))
            (m ((c.tc : Thread nD τ).loc main_arg8))
            (m ((c.tc : Thread nD τ).loc main_arg9))
            (m ((c.tc : Thread nD τ).loc main_arg10))
            (m ((c.tc : Thread nD τ).loc main_arg11))
            (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v155).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_main m ρ)

end Cert.ReferenceIdeal.RefRun

end
-- ==== Proof.lean ====
/-
  The certificate: a Pallas program of two graph-convolution layers (dense projection, neighbour aggregation, bias and
  rectifier, batch normalisation), a per-graph mean pooling and a logistic classifier, against its jnp reference, at the
  ideal values (floats are extended reals, every operation exact, a change of float format the identity).

  The two programs apply the same host operations around seven kernel regions. Each region's output array, assembled
  from the blocks its grid points write back, is the reference's stage of the region's inputs: the two projections and
  the classifier's product are the same sums over the contracted axis (the conversions to bf16 are the identity here and
  a product accumulated into zero is the plain product); bias-and-rectifier and batch normalisation are the same
  expression at every entry, the kernel's one-row [1, 128] mean, variance and parameters being the reference's
  [128]-vectors entry by entry; the logistic function is 1 / (1 + exp (-x)) by definition. No law of arithmetic beyond
  these identifications is used, so the precondition (finite inputs) is never opened. The ideal pass rewrote nothing,
  so the idealization claim is trivial. The three frames: the two kernel programs' are the generated frame
  certificates; the reference's is its run with the result dropped.
-/
import proofs.«136765_j22849226015440_1_alg».proof.Defs
import proofs.«136765_j22849226015440_1_alg».proof.Proof.Gen.Kernel
import proofs.«136765_j22849226015440_1_alg».proof.Proof.Gen.Kernel.Frame
import proofs.«136765_j22849226015440_1_alg».proof.Proof.Gen.KernelIdeal
import proofs.«136765_j22849226015440_1_alg».proof.Proof.Gen.KernelIdeal.Frame
import proofs.«136765_j22849226015440_1_alg».proof.Proof.Gen.ReferenceIdeal
import proofs.«136765_j22849226015440_1_alg».proof.Proof.Gen.Pre_finite_inputs
import proofs.«136765_j22849226015440_1_alg».proof.Proof.KRun
import proofs.«136765_j22849226015440_1_alg».proof.Proof.KChain
import proofs.«136765_j22849226015440_1_alg».proof.Proof.RefRead
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both idealized programs end with the result buffer at the reference's function of the argument arrays, and the
    argument arrays agree. -/
theorem algebraic : Cert.algebraic_KernelIdeal_ReferenceIdeal := by
  intro m ρ m' ρ' _ hagree
  refine ⟨fun c => Cert.ReferenceIdeal.Spec.outF (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.KChain.result_eq m ρ c), (h c).2⟩) (Cert.KernelIdeal.KRun.run_value m ρ)
  · refine (θ_run Cert.ReferenceIdeal.defs _ _).mono (fun _ h c => ⟨(h c).1.trans ?_, (h c).2⟩)
      (Cert.ReferenceIdeal.RefRun.run (F := Ideal) m' ρ')
    obtain ⟨h0, h1, h2, h3, h4, h5, h6, h7, h8, h9, h10, h11, h12⟩ := hagree c
    rw [h0, h1, h2, h3, h4, h5, h6, h7, h8, h9, h10, h11, h12]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
